-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x256x256 : Shape := ⟨4, ![32, 3, 256, 256]⟩
abbrev S768x1024 : Shape := ⟨2, ![768, 1024]⟩
abbrev S1x1024 : Shape := ⟨2, ![1, 1024]⟩
abbrev S1024x2048 : Shape := ⟨2, ![1024, 2048]⟩
abbrev S1x2048 : Shape := ⟨2, ![1, 2048]⟩
abbrev S2048x256 : Shape := ⟨2, ![2048, 256]⟩
abbrev S1x256 : Shape := ⟨2, ![1, 256]⟩
abbrev S1024x256 : Shape := ⟨2, ![1024, 256]⟩
abbrev S2048x512 : Shape := ⟨2, ![2048, 512]⟩
abbrev S1x512 : Shape := ⟨2, ![1, 512]⟩
abbrev S512x512 : Shape := ⟨2, ![512, 512]⟩
abbrev S512x2048 : Shape := ⟨2, ![512, 2048]⟩
abbrev S256x256 : Shape := ⟨2, ![256, 256]⟩
abbrev S256x1024 : Shape := ⟨2, ![256, 1024]⟩
abbrev S_ : Shape := ⟨0, ![]⟩

class Facts : Prop where
  bcast_S_S32x3x256x256 : S_.BroadcastsInDim S32x3x256x256 (![] : Fin 0 → Fin S32x3x256x256.rank)
  reducesTo_S32x3x256x256_S_d0_1_2_3 : S32x3x256x256.ReducesTo [0, 1, 2, 3] S_
  h_S_ : 0 < S_.numel
  bcast_S_S768x1024 : S_.BroadcastsInDim S768x1024 (![] : Fin 0 → Fin S768x1024.rank)
  reducesTo_S768x1024_S_d0_1 : S768x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048x256 : S_.BroadcastsInDim S2048x256 (![] : Fin 0 → Fin S2048x256.rank)
  reducesTo_S2048x256_S_d0_1 : S2048x256.ReducesTo [0, 1] S_
  bcast_S_S1x256 : S_.BroadcastsInDim S1x256 (![] : Fin 0 → Fin S1x256.rank)
  reducesTo_S1x256_S_d0_1 : S1x256.ReducesTo [0, 1] S_
  bcast_S_S1024x256 : S_.BroadcastsInDim S1024x256 (![] : Fin 0 → Fin S1024x256.rank)
  reducesTo_S1024x256_S_d0_1 : S1024x256.ReducesTo [0, 1] S_
  bcast_S_S2048x512 : S_.BroadcastsInDim S2048x512 (![] : Fin 0 → Fin S2048x512.rank)
  reducesTo_S2048x512_S_d0_1 : S2048x512.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_
  bcast_S_S512x2048 : S_.BroadcastsInDim S512x2048 (![] : Fin 0 → Fin S512x2048.rank)
  reducesTo_S512x2048_S_d0_1 : S512x2048.ReducesTo [0, 1] S_
  bcast_S_S256x256 : S_.BroadcastsInDim S256x256 (![] : Fin 0 → Fin S256x256.rank)
  reducesTo_S256x256_S_d0_1 : S256x256.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part9 {F : FTy → Type} [FloatOps F] (main_arg31 : FVec F S256x1024 .f32) (main_arg32 : FVec F S1x1024 .f32) (main_v153 : IVec S_ 1) : IVec S_ 1 :=
  let main_v154 : FVec F S256x1024 .f32 := Host.absf main_arg31
  let main_cst_60 : FVec F S_ .f32 := constant S_ .f32 0x7F800000#32
  let main_v155 : FVec F S256x1024 .f32 := broadcastInDim S256x1024 ![] bcast_S_S256x1024 main_cst_60
  let main_v156 : IVec S256x1024 1 := cmpf .olt main_v154 main_v155
  let main_c_61 : IVec S_ 1 := constantI S_ 1 1#1
  let main_v157 : IVec S_ 1 := (fun x v => Host.reduce IntOp.andi x v reducesTo_S256x1024_S_d0_1 h_S_) main_v156 main_c_61
  let main_v158 : IVec S_ 1 := andi main_v153 main_v157
  let main_v159 : FVec F S1x1024 .f32 := Host.absf main_arg32
  let main_cst_62 : FVec F S_ .f32 := constant S_ .f32 0x7F800000#32
  let main_v160 : FVec F S1x1024 .f32 := broadcastInDim S1x1024 ![] bcast_S_S1x1024 main_cst_62
  let main_v161 : IVec S1x1024 1 := cmpf .olt main_v159 main_v160
  let main_c_63 : IVec S_ 1 := constantI S_ 1 1#1
  let main_v162 : IVec S_ 1 := (fun x v => Host.reduce IntOp.andi x v reducesTo_S1x1024_S_d0_1 h_S_) main_v161 main_c_63
  let main_v163 : IVec S_ 1 := andi main_v158 main_v162
  main_v163

def fn_part8 {F : FTy → Type} [FloatOps F] (main_arg28 : FVec F S1x256 .f32) (main_arg29 : FVec F S256x256 .f32) (main_arg30 : FVec F S1x256 .f32) (main_arg31 : FVec F S256x1024 .f32) (main_arg32 : FVec F S1x1024 .f32) (main_v133 : IVec S_ 1) (main_v136 : IVec S1024x256 1) : IVec S_ 1 :=
  let main_c_53 : IVec S_ 1 := constantI S_ 1 1#1
  let main_v137 : IVec S_ 1 := (fun x v => Host.reduce IntOp.andi x v reducesTo_S1024x256_S_d0_1 h_S_) main_v136 main_c_53
  let main_v138 : IVec S_ 1 := andi main_v133 main_v137
  let main_v139 : FVec F S1x256 .f32 := Host.absf main_arg28
  let main_cst_54 : FVec F S_ .f32 := constant S_ .f32 0x7F800000#32
  let main_v140 : FVec F S1x256 .f32 := broadcastInDim S1x256 ![] bcast_S_S1x256 main_cst_54
  let main_v141 : IVec S1x256 1 := cmpf .olt main_v139 main_v140
  let main_c_55 : IVec S_ 1 := constantI S_ 1 1#1
  let main_v142 : IVec S_ 1 := (fun x v => Host.reduce IntOp.andi x v reducesTo_S1x256_S_d0_1 h_S_) main_v141 main_c_55
  let main_v143 : IVec S_ 1 := andi main_v138 main_v142
  let main_v144 : FVec F S256x256 .f32 := Host.absf main_arg29
  let main_cst_56 : FVec F S_ .f32 := constant S_ .f32 0x7F800000#32
  let main_v145 : FVec F S256x256 .f32 := broadcastInDim S256x256 ![] bcast_S_S256x256 main_cst_56
  let main_v146 : IVec S256x256 1 := cmpf .olt main_v144 main_v145
  let main_c_57 : IVec S_ 1 := constantI S_ 1 1#1
  let main_v147 : IVec S_ 1 := (fun x v => Host.reduce IntOp.andi x v reducesTo_S256x256_S_d0_1 h_S_) main_v146 main_c_57
  let main_v148 : IVec S_ 1 := andi main_v143 main_v147
  let main_v149 : FVec F S1x256 .f32 := Host.absf main_arg30
  let main_cst_58 : FVec F S_ .f32 := constant S_ .f32 0x7F800000#32
  let main_v150 : FVec F S1x256 .f32 := broadcastInDim S1x256 ![] bcast_S_S1x256 main_cst_58
  let main_v151 : IVec S1x256 1 := cmpf .olt main_v149 main_v150
  let main_c_59 : IVec S_ 1 := constantI S_ 1 1#1
  let main_v152 : IVec S_ 1 := (fun x v => Host.reduce IntOp.andi x v reducesTo_S1x256_S_d0_1 h_S_) main_v151 main_c_59
  let main_v153 : IVec S_ 1 := andi main_v148 main_v152
  fn_part9 (F := F) main_arg31 main_arg32 main_v153

def fn_part7 {F : FTy → Type} [FloatOps F] (main_arg25 : FVec F S256x1024 .f32) (main_arg26 : FVec F S1x1024 .f32) (main_arg27 : FVec F S1024x256 .f32) (main_arg28 : FVec F S1x256 .f32) (main_arg29 : FVec F S256x256 .f32) (main_arg30 : FVec F S1x256 .f32) (main_arg31 : FVec F S256x1024 .f32) (main_arg32 : FVec F S1x1024 .f32) (main_v118 : IVec S_ 1) (main_v119 : FVec F S1x256 .f32) : IVec S_ 1 :=
  let main_cst_46 : FVec F S_ .f32 := constant S_ .f32 0x7F800000#32
  let main_v120 : FVec F S1x256 .f32 := broadcastInDim S1x256 ![] bcast_S_S1x256 main_cst_46
  let main_v121 : IVec S1x256 1 := cmpf .olt main_v119 main_v120
  let main_c_47 : IVec S_ 1 := constantI S_ 1 1#1
  let main_v122 : IVec S_ 1 := (fun x v => Host.reduce IntOp.andi x v reducesTo_S1x256_S_d0_1 h_S_) main_v121 main_c_47
  let main_v123 : IVec S_ 1 := andi main_v118 main_v122
  let main_v124 : FVec F S256x1024 .f32 := Host.absf main_arg25
  let main_cst_48 : FVec F S_ .f32 := constant S_ .f32 0x7F800000#32
  let main_v125 : FVec F S256x1024 .f32 := broadcastInDim S256x1024 ![] bcast_S_S256x1024 main_cst_48
  let main_v126 : IVec S256x1024 1 := cmpf .olt main_v124 main_v125
  let main_c_49 : IVec S_ 1 := constantI S_ 1 1#1
  let main_v127 : IVec S_ 1 := (fun x v => Host.reduce IntOp.andi x v reducesTo_S256x1024_S_d0_1 h_S_) main_v126 main_c_49
  let main_v128 : IVec S_ 1 := andi main_v123 main_v127
  let main_v129 : FVec F S1x1024 .f32 := Host.absf main_arg26
  let main_cst_50 : FVec F S_ .f32 := constant S_ .f32 0x7F800000#32
  let main_v130 : FVec F S1x1024 .f32 := broadcastInDim S1x1024 ![] bcast_S_S1x1024 main_cst_50
  let main_v131 : IVec S1x1024 1 := cmpf .olt main_v129 main_v130
  let main_c_51 : IVec S_ 1 := constantI S_ 1 1#1
  let main_v132 : IVec S_ 1 := (fun x v => Host.reduce IntOp.andi x v reducesTo_S1x1024_S_d0_1 h_S_) main_v131 main_c_51
  let main_v133 : IVec S_ 1 := andi main_v128 main_v132
  let main_v134 : FVec F S1024x256 .f32 := Host.absf main_arg27
  let main_cst_52 : FVec F S_ .f32 := constant S_ .f32 0x7F800000#32
  let main_v135 : FVec F S1024x256 .f32 := broadcastInDim S1024x256 ![] bcast_S_S1024x256 main_cst_52
  let main_v136 : IVec S1024x256 1 := cmpf .olt main_v134 main_v135
  fn_part8 (F := F) main_arg28 main_arg29 main_arg30 main_arg31 main_arg32 main_v133 main_v136

def fn_part6 {F : FTy → Type} [FloatOps F] (main_arg21 : FVec F S1024x256 .f32) (main_arg22 : FVec F S1x256 .f32) (main_arg23 : FVec F S256x256 .f32) (main_arg24 : FVec F S1x256 .f32) (main_arg25 : FVec F S256x1024 .f32) (main_arg26 : FVec F S1x1024 .f32) (main_arg27 : FVec F S1024x256 .f32) (main_arg28 : FVec F S1x256 .f32) (main_arg29 : FVec F S256x256 .f32) (main_arg30 : FVec F S1x256 .f32) (main_arg31 : FVec F S256x1024 .f32) (main_arg32 : FVec F S1x1024 .f32) (main_v98 : IVec S_ 1) (main_v101 : IVec S1x2048 1) (main_c_39 : IVec S_ 1) : IVec S_ 1 :=
  let main_v102 : IVec S_ 1 := (fun x v => Host.reduce IntOp.andi x v reducesTo_S1x2048_S_d0_1 h_S_) main_v101 main_c_39
  let main_v103 : IVec S_ 1 := andi main_v98 main_v102
  let main_v104 : FVec F S1024x256 .f32 := Host.absf main_arg21
  let main_cst_40 : FVec F S_ .f32 := constant S_ .f32 0x7F800000#32
  let main_v105 : FVec F S1024x256 .f32 := broadcastInDim S1024x256 ![] bcast_S_S1024x256 main_cst_40
  let main_v106 : IVec S1024x256 1 := cmpf .olt main_v104 main_v105
  let main_c_41 : IVec S_ 1 := constantI S_ 1 1#1
  let main_v107 : IVec S_ 1 := (fun x v => Host.reduce IntOp.andi x v reducesTo_S1024x256_S_d0_1 h_S_) main_v106 main_c_41
  let main_v108 : IVec S_ 1 := andi main_v103 main_v107
  let main_v109 : FVec F S1x256 .f32 := Host.absf main_arg22
  let main_cst_42 : FVec F S_ .f32 := constant S_ .f32 0x7F800000#32
  let main_v110 : FVec F S1x256 .f32 := broadcastInDim S1x256 ![] bcast_S_S1x256 main_cst_42
  let main_v111 : IVec S1x256 1 := cmpf .olt main_v109 main_v110
  let main_c_43 : IVec S_ 1 := constantI S_ 1 1#1
  let main_v112 : IVec S_ 1 := (fun x v => Host.reduce IntOp.andi x v reducesTo_S1x256_S_d0_1 h_S_) main_v111 main_c_43
  let main_v113 : IVec S_ 1 := andi main_v108 main_v112
  let main_v114 : FVec F S256x256 .f32 := Host.absf main_arg23
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S1x256 .f32 := Host.absf main_arg24
  fn_part7 (F := F) main_arg25 main_arg26 main_arg27 main_arg28 main_arg29 main_arg30 main_arg31 main_arg32 main_v118 main_v119

def fn_part5 {F : FTy → Type} [FloatOps F] (main_arg18 : FVec F S1x512 .f32) (main_arg19 : FVec F S512x2048 .f32) (main_arg20 : FVec F S1x2048 .f32) (main_arg21 : FVec F S1024x256 .f32) (main_arg22 : FVec F S1x256 .f32) (main_arg23 : FVec F S256x256 .f32) (main_arg24 : FVec F S1x256 .f32) (main_arg25 : FVec F S256x1024 .f32) (main_arg26 : FVec F S1x1024 .f32) (main_arg27 : FVec F S1024x256 .f32) (main_arg28 : FVec F S1x256 .f32) (main_arg29 : FVec F S256x256 .f32) (main_arg30 : FVec F S1x256 .f32) (main_arg31 : FVec F S256x1024 .f32) (main_arg32 : FVec F S1x1024 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S1x512 .f32 := Host.absf main_arg18
  let main_cst_34 : FVec F S_ .f32 := constant S_ .f32 0x7F800000#32
  let main_v90 : FVec F S1x512 .f32 := broadcastInDim S1x512 ![] bcast_S_S1x512 main_cst_34
  let main_v91 : IVec S1x512 1 := cmpf .olt main_v89 main_v90
  let main_c_35 : IVec S_ 1 := constantI S_ 1 1#1
  let main_v92 : IVec S_ 1 := (fun x v => Host.reduce IntOp.andi x v reducesTo_S1x512_S_d0_1 h_S_) main_v91 main_c_35
  let main_v93 : IVec S_ 1 := andi main_v88 main_v92
  let main_v94 : FVec F S512x2048 .f32 := Host.absf main_arg19
  let main_cst_36 : FVec F S_ .f32 := constant S_ .f32 0x7F800000#32
  let main_v95 : FVec F S512x2048 .f32 := broadcastInDim S512x2048 ![] bcast_S_S512x2048 main_cst_36
  let main_v96 : IVec S512x2048 1 := cmpf .olt main_v94 main_v95
  let main_c_37 : IVec S_ 1 := constantI S_ 1 1#1
  let main_v97 : IVec S_ 1 := (fun x v => Host.reduce IntOp.andi x v reducesTo_S512x2048_S_d0_1 h_S_) main_v96 main_c_37
  let main_v98 : IVec S_ 1 := andi main_v93 main_v97
  let main_v99 : FVec F S1x2048 .f32 := Host.absf main_arg20
  let main_cst_38 : FVec F S_ .f32 := constant S_ .f32 0x7F800000#32
  let main_v100 : FVec F S1x2048 .f32 := broadcastInDim S1x2048 ![] bcast_S_S1x2048 main_cst_38
  let main_v101 : IVec S1x2048 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_v98 main_v101 main_c_39

def fn_part4 {F : FTy → Type} [FloatOps F] (main_arg14 : FVec F S1x2048 .f32) (main_arg15 : FVec F S2048x512 .f32) (main_arg16 : FVec F S1x512 .f32) (main_arg17 : FVec F S512x512 .f32) (main_arg18 : FVec F S1x512 .f32) (main_arg19 : FVec F S512x2048 .f32) (main_arg20 : FVec F S1x2048 .f32) (main_arg21 : FVec F S1024x256 .f32) (main_arg22 : FVec F S1x256 .f32) (main_arg23 : FVec F S256x256 .f32) (main_arg24 : FVec F S1x256 .f32) (main_arg25 : FVec F S256x1024 .f32) (main_arg26 : FVec F S1x1024 .f32) (main_arg27 : FVec F S1024x256 .f32) (main_arg28 : FVec F S1x256 .f32) (main_arg29 : FVec F S256x256 .f32) (main_arg30 : FVec F S1x256 .f32) (main_arg31 : FVec F S256x1024 .f32) (main_arg32 : FVec F S1x1024 .f32) (main_v63 : IVec S_ 1) (main_v67 : IVec S_ 1) : IVec S_ 1 :=
  let main_v68 : IVec S_ 1 := andi main_v63 main_v67
  let main_v69 : FVec F S1x2048 .f32 := Host.absf main_arg14
  let main_cst_26 : FVec F S_ .f32 := constant S_ .f32 0x7F800000#32
  let main_v70 : FVec F S1x2048 .f32 := broadcastInDim S1x2048 ![] bcast_S_S1x2048 main_cst_26
  let main_v71 : IVec S1x2048 1 := cmpf .olt main_v69 main_v70
  let main_c_27 : IVec S_ 1 := constantI S_ 1 1#1
  let main_v72 : IVec S_ 1 := (fun x v => Host.reduce IntOp.andi x v reducesTo_S1x2048_S_d0_1 h_S_) main_v71 main_c_27
  let main_v73 : IVec S_ 1 := andi main_v68 main_v72
  let main_v74 : FVec F S2048x512 .f32 := Host.absf main_arg15
  let main_cst_28 : FVec F S_ .f32 := constant S_ .f32 0x7F800000#32
  let main_v75 : FVec F S2048x512 .f32 := broadcastInDim S2048x512 ![] bcast_S_S2048x512 main_cst_28
  let main_v76 : IVec S2048x512 1 := cmpf .olt main_v74 main_v75
  let main_c_29 : IVec S_ 1 := constantI S_ 1 1#1
  let main_v77 : IVec S_ 1 := (fun x v => Host.reduce IntOp.andi x v reducesTo_S2048x512_S_d0_1 h_S_) main_v76 main_c_29
  let main_v78 : IVec S_ 1 := andi main_v73 main_v77
  let main_v79 : FVec F S1x512 .f32 := Host.absf main_arg16
  let main_cst_30 : FVec F S_ .f32 := constant S_ .f32 0x7F800000#32
  let main_v80 : FVec F S1x512 .f32 := broadcastInDim S1x512 ![] bcast_S_S1x512 main_cst_30
  let main_v81 : IVec S1x512 1 := cmpf .olt main_v79 main_v80
  let main_c_31 : IVec S_ 1 := constantI S_ 1 1#1
  let main_v82 : IVec S_ 1 := (fun x v => Host.reduce IntOp.andi x v reducesTo_S1x512_S_d0_1 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg11 : FVec F S512x512 .f32) (main_arg12 : FVec F S1x512 .f32) (main_arg13 : FVec F S512x2048 .f32) (main_arg14 : FVec F S1x2048 .f32) (main_arg15 : FVec F S2048x512 .f32) (main_arg16 : FVec F S1x512 .f32) (main_arg17 : FVec F S512x512 .f32) (main_arg18 : FVec F S1x512 .f32) (main_arg19 : FVec F S512x2048 .f32) (main_arg20 : FVec F S1x2048 .f32) (main_arg21 : FVec F S1024x256 .f32) (main_arg22 : FVec F S1x256 .f32) (main_arg23 : FVec F S256x256 .f32) (main_arg24 : FVec F S1x256 .f32) (main_arg25 : FVec F S256x1024 .f32) (main_arg26 : FVec F S1x1024 .f32) (main_arg27 : FVec F S1024x256 .f32) (main_arg28 : FVec F S1x256 .f32) (main_arg29 : FVec F S256x256 .f32) (main_arg30 : FVec F S1x256 .f32) (main_arg31 : FVec F S256x1024 .f32) (main_arg32 : FVec F S1x1024 .f32) (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S1x512 .f32 := Host.absf main_arg12
  let main_cst_22 : FVec F S_ .f32 := constant S_ .f32 0x7F800000#32
  let main_v60 : FVec F S1x512 .f32 := broadcastInDim S1x512 ![] bcast_S_S1x512 main_cst_22
  let main_v61 : IVec S1x512 1 := cmpf .olt main_v59 main_v60
  let main_c_23 : IVec S_ 1 := constantI S_ 1 1#1
  let main_v62 : IVec S_ 1 := (fun x v => Host.reduce IntOp.andi x v reducesTo_S1x512_S_d0_1 h_S_) main_v61 main_c_23
  let main_v63 : IVec S_ 1 := andi main_v58 main_v62
  let main_v64 : FVec F S512x2048 .f32 := Host.absf main_arg13
  let main_cst_24 : FVec F S_ .f32 := constant S_ .f32 0x7F800000#32
  let main_v65 : FVec F S512x2048 .f32 := broadcastInDim S512x2048 ![] bcast_S_S512x2048 main_cst_24
  let main_v66 : IVec S512x2048 1 := cmpf .olt main_v64 main_v65
  let main_c_25 : IVec S_ 1 := constantI S_ 1 1#1
  let main_v67 : IVec S_ 1 := (fun x v => Host.reduce IntOp.andi x v reducesTo_S512x2048_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg7 : FVec F S1024x256 .f32) (main_arg8 : FVec F S1x256 .f32) (main_arg9 : FVec F S2048x512 .f32) (main_arg10 : FVec F S1x512 .f32) (main_arg11 : FVec F S512x512 .f32) (main_arg12 : FVec F S1x512 .f32) (main_arg13 : FVec F S512x2048 .f32) (main_arg14 : FVec F S1x2048 .f32) (main_arg15 : FVec F S2048x512 .f32) (main_arg16 : FVec F S1x512 .f32) (main_arg17 : FVec F S512x512 .f32) (main_arg18 : FVec F S1x512 .f32) (main_arg19 : FVec F S512x2048 .f32) (main_arg20 : FVec F S1x2048 .f32) (main_arg21 : FVec F S1024x256 .f32) (main_arg22 : FVec F S1x256 .f32) (main_arg23 : FVec F S256x256 .f32) (main_arg24 : FVec F S1x256 .f32) (main_arg25 : FVec F S256x1024 .f32) (main_arg26 : FVec F S1x1024 .f32) (main_arg27 : FVec F S1024x256 .f32) (main_arg28 : FVec F S1x256 .f32) (main_arg29 : FVec F S256x256 .f32) (main_arg30 : FVec F S1x256 .f32) (main_arg31 : FVec F S256x1024 .f32) (main_arg32 : FVec F S1x1024 .f32) (main_v33 : IVec S_ 1) : IVec S_ 1 :=
  let main_v34 : FVec F S1024x256 .f32 := Host.absf main_arg7
  let main_cst_12 : FVec F S_ .f32 := constant S_ .f32 0x7F800000#32
  let main_v35 : FVec F S1024x256 .f32 := broadcastInDim S1024x256 ![] bcast_S_S1024x256 main_cst_12
  let main_v36 : IVec S1024x256 1 := cmpf .olt main_v34 main_v35
  let main_c_13 : IVec S_ 1 := constantI S_ 1 1#1
  let main_v37 : IVec S_ 1 := (fun x v => Host.reduce IntOp.andi x v reducesTo_S1024x256_S_d0_1 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S2048x512 .f32 := Host.absf main_arg9
  let main_cst_16 : FVec F S_ .f32 := constant S_ .f32 0x7F800000#32
  let main_v45 : FVec F S2048x512 .f32 := broadcastInDim S2048x512 ![] bcast_S_S2048x512 main_cst_16
  let main_v46 : IVec S2048x512 1 := cmpf .olt main_v44 main_v45
  let main_c_17 : IVec S_ 1 := constantI S_ 1 1#1
  let main_v47 : IVec S_ 1 := (fun x v => Host.reduce IntOp.andi x v reducesTo_S2048x512_S_d0_1 h_S_) main_v46 main_c_17
  let main_v48 : IVec S_ 1 := andi main_v43 main_v47
  let main_v49 : FVec F S1x512 .f32 := Host.absf main_arg10
  let main_cst_18 : FVec F S_ .f32 := constant S_ .f32 0x7F800000#32
  let main_v50 : FVec F S1x512 .f32 := broadcastInDim S1x512 ![] bcast_S_S1x512 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg4 : FVec F S1x2048 .f32) (main_arg5 : FVec F S2048x256 .f32) (main_arg6 : FVec F S1x256 .f32) (main_arg7 : FVec F S1024x256 .f32) (main_arg8 : FVec F S1x256 .f32) (main_arg9 : FVec F S2048x512 .f32) (main_arg10 : FVec F S1x512 .f32) (main_arg11 : FVec F S512x512 .f32) (main_arg12 : FVec F S1x512 .f32) (main_arg13 : FVec F S512x2048 .f32) (main_arg14 : FVec F S1x2048 .f32) (main_arg15 : FVec F S2048x512 .f32) (main_arg16 : FVec F S1x512 .f32) (main_arg17 : FVec F S512x512 .f32) (main_arg18 : FVec F S1x512 .f32) (main_arg19 : FVec F S512x2048 .f32) (main_arg20 : FVec F S1x2048 .f32) (main_arg21 : FVec F S1024x256 .f32) (main_arg22 : FVec F S1x256 .f32) (main_arg23 : FVec F S256x256 .f32) (main_arg24 : FVec F S1x256 .f32) (main_arg25 : FVec F S256x1024 .f32) (main_arg26 : FVec F S1x1024 .f32) (main_arg27 : FVec F S1024x256 .f32) (main_arg28 : FVec F S1x256 .f32) (main_arg29 : FVec F S256x256 .f32) (main_arg30 : FVec F S1x256 .f32) (main_arg31 : FVec F S256x1024 .f32) (main_arg32 : FVec F S1x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S2048x256 .f32 := Host.absf main_arg5
  let main_cst_8 : FVec F S_ .f32 := constant S_ .f32 0x7F800000#32
  let main_v25 : FVec F S2048x256 .f32 := broadcastInDim S2048x256 ![] bcast_S_S2048x256 main_cst_8
  let main_v26 : IVec S2048x256 1 := cmpf .olt main_v24 main_v25
  let main_c_9 : IVec S_ 1 := constantI S_ 1 1#1
  let main_v27 : IVec S_ 1 := (fun x v => Host.reduce IntOp.andi x v reducesTo_S2048x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S32x3x256x256 .f32) (main_arg1 : FVec F S768x1024 .f32) (main_arg2 : FVec F S1x1024 .f32) (main_arg3 : FVec F S1024x2048 .f32) (main_arg4 : FVec F S1x2048 .f32) (main_arg5 : FVec F S2048x256 .f32) (main_arg6 : FVec F S1x256 .f32) (main_arg7 : FVec F S1024x256 .f32) (main_arg8 : FVec F S1x256 .f32) (main_arg9 : FVec F S2048x512 .f32) (main_arg10 : FVec F S1x512 .f32) (main_arg11 : FVec F S512x512 .f32) (main_arg12 : FVec F S1x512 .f32) (main_arg13 : FVec F S512x2048 .f32) (main_arg14 : FVec F S1x2048 .f32) (main_arg15 : FVec F S2048x512 .f32) (main_arg16 : FVec F S1x512 .f32) (main_arg17 : FVec F S512x512 .f32) (main_arg18 : FVec F S1x512 .f32) (main_arg19 : FVec F S512x2048 .f32) (main_arg20 : FVec F S1x2048 .f32) (main_arg21 : FVec F S1024x256 .f32) (main_arg22 : FVec F S1x256 .f32) (main_arg23 : FVec F S256x256 .f32) (main_arg24 : FVec F S1x256 .f32) (main_arg25 : FVec F S256x1024 .f32) (main_arg26 : FVec F S1x1024 .f32) (main_arg27 : FVec F S1024x256 .f32) (main_arg28 : FVec F S1x256 .f32) (main_arg29 : FVec F S256x256 .f32) (main_arg30 : FVec F S1x256 .f32) (main_arg31 : FVec F S256x1024 .f32) (main_arg32 : FVec F S1x1024 .f32) : IVec S_ 1 :=
  let main_v0 : FVec F S32x3x256x256 .f32 := Host.absf main_arg0
  let main_cst : FVec F S_ .f32 := constant S_ .f32 0x7F800000#32
  let main_v1 : FVec F S32x3x256x256 .f32 := broadcastInDim S32x3x256x256 ![] bcast_S_S32x3x256x256 main_cst
  let main_v2 : IVec S32x3x256x256 1 := cmpf .olt main_v0 main_v1
  let main_c : IVec S_ 1 := constantI S_ 1 1#1
  let main_v3 : IVec S_ 1 := (fun x v => Host.reduce IntOp.andi x v reducesTo_S32x3x256x256_S_d0_1_2_3 h_S_) main_v2 main_c
  let main_v4 : FVec F S768x1024 .f32 := Host.absf main_arg1
  let main_cst_0 : FVec F S_ .f32 := constant S_ .f32 0x7F800000#32
  let main_v5 : FVec F S768x1024 .f32 := broadcastInDim S768x1024 ![] bcast_S_S768x1024 main_cst_0
  let main_v6 : IVec S768x1024 1 := cmpf .olt main_v4 main_v5
  let main_c_1 : IVec S_ 1 := constantI S_ 1 1#1
  let main_v7 : IVec S_ 1 := (fun x v => Host.reduce IntOp.andi x v reducesTo_S768x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S32x3x256x256 : Shape := ⟨4, ![32, 3, 256, 256]⟩
abbrev S768x1024 : Shape := ⟨2, ![768, 1024]⟩
abbrev S1x1024 : Shape := ⟨2, ![1, 1024]⟩
abbrev S1024x2048 : Shape := ⟨2, ![1024, 2048]⟩
abbrev S1x2048 : Shape := ⟨2, ![1, 2048]⟩
abbrev S2048x256 : Shape := ⟨2, ![2048, 256]⟩
abbrev S1x256 : Shape := ⟨2, ![1, 256]⟩
abbrev S1024x256 : Shape := ⟨2, ![1024, 256]⟩
abbrev S2048x512 : Shape := ⟨2, ![2048, 512]⟩
abbrev S1x512 : Shape := ⟨2, ![1, 512]⟩
abbrev S512x512 : Shape := ⟨2, ![512, 512]⟩
abbrev S512x2048 : Shape := ⟨2, ![512, 2048]⟩
abbrev S256x256 : Shape := ⟨2, ![256, 256]⟩
abbrev S256x1024 : Shape := ⟨2, ![256, 1024]⟩
abbrev S32x3x16x16x16x16 : Shape := ⟨6, ![32, 3, 16, 16, 16, 16]⟩
abbrev S32x16x16x3x16x16 : Shape := ⟨6, ![32, 16, 16, 3, 16, 16]⟩
abbrev S8192x768 : Shape := ⟨2, ![8192, 768]⟩
abbrev S32x256x256 : Shape := ⟨3, ![32, 256, 256]⟩
abbrev S1024x768 : Shape := ⟨2, ![1024, 768]⟩
abbrev S4x256x256 : Shape := ⟨3, ![4, 256, 256]⟩
abbrev S32x1024 : Shape := ⟨2, ![32, 1024]⟩
abbrev S1024x1024 : Shape := ⟨2, ![1024, 1024]⟩
abbrev S4x32x8x1024 : Shape := ⟨4, ![4, 32, 8, 1024]⟩
abbrev S4x8x1024 : Shape := ⟨3, ![4, 8, 1024]⟩
abbrev S32x257x256 : Shape := ⟨3, ![32, 257, 256]⟩
abbrev S64x1024 : Shape := ⟨2, ![64, 1024]⟩
abbrev S8x256x256 : Shape := ⟨3, ![8, 256, 256]⟩
abbrev S8x257x256 : Shape := ⟨3, ![8, 257, 256]⟩
abbrev S8x8x1024 : Shape := ⟨3, ![8, 8, 1024]⟩
abbrev S8x1024 : Shape := ⟨2, ![8, 1024]⟩
abbrev S8x2048 : Shape := ⟨2, ![8, 2048]⟩
abbrev S8x512 : Shape := ⟨2, ![8, 512]⟩
abbrev S8x256 : Shape := ⟨2, ![8, 256]⟩
abbrev S8x1x256 : Shape := ⟨3, ![8, 1, 256]⟩

abbrev nBuf : Space → Nat
  | .hbm => 56
  | .vmem => 44
  | .smem => 0
  | _ => 0

abbrev bufTy : (tb : Table) → Fin (tcTables nBuf tb) → BufTy
  | .hbm, ⟨0, _⟩ => ⟨S32x3x256x256, .f32⟩
  | .hbm, ⟨1, _⟩ => ⟨S768x1024, .f32⟩
  | .hbm, ⟨2, _⟩ => ⟨S1x1024, .f32⟩
  | .hbm, ⟨3, _⟩ => ⟨S1024x2048, .f32⟩
  | .hbm, ⟨4, _⟩ => ⟨S1x2048, .f32⟩
  | .hbm, ⟨5, _⟩ => ⟨S2048x256, .f32⟩
  | .hbm, ⟨6, _⟩ => ⟨S1x256, .f32⟩
  | .hbm, ⟨7, _⟩ => ⟨S1024x256, .f32⟩
  | .hbm, ⟨8, _⟩ => ⟨S1x256, .f32⟩
  | .hbm, ⟨9, _⟩ => ⟨S2048x512, .f32⟩
  | .hbm, ⟨10, _⟩ => ⟨S1x512, .f32⟩
  | .hbm, ⟨11, _⟩ => ⟨S512x512, .f32⟩
  | .hbm, ⟨12, _⟩ => ⟨S1x512, .f32⟩
  | .hbm, ⟨13, _⟩ => ⟨S512x2048, .f32⟩
  | .hbm, ⟨14, _⟩ => ⟨S1x2048, .f32⟩
  | .hbm, ⟨15, _⟩ => ⟨S2048x512, .f32⟩
  | .hbm, ⟨16, _⟩ => ⟨S1x512, .f32⟩
  | .hbm, ⟨17, _⟩ => ⟨S512x512, .f32⟩
  | .hbm, ⟨18, _⟩ => ⟨S1x512, .f32⟩
  | .hbm, ⟨19, _⟩ => ⟨S512x2048, .f32⟩
  | .hbm, ⟨20, _⟩ => ⟨S1x2048, .f32⟩
  | .hbm, ⟨21, _⟩ => ⟨S1024x256, .f32⟩
  | .hbm, ⟨22, _⟩ => ⟨S1x256, .f32⟩
  | .hbm, ⟨23, _⟩ => ⟨S256x256, .f32⟩
  | .hbm, ⟨24, _⟩ => ⟨S1x256, .f32⟩
  | .hbm, ⟨25, _⟩ => ⟨S256x1024, .f32⟩
  | .hbm, ⟨26, _⟩ => ⟨S1x1024, .f32⟩
  | .hbm, ⟨27, _⟩ => ⟨S1024x256, .f32⟩
  | .hbm, ⟨28, _⟩ => ⟨S1x256, .f32⟩
  | .hbm, ⟨29, _⟩ => ⟨S256x256, .f32⟩
  | .hbm, ⟨30, _⟩ => ⟨S1x256, .f32⟩
  | .hbm, ⟨31, _⟩ => ⟨S256x1024, .f32⟩
  | .hbm, ⟨32, _⟩ => ⟨S1x1024, .f32⟩
  | .hbm, ⟨33, _⟩ => ⟨S32x3x256x256, .bf16⟩
  | .hbm, ⟨34, _⟩ => ⟨S32x3x16x16x16x16, .bf16⟩
  | .hbm, ⟨35, _⟩ => ⟨S32x16x16x3x16x16, .bf16⟩
  | .hbm, ⟨36, _⟩ => ⟨S8192x768, .bf16⟩
  | .hbm, ⟨37, _⟩ => ⟨S768x1024, .bf16⟩
  | .hbm, ⟨38, _⟩ => ⟨S1024x256, .bf16⟩
  | .hbm, ⟨39, _⟩ => ⟨S256x256, .bf16⟩
  | .hbm, ⟨40, _⟩ => ⟨S256x1024, .bf16⟩
  | .hbm, ⟨41, _⟩ => ⟨S1024x256, .bf16⟩
  | .hbm, ⟨42, _⟩ => ⟨S256x256, .bf16⟩
  | .hbm, ⟨43, _⟩ => ⟨S256x1024, .bf16⟩
  | .hbm, ⟨44, _⟩ => ⟨S1024x256, .bf16⟩
  | .hbm, ⟨45, _⟩ => ⟨S32x256x256, .f32⟩
  | .hbm, ⟨46, _⟩ => ⟨S256x1024, .f32⟩
  | .hbm, ⟨47, _⟩ => ⟨S1024x2048, .bf16⟩
  | .hbm, ⟨48, _⟩ => ⟨S2048x512, .bf16⟩
  | .hbm, ⟨49, _⟩ => ⟨S512x512, .bf16⟩
  | .hbm, ⟨50, _⟩ => ⟨S512x2048, .bf16⟩
  | .hbm, ⟨51, _⟩ => ⟨S2048x512, .bf16⟩
  | .hbm, ⟨52, _⟩ => ⟨S512x512, .bf16⟩
  | .hbm, ⟨53, _⟩ => ⟨S512x2048, .bf16⟩
  | .hbm, ⟨54, _⟩ => ⟨S2048x256, .bf16⟩
  | .hbm, ⟨55, _⟩ => ⟨S32x257x256, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S1x1024, .f32⟩
  | .local _ .vmem, ⟨4, _⟩ => ⟨S1024x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x1024, .bf16⟩
  | .local _ .vmem, ⟨9, _⟩ => ⟨S1x1024, .f32⟩
  | .local _ .vmem, ⟨10, _⟩ => ⟨S1024x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S256x1024, .bf16⟩
  | .local _ .vmem, ⟨15, _⟩ => ⟨S1x1024, .f32⟩
  | .local _ .vmem, ⟨16, _⟩ => ⟨S1024x256, .bf16⟩
  | .local _ .vmem, ⟨17, _⟩ => ⟨S1x256, .f32⟩
  | .local _ .vmem, ⟨18, _⟩ => ⟨S4x256x256, .f32⟩
  | .local _ .vmem, ⟨19, _⟩ => ⟨S4x256x256, .f32⟩
  | .local _ .vmem, ⟨20, _⟩ => ⟨S32x1024, .f32⟩
  | .local _ .vmem, ⟨21, _⟩ => ⟨S32x1024, .f32⟩
  | .local _ .vmem, ⟨22, _⟩ => ⟨S64x1024, .f32⟩
  | .local _ .vmem, ⟨23, _⟩ => ⟨S64x1024, .f32⟩
  | .local _ .vmem, ⟨24, _⟩ => ⟨S8x256x256, .f32⟩
  | .local _ .vmem, ⟨25, _⟩ => ⟨S8x256x256, .f32⟩
  | .local _ .vmem, ⟨26, _⟩ => ⟨S1024x2048, .bf16⟩
  | .local _ .vmem, ⟨27, _⟩ => ⟨S1x2048, .f32⟩
  | .local _ .vmem, ⟨28, _⟩ => ⟨S2048x512, .bf16⟩
  | .local _ .vmem, ⟨29, _⟩ => ⟨S1x512, .f32⟩
  | .local _ .vmem, ⟨30, _⟩ => ⟨S512x512, .bf16⟩
  | .local _ .vmem, ⟨31, _⟩ => ⟨S1x512, .f32⟩
  | .local _ .vmem, ⟨32, _⟩ => ⟨S512x2048, .bf16⟩
  | .local _ .vmem, ⟨33, _⟩ => ⟨S1x2048, .f32⟩
  | .local _ .vmem, ⟨34, _⟩ => ⟨S2048x512, .bf16⟩
  | .local _ .vmem, ⟨35, _⟩ => ⟨S1x512, .f32⟩
  | .local _ .vmem, ⟨36, _⟩ => ⟨S512x512, .bf16⟩
  | .local _ .vmem, ⟨37, _⟩ => ⟨S1x512, .f32⟩
  | .local _ .vmem, ⟨38, _⟩ => ⟨S512x2048, .bf16⟩
  | .local _ .vmem, ⟨39, _⟩ => ⟨S1x2048, .f32⟩
  | .local _ .vmem, ⟨40, _⟩ => ⟨S2048x256, .bf16⟩
  | .local _ .vmem, ⟨41, _⟩ => ⟨S1x256, .f32⟩
  | .local _ .vmem, ⟨42, _⟩ => ⟨S8x257x256, .f32⟩
  | .local _ .vmem, ⟨43, _⟩ => ⟨S8x257x256, .f32⟩
  | _, _ => ⟨S32x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12_0 : Ref sig .tc := ⟨.hbm, 45, rfl⟩
abbrev main_v12_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg13_0 : Ref sig .tc := ⟨.vmem, 37, rfl⟩
abbrev cc1_stg14_0 : Ref sig .tc := ⟨.vmem, 38, rfl⟩
abbrev cc1_stg15_0 : Ref sig .tc := ⟨.vmem, 39, rfl⟩
abbrev cc1_stg16_0 : Ref sig .tc := ⟨.vmem, 40, rfl⟩
abbrev cc1_stg17_0 : Ref sig .tc := ⟨.vmem, 41, rfl⟩
abbrev cc1_stg18_0 : Ref sig .tc := ⟨.vmem, 42, rfl⟩
abbrev cc1_stg18_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem12_0 : DmaSem sig := 36
abbrev cc1_sem13_0 : DmaSem sig := 37
abbrev cc1_sem14_0 : DmaSem sig := 38
abbrev cc1_sem15_0 : DmaSem sig := 39
abbrev cc1_sem16_0 : DmaSem sig := 40
abbrev cc1_sem17_0 : DmaSem sig := 41
abbrev cc1_sem18_0 : DmaSem sig := 42
abbrev cc1_sem18_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2048x512 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S512x512 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S512x2048 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x2048 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S2048x256 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S8x257x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

class Facts₀ : Prop where
  bitsLt_bf16_f32 : FTy.bits .bf16 < FTy.bits .f32
  shapeCasts_S32x3x256x256_S32x3x16x16x16x16 : S32x3x256x256.ShapeCasts S32x3x16x16x16x16
  transposes_S32x3x16x16x16x16_S32x16x16x3x16x16_0_2_4_1_3_5 : S32x3x16x16x16x16.Transposes [0, 2, 4, 1, 3, 5] S32x16x16x3x16x16
  shapeCasts_S32x16x16x3x16x16_S8192x768 : S32x16x16x3x16x16.ShapeCasts S8192x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  shapeCasts_S1024x1024_S4x32x8x1024 : S1024x1024.ShapeCasts S4x32x8x1024
  reduces_S4x32x8x1024_S4x8x1024 : S4x32x8x1024.Reduces [1] S4x8x1024
  shapeCasts_S4x8x1024_S32x1024 : S4x8x1024.ShapeCasts S32x1024
  inb_S32x1024_S32x1024_0_0 : ∀ a, (![0, 0] : Fin 2 → Nat) a + S32x1024.size a ≤ S32x1024.size a
  h_S32x1024 : 0 < S32x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S1x256_S1024x256 : S1x256.Broadcasts S1024x256
  shapeCasts_S1024x256_S4x256x256 : S1024x256.ShapeCasts S4x256x256
  inb_S4x256x256_S4x256x256_0_0_0 : ∀ a, (![0, 0, 0] : Fin 3 → Nat) a + S4x256x256.size a ≤ S4x256x256.size a
  h_S4x256x256 : 0 < S4x256x256.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S64x1024_S8x8x1024 : S64x1024.ShapeCasts S8x8x1024
  reduces_S8x8x1024_S8x1024 : S8x8x1024.Reduces [1] S8x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  broadcasts_S1x2048_S8x2048 : S1x2048.Broadcasts S8x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x512_S8x512 : S1x512.Broadcasts S8x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1x256_S8x256 : S1x256.Broadcasts S8x256
  shapeCasts_S8x256_S8x1x256 : S8x256.ShapeCasts S8x1x256
  inb_S8x257x256_S8x1x256_0_0_0 : ∀ a, (![0, 0, 0] : Fin 3 → Nat) a + S8x1x256.size a ≤ S8x257x256.size a
  h_S8x1x256 : 0 < S8x1x256.numel
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  inb_S8x257x256_S8x256x256_0_1_0 : ∀ a, (![0, 1, 0] : Fin 3 → Nat) a + S8x256x256.size a ≤ S8x257x256.size a
  dot_S1024x768_S768x1024_S1024x1024_1_0_0_1_n_n_wf : DotDims.WF S1024x768 S768x1024 S1024x1024 [1] [0] [0] [1] [] []
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  dot_S1024x256_S256x1024_S1024x1024_1_0_0_1_n_n_wf : DotDims.WF S1024x256 S256x1024 S1024x1024 [1] [0] [0] [1] [] []
  dot_S8x1024_S1024x2048_S8x2048_1_0_0_1_n_n_wf : DotDims.WF S8x1024 S1024x2048 S8x2048 [1] [0] [0] [1] [] []
  dot_S8x2048_S2048x512_S8x512_1_0_0_1_n_n_wf : DotDims.WF S8x2048 S2048x512 S8x512 [1] [0] [0] [1] [] []
  dot_S8x512_S512x512_S8x512_1_0_0_1_n_n_wf : DotDims.WF S8x512 S512x512 S8x512 [1] [0] [0] [1] [] []
  dot_S8x512_S512x2048_S8x2048_1_0_0_1_n_n_wf : DotDims.WF S8x512 S512x2048 S8x2048 [1] [0] [0] [1] [] []
  dot_S8x2048_S2048x256_S8x256_1_0_0_1_n_n_wf : DotDims.WF S8x2048 S2048x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .bf16 = 32 ∨ (Rect.block (s := S768x1024) S768x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .bf16 = 32 ∨ (Rect.block (s := S256x1024) S256x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S1024x256.size a
  hwx0_9 : ∀ i : grid0.Coords, EltTy.bits .bf16 = 32 ∨ (Rect.block (s := S1024x256) S1024x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S256x1024.size a
  hwx0_13 : ∀ i : grid0.Coords, EltTy.bits .bf16 = 32 ∨ (Rect.block (s := S256x1024) S256x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S1024x256.size a
  hwx0_15 : ∀ i : grid0.Coords, EltTy.bits .bf16 = 32 ∨ (Rect.block (s := S1024x256) S1024x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4x256x256.size a ≤ S32x256x256.size a
  hwx0_17 : ∀ i : grid0.Coords, EltTy.bits .f32 = 32 ∨ (Rect.block (s := S32x256x256) S4x256x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S32x1024.size a ≤ S256x1024.size a
  hwx0_18 : ∀ i : grid0.Coords, EltTy.bits .f32 = 32 ∨ (Rect.block (s := S256x1024) S32x1024.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S256x1024.size a
  hwx1_0 : ∀ i : grid1.Coords, EltTy.bits .f32 = 32 ∨ (Rect.block (s := S256x1024) S64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x256.size a ≤ S32x256x256.size a
  hwx1_1 : ∀ i : grid1.Coords, EltTy.bits .f32 = 32 ∨ (Rect.block (s := S32x256x256) S8x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S1024x2048.size a
  hwx1_2 : ∀ i : grid1.Coords, EltTy.bits .bf16 = 32 ∨ (Rect.block (s := S1024x2048) S1024x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S2048x512.size a
  hwx1_4 : ∀ i : grid1.Coords, EltTy.bits .bf16 = 32 ∨ (Rect.block (s := S2048x512) S2048x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x2048.size a ≤ S512x2048.size a
  hwx1_8 : ∀ i : grid1.Coords, EltTy.bits .bf16 = 32 ∨ (Rect.block (s := S512x2048) S512x2048.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x2048.size a ≤ S1x2048.size a
  hwx1_9 : ∀ i : grid1.Coords, EltTy.bits .f32 = 32 ∨ (Rect.block (s := S1x2048) S1x2048.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S2048x512.size a ≤ S2048x512.size a
  hwx1_10 : ∀ i : grid1.Coords, EltTy.bits .bf16 = 32 ∨ (Rect.block (s := S2048x512) S2048x512.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x512.size a ≤ S1x512.size a
  hwx1_11 : ∀ i : grid1.Coords, EltTy.bits .f32 = 32 ∨ (Rect.block (s := S1x512) S1x512.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S512x512.size a ≤ S512x512.size a
  hwx1_12 : ∀ i : grid1.Coords, EltTy.bits .bf16 = 32 ∨ (Rect.block (s := S512x512) S512x512.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x512.size a ≤ S1x512.size a
  hwx1_13 : ∀ i : grid1.Coords, EltTy.bits .f32 = 32 ∨ (Rect.block (s := S1x512) S1x512.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S512x2048.size a ≤ S512x2048.size a
  hwx1_14 : ∀ i : grid1.Coords, EltTy.bits .bf16 = 32 ∨ (Rect.block (s := S512x2048) S512x2048.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x2048.size a ≤ S1x2048.size a
  hwx1_15 : ∀ i : grid1.Coords, EltTy.bits .f32 = 32 ∨ (Rect.block (s := S1x2048) S1x2048.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S2048x256.size a ≤ S2048x256.size a
  hwx1_16 : ∀ i : grid1.Coords, EltTy.bits .bf16 = 32 ∨ (Rect.block (s := S2048x256) S2048x256.size (cc1_transform_16 i) (hinb1_16 i)).WholeWords (EltTy.packing .bf16)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x256.size a ≤ S1x256.size a
  hwx1_17 : ∀ i : grid1.Coords, EltTy.bits .f32 = 32 ∨ (Rect.block (s := S1x256) S1x256.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S8x257x256.size a ≤ S32x257x256.size a
  hwx1_18 : ∀ i : grid1.Coords, EltTy.bits .f32 = 32 ∨ (Rect.block (s := S32x257x256) S8x257x256.size (cc1_transform_18 i) (hinb1_18 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S8x1024_S1024x2048_S8x2048_1_0_0_1_n_n : DotDims S8x1024 S1024x2048 S8x2048 where
  lhsContracting := [1]
  rhsContracting := [0]
  lhsNonContracting := [0]
  rhsNonContracting := [1]
  lhsBatch := []
  rhsBatch := []
  wf := dot_S8x1024_S1024x2048_S8x2048_1_0_0_1_n_n_wf
def dot_S8x2048_S2048x512_S8x512_1_0_0_1_n_n : DotDims S8x2048 S2048x512 S8x512 where
  lhsContracting := [1]
  rhsContracting := [0]
  lhsNonContracting := [0]
  rhsNonContracting := [1]
  lhsBatch := []
  rhsBatch := []
  wf := dot_S8x2048_S2048x512_S8x512_1_0_0_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S8x512_S512x2048_S8x2048_1_0_0_1_n_n : DotDims S8x512 S512x2048 S8x2048 where
  lhsContracting := [1]
  rhsContracting := [0]
  lhsNonContracting := [0]
  rhsNonContracting := [1]
  lhsBatch := []
  rhsBatch := []
  wf := dot_S8x512_S512x2048_S8x2048_1_0_0_1_n_n_wf
def dot_S8x2048_S2048x256_S8x256_1_0_0_1_n_n : DotDims S8x2048 S2048x256 S8x256 where
  lhsContracting := [1]
  rhsContracting := [0]
  lhsNonContracting := [0]
  rhsNonContracting := [1]
  lhsBatch := []
  rhsBatch := []
  wf := dot_S8x2048_S2048x256_S8x256_1_0_0_1_n_n_wf

abbrev win0_0 : Pipeline.Window sig grid0 :=
  Pipeline.Window.ofSpec (Memref.whole main_v3) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg26) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg28) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg30) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S256x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg32) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S1024x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg8) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v12_0) S4x256x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v12_1) S32x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v12_1) S64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S8x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S2048x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S512x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S1x2048.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v17) S2048x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S1x512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v18) S512x512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg18) S1x512.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v19) S512x2048.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg20) S1x2048.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v20) S2048x256.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg6) S1x256.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v21) S8x257x256.size cc1_transform_18 reads1_18 true false 2 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

class Facts : Prop extends Facts₀ where

variable [Facts]
-- ==== ReferenceIdeal.lean ====
abbrev S32x3x256x256 : Shape := ⟨4, ![32, 3, 256, 256]⟩
abbrev S768x1024 : Shape := ⟨2, ![768, 1024]⟩
abbrev S1x1024 : Shape := ⟨2, ![1, 1024]⟩
abbrev S1024x2048 : Shape := ⟨2, ![1024, 2048]⟩
abbrev S1x2048 : Shape := ⟨2, ![1, 2048]⟩
abbrev S2048x256 : Shape := ⟨2, ![2048, 256]⟩
abbrev S1x256 : Shape := ⟨2, ![1, 256]⟩
abbrev S1024x256 : Shape := ⟨2, ![1024, 256]⟩
abbrev S2048x512 : Shape := ⟨2, ![2048, 512]⟩
abbrev S1x512 : Shape := ⟨2, ![1, 512]⟩
abbrev S512x512 : Shape := ⟨2, ![512, 512]⟩
abbrev S512x2048 : Shape := ⟨2, ![512, 2048]⟩
abbrev S256x256 : Shape := ⟨2, ![256, 256]⟩
abbrev S256x1024 : Shape := ⟨2, ![256, 1024]⟩
abbrev S32x3x16x16x16x16 : Shape := ⟨6, ![32, 3, 16, 16, 16, 16]⟩
abbrev S32x16x16x3x16x16 : Shape := ⟨6, ![32, 16, 16, 3, 16, 16]⟩
abbrev S8192x768 : Shape := ⟨2, ![8192, 768]⟩
abbrev S8192x256 : Shape := ⟨2, ![8192, 256]⟩
abbrev S512x768 : Shape := ⟨2, ![512, 768]⟩
abbrev S512x256 : Shape := ⟨2, ![512, 256]⟩
abbrev S16x1024 : Shape := ⟨2, ![16, 1024]⟩
abbrev S512x1024 : Shape := ⟨2, ![512, 1024]⟩
abbrev S2x32x8x1024 : Shape := ⟨4, ![2, 32, 8, 1024]⟩
abbrev S2x8x1024 : Shape := ⟨3, ![2, 8, 1024]⟩
abbrev S32x256 : Shape := ⟨2, ![32, 256]⟩
abbrev S32x8x1024 : Shape := ⟨3, ![32, 8, 1024]⟩
abbrev S32x1024 : Shape := ⟨2, ![32, 1024]⟩
abbrev S32x2048 : Shape := ⟨2, ![32, 2048]⟩
abbrev S32x512 : Shape := ⟨2, ![32, 512]⟩
abbrev S32x1x256 : Shape := ⟨3, ![32, 1, 256]⟩
abbrev S32x256x256 : Shape := ⟨3, ![32, 256, 256]⟩
abbrev S32x257x256 : Shape := ⟨3, ![32, 257, 256]⟩

abbrev nBuf : Space → Nat
  | .hbm => 59
  | .vmem => 40
  | .smem => 0
  | _ => 0

abbrev bufTy : (tb : Table) → Fin (tcTables nBuf tb) → BufTy
  | .hbm, ⟨0, _⟩ => ⟨S32x3x256x256, .f32⟩
  | .hbm, ⟨1, _⟩ => ⟨S768x1024, .f32⟩
  | .hbm, ⟨2, _⟩ => ⟨S1x1024, .f32⟩
  | .hbm, ⟨3, _⟩ => ⟨S1024x2048, .f32⟩
  | .hbm, ⟨4, _⟩ => ⟨S1x2048, .f32⟩
  | .hbm, ⟨5, _⟩ => ⟨S2048x256, .f32⟩
  | .hbm, ⟨6, _⟩ => ⟨S1x256, .f32⟩
  | .hbm, ⟨7, _⟩ => ⟨S1024x256, .f32⟩
  | .hbm, ⟨8, _⟩ => ⟨S1x256, .f32⟩
  | .hbm, ⟨9, _⟩ => ⟨S2048x512, .f32⟩
  | .hbm, ⟨10, _⟩ => ⟨S1x512, .f32⟩
  | .hbm, ⟨11, _⟩ => ⟨S512x512, .f32⟩
  | .hbm, ⟨12, _⟩ => ⟨S1x512, .f32⟩
  | .hbm, ⟨13, _⟩ => ⟨S512x2048, .f32⟩
  | .hbm, ⟨14, _⟩ => ⟨S1x2048, .f32⟩
  | .hbm, ⟨15, _⟩ => ⟨S2048x512, .f32⟩
  | .hbm, ⟨16, _⟩ => ⟨S1x512, .f32⟩
  | .hbm, ⟨17, _⟩ => ⟨S512x512, .f32⟩
  | .hbm, ⟨18, _⟩ => ⟨S1x512, .f32⟩
  | .hbm, ⟨19, _⟩ => ⟨S512x2048, .f32⟩
  | .hbm, ⟨20, _⟩ => ⟨S1x2048, .f32⟩
  | .hbm, ⟨21, _⟩ => ⟨S1024x256, .f32⟩
  | .hbm, ⟨22, _⟩ => ⟨S1x256, .f32⟩
  | .hbm, ⟨23, _⟩ => ⟨S256x256, .f32⟩
  | .hbm, ⟨24, _⟩ => ⟨S1x256, .f32⟩
  | .hbm, ⟨25, _⟩ => ⟨S256x1024, .f32⟩
  | .hbm, ⟨26, _⟩ => ⟨S1x1024, .f32⟩
  | .hbm, ⟨27, _⟩ => ⟨S1024x256, .f32⟩
  | .hbm, ⟨28, _⟩ => ⟨S1x256, .f32⟩
  | .hbm, ⟨29, _⟩ => ⟨S256x256, .f32⟩
  | .hbm, ⟨30, _⟩ => ⟨S1x256, .f32⟩
  | .hbm, ⟨31, _⟩ => ⟨S256x1024, .f32⟩
  | .hbm, ⟨32, _⟩ => ⟨S1x1024, .f32⟩
  | .hbm, ⟨33, _⟩ => ⟨S32x3x16x16x16x16, .f32⟩
  | .hbm, ⟨34, _⟩ => ⟨S32x16x16x3x16x16, .f32⟩
  | .hbm, ⟨35, _⟩ => ⟨S8192x768, .f32⟩
  | .hbm, ⟨36, _⟩ => ⟨S8192x768, .bf16⟩
  | .hbm, ⟨37, _⟩ => ⟨S768x1024, .bf16⟩
  | .hbm, ⟨38, _⟩ => ⟨S1024x256, .bf16⟩
  | .hbm, ⟨39, _⟩ => ⟨S256x256, .bf16⟩
  | .hbm, ⟨40, _⟩ => ⟨S256x1024, .bf16⟩
  | .hbm, ⟨41, _⟩ => ⟨S1024x256, .bf16⟩
  | .hbm, ⟨42, _⟩ => ⟨S256x256, .bf16⟩
  | .hbm, ⟨43, _⟩ => ⟨S256x1024, .bf16⟩
  | .hbm, ⟨44, _⟩ => ⟨S1024x256, .bf16⟩
  | .hbm, ⟨45, _⟩ => ⟨S8192x256, .f32⟩
  | .hbm, ⟨46, _⟩ => ⟨S256x1024, .f32⟩
  | .hbm, ⟨47, _⟩ => ⟨S1024x2048, .bf16⟩
  | .hbm, ⟨48, _⟩ => ⟨S2048x512, .bf16⟩
  | .hbm, ⟨49, _⟩ => ⟨S512x512, .bf16⟩
  | .hbm, ⟨50, _⟩ => ⟨S512x2048, .bf16⟩
  | .hbm, ⟨51, _⟩ => ⟨S2048x512, .bf16⟩
  | .hbm, ⟨52, _⟩ => ⟨S512x512, .bf16⟩
  | .hbm, ⟨53, _⟩ => ⟨S512x2048, .bf16⟩
  | .hbm, ⟨54, _⟩ => ⟨S2048x256, .bf16⟩
  | .hbm, ⟨55, _⟩ => ⟨S32x256, .f32⟩
  | .hbm, ⟨56, _⟩ => ⟨S32x1x256, .f32⟩
  | .hbm, ⟨57, _⟩ => ⟨S32x256x256, .f32⟩
  | .hbm, ⟨58, _⟩ => ⟨S32x257x256, .f32⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S1x1024, .f32⟩
  | .local _ .vmem, ⟨4, _⟩ => ⟨S1024x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x1024, .bf16⟩
  | .local _ .vmem, ⟨9, _⟩ => ⟨S1x1024, .f32⟩
  | .local _ .vmem, ⟨10, _⟩ => ⟨S1024x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S256x1024, .bf16⟩
  | .local _ .vmem, ⟨15, _⟩ => ⟨S1x1024, .f32⟩
  | .local _ .vmem, ⟨16, _⟩ => ⟨S1024x256, .bf16⟩
  | .local _ .vmem, ⟨17, _⟩ => ⟨S1x256, .f32⟩
  | .local _ .vmem, ⟨18, _⟩ => ⟨S512x256, .f32⟩
  | .local _ .vmem, ⟨19, _⟩ => ⟨S512x256, .f32⟩
  | .local _ .vmem, ⟨20, _⟩ => ⟨S16x1024, .f32⟩
  | .local _ .vmem, ⟨21, _⟩ => ⟨S16x1024, .f32⟩
  | .local _ .vmem, ⟨22, _⟩ => ⟨S256x1024, .f32⟩
  | .local _ .vmem, ⟨23, _⟩ => ⟨S1024x2048, .bf16⟩
  | .local _ .vmem, ⟨24, _⟩ => ⟨S1x2048, .f32⟩
  | .local _ .vmem, ⟨25, _⟩ => ⟨S2048x512, .bf16⟩
  | .local _ .vmem, ⟨26, _⟩ => ⟨S1x512, .f32⟩
  | .local _ .vmem, ⟨27, _⟩ => ⟨S512x512, .bf16⟩
  | .local _ .vmem, ⟨28, _⟩ => ⟨S1x512, .f32⟩
  | .local _ .vmem, ⟨29, _⟩ => ⟨S512x2048, .bf16⟩
  | .local _ .vmem, ⟨30, _⟩ => ⟨S1x2048, .f32⟩
  | .local _ .vmem, ⟨31, _⟩ => ⟨S2048x512, .bf16⟩
  | .local _ .vmem, ⟨32, _⟩ => ⟨S1x512, .f32⟩
  | .local _ .vmem, ⟨33, _⟩ => ⟨S512x512, .bf16⟩
  | .local _ .vmem, ⟨34, _⟩ => ⟨S1x512, .f32⟩
  | .local _ .vmem, ⟨35, _⟩ => ⟨S512x2048, .bf16⟩
  | .local _ .vmem, ⟨36, _⟩ => ⟨S1x2048, .f32⟩
  | .local _ .vmem, ⟨37, _⟩ => ⟨S2048x256, .bf16⟩
  | .local _ .vmem, ⟨38, _⟩ => ⟨S1x256, .f32⟩
  | .local _ .vmem, ⟨39, _⟩ => ⟨S32x256, .f32⟩
  | _, _ => ⟨S32x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12_0 : Ref sig .tc := ⟨.hbm, 45, rfl⟩
abbrev main_v12_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc1_stg15_0 : Ref sig .tc := ⟨.vmem, 37, rfl⟩
abbrev cc1_stg16_0 : Ref sig .tc := ⟨.vmem, 38, rfl⟩
abbrev cc1_stg17_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc1_sem0_0 : DmaSem sig := 22
abbrev cc1_sem1_0 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem13_0 : DmaSem sig := 35
abbrev cc1_sem14_0 : DmaSem sig := 36
abbrev cc1_sem15_0 : DmaSem sig := 37
abbrev cc1_sem16_0 : DmaSem sig := 38
abbrev cc1_sem17_0 : DmaSem sig := 39

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S16x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev grid1 : Pipeline.Grid := .none

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S512x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S2048x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S512x512 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S512x2048 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S2048x256 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S32x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

class Facts₀ : Prop where
  shapeCasts_S32x3x256x256_S32x3x16x16x16x16 : S32x3x256x256.ShapeCasts S32x3x16x16x16x16
  transposes_S32x3x16x16x16x16_S32x16x16x3x16x16_0_2_4_1_3_5 : S32x3x16x16x16x16.Transposes [0, 2, 4, 1, 3, 5] S32x16x16x3x16x16
  shapeCasts_S32x16x16x3x16x16_S8192x768 : S32x16x16x3x16x16.ShapeCasts S8192x768
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  shapeCasts_S512x1024_S2x32x8x1024 : S512x1024.ShapeCasts S2x32x8x1024
  reduces_S2x32x8x1024_S2x8x1024 : S2x32x8x1024.Reduces [1] S2x8x1024
  shapeCasts_S2x8x1024_S16x1024 : S2x8x1024.ShapeCasts S16x1024
  inb_S16x1024_S16x1024_0_0 : ∀ a, (![0, 0] : Fin 2 → Nat) a + S16x1024.size a ≤ S16x1024.size a
  h_S16x1024 : 0 < S16x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S256x1024_S32x8x1024 : S256x1024.ShapeCasts S32x8x1024
  reduces_S32x8x1024_S32x1024 : S32x8x1024.Reduces [1] S32x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  broadcasts_S1x2048_S32x2048 : S1x2048.Broadcasts S32x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x512_S32x512 : S1x512.Broadcasts S32x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1x256_S32x256 : S1x256.Broadcasts S32x256
  inb_S32x256_S32x256_0_0 : ∀ a, (![0, 0] : Fin 2 → Nat) a + S32x256.size a ≤ S32x256.size a
  h_S32x256 : 0 < S32x256.numel
  bcast_S32x256_S32x1x256_0_2 : S32x256.BroadcastsInDim S32x1x256 (![0, 2] : Fin 2 → Fin S32x1x256.rank)
  shapeCasts_S8192x256_S32x256x256 : S8192x256.ShapeCasts S32x256x256
  concatenates_S32x1x256_S32x256x256_S32x257x256_d1 : Shape.Concatenates [S32x1x256, S32x256x256] S32x257x256 1
  dot_S512x768_S768x1024_S512x1024_1_0_0_1_n_n_wf : DotDims.WF S512x768 S768x1024 S512x1024 [1] [0] [0] [1] [] []
  dot_S512x1024_S1024x256_S512x256_1_0_0_1_n_n_wf : DotDims.WF S512x1024 S1024x256 S512x256 [1] [0] [0] [1] [] []
  dot_S512x256_S256x256_S512x256_1_0_0_1_n_n_wf : DotDims.WF S512x256 S256x256 S512x256 [1] [0] [0] [1] [] []
  dot_S512x256_S256x1024_S512x1024_1_0_0_1_n_n_wf : DotDims.WF S512x256 S256x1024 S512x1024 [1] [0] [0] [1] [] []
  dot_S32x1024_S1024x2048_S32x2048_1_0_0_1_n_n_wf : DotDims.WF S32x1024 S1024x2048 S32x2048 [1] [0] [0] [1] [] []
  dot_S32x2048_S2048x512_S32x512_1_0_0_1_n_n_wf : DotDims.WF S32x2048 S2048x512 S32x512 [1] [0] [0] [1] [] []
  dot_S32x512_S512x512_S32x512_1_0_0_1_n_n_wf : DotDims.WF S32x512 S512x512 S32x512 [1] [0] [0] [1] [] []
  dot_S32x512_S512x2048_S32x2048_1_0_0_1_n_n_wf : DotDims.WF S32x512 S512x2048 S32x2048 [1] [0] [0] [1] [] []
  dot_S32x2048_S2048x256_S32x256_1_0_0_1_n_n_wf : DotDims.WF S32x2048 S2048x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .bf16 = 32 ∨ (Rect.block (s := S8192x768) S512x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .bf16 = 32 ∨ (Rect.block (s := S768x1024) S768x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .bf16 = 32 ∨ (Rect.block (s := S256x1024) S256x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S1024x256.size a
  hwx0_9 : ∀ i : grid0.Coords, EltTy.bits .bf16 = 32 ∨ (Rect.block (s := S1024x256) S1024x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S256x1024.size a
  hwx0_13 : ∀ i : grid0.Coords, EltTy.bits .bf16 = 32 ∨ (Rect.block (s := S256x1024) S256x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S1024x256.size a
  hwx0_15 : ∀ i : grid0.Coords, EltTy.bits .bf16 = 32 ∨ (Rect.block (s := S1024x256) S1024x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S8192x256.size a
  hwx0_17 : ∀ i : grid0.Coords, EltTy.bits .f32 = 32 ∨ (Rect.block (s := S8192x256) S512x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S16x1024.size a ≤ S256x1024.size a
  hwx0_18 : ∀ i : grid0.Coords, EltTy.bits .f32 = 32 ∨ (Rect.block (s := S256x1024) S16x1024.size (cc0_transform_18 i) (hinb0_18 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole
  hstage1_11 : ∀ j, (stage1_11 j).IsWhole
  hstage1_12 : ∀ j, (stage1_12 j).IsWhole
  hstage1_13 : ∀ j, (stage1_13 j).IsWhole
  hstage1_14 : ∀ j, (stage1_14 j).IsWhole
  hstage1_15 : ∀ j, (stage1_15 j).IsWhole
  hstage1_16 : ∀ j, (stage1_16 j).IsWhole
  hstage1_17 : ∀ j, (stage1_17 j).IsWhole

variable [Facts₀]

def dot_S512x768_S768x1024_S512x1024_1_0_0_1_n_n : DotDims S512x768 S768x1024 S512x1024 where
  lhsContracting := [1]
  rhsContracting := [0]
  lhsNonContracting := [0]
  rhsNonContracting := [1]
  lhsBatch := []
  rhsBatch := []
  wf := dot_S512x768_S768x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def dot_S32x2048_S2048x512_S32x512_1_0_0_1_n_n : DotDims S32x2048 S2048x512 S32x512 where
  lhsContracting := [1]
  rhsContracting := [0]
  lhsNonContracting := [0]
  rhsNonContracting := [1]
  lhsBatch := []
  rhsBatch := []
  wf := dot_S32x2048_S2048x512_S32x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x2048_S32x2048_1_0_0_1_n_n : DotDims S32x512 S512x2048 S32x2048 where
  lhsContracting := [1]
  rhsContracting := [0]
  lhsNonContracting := [0]
  rhsNonContracting := [1]
  lhsBatch := []
  rhsBatch := []
  wf := dot_S32x512_S512x2048_S32x2048_1_0_0_1_n_n_wf
def dot_S32x2048_S2048x256_S32x256_1_0_0_1_n_n : DotDims S32x2048 S2048x256 S32x256 where
  lhsContracting := [1]
  rhsContracting := [0]
  lhsNonContracting := [0]
  rhsNonContracting := [1]
  lhsBatch := []
  rhsBatch := []
  wf := dot_S32x2048_S2048x256_S32x256_1_0_0_1_n_n_wf

abbrev win0_0 : Pipeline.Window sig grid0 :=
  Pipeline.Window.ofSpec (Memref.whole main_v3) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg26) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg28) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg30) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S256x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg32) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S1024x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg8) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v12_0) S512x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v12_1) S16x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.whole (Memref.whole main_v12_1) false false (stage1_0 0) (sem1_0 0) (Memref.isWhole_whole _) (hstage1_0 0)

abbrev win1_1 : Pipeline.Window sig grid1 :=
  Pipeline.Window.whole (Memref.whole main_v13) false false (stage1_1 0) (sem1_1 0) (Memref.isWhole_whole _) (hstage1_1 0)

abbrev win1_2 : Pipeline.Window sig grid1 :=
  Pipeline.Window.whole (Memref.whole main_arg4) false false (stage1_2 0) (sem1_2 0) (Memref.isWhole_whole _) (hstage1_2 0)

abbrev win1_3 : Pipeline.Window sig grid1 :=
  Pipeline.Window.whole (Memref.whole main_v14) false false (stage1_3 0) (sem1_3 0) (Memref.isWhole_whole _) (hstage1_3 0)

abbrev win1_4 : Pipeline.Window sig grid1 :=
  Pipeline.Window.whole (Memref.whole main_arg10) false false (stage1_4 0) (sem1_4 0) (Memref.isWhole_whole _) (hstage1_4 0)

abbrev win1_5 : Pipeline.Window sig grid1 :=
  Pipeline.Window.whole (Memref.whole main_v15) false false (stage1_5 0) (sem1_5 0) (Memref.isWhole_whole _) (hstage1_5 0)

abbrev win1_6 : Pipeline.Window sig grid1 :=
  Pipeline.Window.whole (Memref.whole main_arg12) false false (stage1_6 0) (sem1_6 0) (Memref.isWhole_whole _) (hstage1_6 0)

abbrev win1_7 : Pipeline.Window sig grid1 :=
  Pipeline.Window.whole (Memref.whole main_v16) false false (stage1_7 0) (sem1_7 0) (Memref.isWhole_whole _) (hstage1_7 0)

abbrev win1_8 : Pipeline.Window sig grid1 :=
  Pipeline.Window.whole (Memref.whole main_arg14) false false (stage1_8 0) (sem1_8 0) (Memref.isWhole_whole _) (hstage1_8 0)

abbrev win1_9 : Pipeline.Window sig grid1 :=
  Pipeline.Window.whole (Memref.whole main_v17) false false (stage1_9 0) (sem1_9 0) (Memref.isWhole_whole _) (hstage1_9 0)

abbrev win1_10 : Pipeline.Window sig grid1 :=
  Pipeline.Window.whole (Memref.whole main_arg16) false false (stage1_10 0) (sem1_10 0) (Memref.isWhole_whole _) (hstage1_10 0)

abbrev win1_11 : Pipeline.Window sig grid1 :=
  Pipeline.Window.whole (Memref.whole main_v18) false false (stage1_11 0) (sem1_11 0) (Memref.isWhole_whole _) (hstage1_11 0)

abbrev win1_12 : Pipeline.Window sig grid1 :=
  Pipeline.Window.whole (Memref.whole main_arg18) false false (stage1_12 0) (sem1_12 0) (Memref.isWhole_whole _) (hstage1_12 0)

abbrev win1_13 : Pipeline.Window sig grid1 :=
  Pipeline.Window.whole (Memref.whole main_v19) false false (stage1_13 0) (sem1_13 0) (Memref.isWhole_whole _) (hstage1_13 0)

abbrev win1_14 : Pipeline.Window sig grid1 :=
  Pipeline.Window.whole (Memref.whole main_arg20) false false (stage1_14 0) (sem1_14 0) (Memref.isWhole_whole _) (hstage1_14 0)

abbrev win1_15 : Pipeline.Window sig grid1 :=
  Pipeline.Window.whole (Memref.whole main_v20) false false (stage1_15 0) (sem1_15 0) (Memref.isWhole_whole _) (hstage1_15 0)

abbrev win1_16 : Pipeline.Window sig grid1 :=
  Pipeline.Window.whole (Memref.whole main_arg6) false false (stage1_16 0) (sem1_16 0) (Memref.isWhole_whole _) (hstage1_16 0)

abbrev win1_17 : Pipeline.Window sig grid1 :=
  Pipeline.Window.whole (Memref.whole main_v21) true false (stage1_17 0) (sem1_17 0) (Memref.isWhole_whole _) (hstage1_17 0)

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== Proof.KRun.lean ====
/-
  The run of the whole program with its result array NAMED: every weakly fair execution terminates, nothing faults,
  the result array ends at the contents the last segment boundary gives it (the fold of the host stretches and of the
  regions' write-backs from the launch memory), and the argument arrays end as launched. The argument is the frame's:
  the same segments, the same launch, the last thread state read against the final state; only the post keeps one more
  buffer of the last boundary's contents.
-/
import proofs.«104311_g2000204771767084_pallasbulk_517_4_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run, the result array at the last boundary's contents and the arguments unchanged. -/
theorem run : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c),
       (h c _ (mem_uc main_arg22 (by decide))).trans (W4_main_arg22 m ρ c),
       (h c _ (mem_uc main_arg23 (by decide))).trans (W4_main_arg23 m ρ c),
       (h c _ (mem_uc main_arg24 (by decide))).trans (W4_main_arg24 m ρ c),
       (h c _ (mem_uc main_arg25 (by decide))).trans (W4_main_arg25 m ρ c),
       (h c _ (mem_uc main_arg26 (by decide))).trans (W4_main_arg26 m ρ c),
       (h c _ (mem_uc main_arg27 (by decide))).trans (W4_main_arg27 m ρ c),
       (h c _ (mem_uc main_arg28 (by decide))).trans (W4_main_arg28 m ρ c),
       (h c _ (mem_uc main_arg29 (by decide))).trans (W4_main_arg29 m ρ c),
       (h c _ (mem_uc main_arg30 (by decide))).trans (W4_main_arg30 m ρ c),
       (h c _ (mem_uc main_arg31 (by decide))).trans (W4_main_arg31 m ρ c),
       (h c _ (mem_uc main_arg32 (by decide))).trans (W4_main_arg32 m ρ c)⟩)

end Cert.KernelIdeal.Named

end
-- ==== Proof.RRun.lean ====
/-
  The run of the whole program with its result array NAMED: every weakly fair execution terminates, nothing faults,
  the result array ends at the contents the last segment boundary gives it (the fold of the host stretches and of the
  regions' write-backs from the launch memory), and the argument arrays end as launched. The argument is the frame's:
  the same segments, the same launch, the last thread state read against the final state; only the post keeps one more
  buffer of the last boundary's contents.
-/
import proofs.«104311_g2000204771767084_pallasbulk_517_4_alg».proof.Proof.Gen.ReferenceIdeal.Frame

set_option maxRecDepth 16384

noncomputable section

namespace Cert.ReferenceIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run, the result array at the last boundary's contents and the arguments unchanged. -/
theorem run : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c),
       (h c _ (mem_uc main_arg23 (by decide))).trans (W5_main_arg23 m ρ c),
       (h c _ (mem_uc main_arg24 (by decide))).trans (W5_main_arg24 m ρ c),
       (h c _ (mem_uc main_arg25 (by decide))).trans (W5_main_arg25 m ρ c),
       (h c _ (mem_uc main_arg26 (by decide))).trans (W5_main_arg26 m ρ c),
       (h c _ (mem_uc main_arg27 (by decide))).trans (W5_main_arg27 m ρ c),
       (h c _ (mem_uc main_arg28 (by decide))).trans (W5_main_arg28 m ρ c),
       (h c _ (mem_uc main_arg29 (by decide))).trans (W5_main_arg29 m ρ c),
       (h c _ (mem_uc main_arg30 (by decide))).trans (W5_main_arg30 m ρ c),
       (h c _ (mem_uc main_arg31 (by decide))).trans (W5_main_arg31 m ρ c),
       (h c _ (mem_uc main_arg32 (by decide))).trans (W5_main_arg32 m ρ c)⟩)

end Cert.ReferenceIdeal.Named

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowLayers.lean ====
/-
  GENERAL LEMMAS: dense layers, rectifiers and residual bottlenecks on the rows of a matrix of extended reals act ROW BY
  ROW, so a block of rows of the argument goes to the same block of rows of the result, whatever the block size.

  A dense layer sends a matrix `x` of `R` rows to `x · W + b`, the bias row `b` added to every row (`lin`); a rectifier is
  the entrywise maximum with zero (`relu`); a residual bottleneck is `x + lin (relu (lin (relu (lin x))))` (`bneck`).
  `RowsOf σ x X` says that row `j` of `x` is row `σ j` of `X` for every `j` (`σ` any map of row numbers: a tile of
  consecutive rows, a gather); it is preserved by each layer (`RowsOf.lin`, `.relu`, `.bneck`), hence by any
  composition of them. This is what lets two programs that tile the rows of one computation differently be compared
  with ONE function of the whole matrix: entry `(j, k)` of the layers of a block is entry `(σ j, k)` of the layers of
  the whole matrix. No finiteness is used: the two sides are the same sums of the same products, term by term.
  Also here, at the ideal values: a matrix unit's product accumulated into the zero splat plus a broadcast bias row is
  `lin` (`lin_of_ops`, for any dimension record that contracts the left operand's columns with the right operand's rows:
  LibMatProd.lean's `Contracts`), the maximum with the splat of the zero word is `relu` (`relu_of_ops`), and a change of
  float format is the identity (`truncf_eq`). It IMPORTS LibMatProd.lean.
-/
import proofs.«104311_g2000204771767084_pallasbulk_517_4_alg».proof.Proof.LibMatProd
import Idealize.ShloMosaic.Lib.ValueLayout
import Idealize.ShloMosaic.Lib.Pipeline.Value

noncomputable section

open scoped BigOperators

namespace Cert.Enc

open Idealize.ShloMosaic Idealize.ShloMosaic.ValueIdx Cert.Linear

/-- A matrix of `a` rows and `b` columns of extended reals. -/
abbrev Arr (a b : Nat) : Type := (Mat a b).Idx → EReal

/-- A dense layer: `x · W`, plus the bias row `b` on every row. -/
def lin {R K N : Nat} (x : Arr R K) (W : Arr K N) (b : Arr 1 N) : Arr R N :=
  fun i => matProd x W i + b (ix2 (n0 := 1) (n1 := N) 0 (i 1))

/-- The rectifier, entry by entry. -/
def relu {R N : Nat} (x : Arr R N) : Arr R N := fun i => max (x i) 0

/-- The weights of a residual bottleneck of width `C` and inner width `M`. -/
structure Bneck (C M : Nat) where
  w1 : Arr C M
  b1 : Arr 1 M
  w2 : Arr M M
  b2 : Arr 1 M
  w3 : Arr M C
  b3 : Arr 1 C

/-- A residual bottleneck: the argument plus three dense layers of it, rectified after the first two. -/
def bneck {R C M : Nat} (P : Bneck C M) (x : Arr R C) : Arr R C :=
  fun i => x i + lin (relu (lin (relu (lin x P.w1 P.b1)) P.w2 P.b2)) P.w3 P.b3 i

/-! ## Every layer acts row by row -/

/-- Row `j` of `x` is row `σ j` of `X`, for every `j`. -/
def RowsOf {r R K : Nat} (σ : Fin r → Fin R) (x : Arr r K) (X : Arr R K) : Prop :=
  ∀ (j : Fin r) (k : Fin K), x (ix2 j k) = X (ix2 (σ j) k)

theorem RowsOf.lin {r R K N : Nat} {σ : Fin r → Fin R} {x : Arr r K} {X : Arr R K} (h : RowsOf σ x X)
    (W : Arr K N) (b : Arr 1 N) : RowsOf σ (lin x W b) (lin X W b) := fun j k => by
  show (∑ q : Fin K, x (ix2 j q) * W (ix2 q k)) + b (ix2 0 k) = (∑ q : Fin K, X (ix2 (σ j) q) * W (ix2 q k)) + b (ix2 0 k)
  simp only [h j]

theorem RowsOf.relu {r R K : Nat} {σ : Fin r → Fin R} {x : Arr r K} {X : Arr R K} (h : RowsOf σ x X) :
    RowsOf σ (relu x) (relu X) := fun j k => by
  show max (x (ix2 j k)) 0 = max (X (ix2 (σ j) k)) 0
  rw [h j k]

theorem RowsOf.bneck {r R C M : Nat} {σ : Fin r → Fin R} {x : Arr r C} {X : Arr R C} (h : RowsOf σ x X) (P : Bneck C M) :
    RowsOf σ (bneck P x) (bneck P X) := fun j k => by
  show x (ix2 j k) + _ = X (ix2 (σ j) k) + _
  rw [h j k, ((((h.lin P.w1 P.b1).relu.lin P.w2 P.b2).relu.lin P.w3 P.b3) j k)]

/-! ## The vector operations of a kernel body read as the layers -/

/-- A product accumulated into the zero splat plus a broadcast bias row is the dense layer, for any dimension record
    that contracts the left operand's columns with the right operand's rows and whatever the operands' formats. -/
theorem lin_of_ops {R K N : Nat} {φ₁ φ₂ : FTy} {d : DotDims (Mat R K) (Mat K N) (Mat R N)} (hd : Contracts d)
    (prec : Option ContractPrecision) (A : FVec Ideal (Mat R K) φ₁) (W : FVec Ideal (Mat K N) φ₂)
    (b : FVec Ideal (Mat 1 N) .f32) (hb : (Mat 1 N).Broadcasts (Mat R N)) :
    addf (FloatOps.matmul d prec A W (constant (F := Ideal) (Mat R N) .f32 0x00000000#32)) (broadcastTo (Mat R N) b hb)
      = lin A W b := by
  rw [matmul_zero_eq hd]
  funext i
  obtain ⟨p, q, rfl⟩ : ∃ (p : Fin R) (q : Fin N), i = ix2 p q := ⟨i 0, i 1, eq_ix2 i⟩
  show matProd A W (ix2 p q) + broadcastTo (Mat R N) b hb (ix2 p q) = matProd A W (ix2 p q) + b (ix2 (0 : Fin 1) q)
  rw [broadcastTo_1b_ab_apply b hb p q]

/-- The maximum with the splat of the zero word is the rectifier. -/
theorem relu_of_ops {R N : Nat} (x : FVec Ideal (Mat R N) .f32) :
    maximumf x (broadcast (Mat R N) (FloatOps.ofBits (F := Ideal) .f32 0x00000000#32)) = relu x := by
  funext i
  show max (x i) (Ideal.ofBits .f32 0x00000000#32) = max (x i) 0
  rw [Ideal.ofBits_zero_f32]

/-- A change of float format is the identity on the extended reals. -/
theorem truncf_eq {s : Shape} (v : FVec Ideal s .f32) (h : FTy.bf16.bits < FTy.f32.bits) :
    (truncf .bf16 v h : s.Idx → EReal) = v := rfl

end Cert.Enc

end
-- ==== Proof.Spec.lean ====
/-
  The encoder's two branches as mathematics: the stem, the local branch and the global branch on the rows of a matrix
  of extended reals, built from the dense layers, rectifiers and residual bottlenecks of LibRowLayers.lean, and that each
  of them acts ROW BY ROW.

  The local branch is `lin ∘ bneck ∘ bneck` on the embedded patch rows (`stem` = one dense layer on the patch rows), the
  global branch `lin ∘ bneck ∘ bneck ∘ lin` on the pooled rows. None of these mixes rows, so a block of rows of the
  argument is sent to the same block of rows of the result (`RowsOf.stem`, `.localTail`, `.globalOf`), whatever the
  number of rows in the block.
-/
import proofs.«104311_g2000204771767084_pallasbulk_517_4_alg».proof.Proof.LibRowLayers

noncomputable section

open scoped BigOperators

namespace Cert.Enc

open Idealize.ShloMosaic Idealize.ShloMosaic.ValueIdx Cert.Linear

/-- The weights of the stem and of the local branch. -/
structure LocalW where
  sw : Arr 768 1024
  sb : Arr 1 1024
  a : Bneck 1024 256
  b : Bneck 1024 256
  pw : Arr 1024 256
  pb : Arr 1 256

/-- The weights of the global branch. -/
structure GlobalW where
  hw : Arr 1024 2048
  hb : Arr 1 2048
  a : Bneck 2048 512
  b : Bneck 2048 512
  fw : Arr 2048 256
  fb : Arr 1 256

/-- The patch embedding of each row. -/
def stem (P : LocalW) {R : Nat} (x : Arr R 768) : Arr R 1024 := lin x P.sw P.sb

/-- The local branch on embedded rows: two bottlenecks and the projection. -/
def localTail (P : LocalW) {R : Nat} (f : Arr R 1024) : Arr R 256 := lin (bneck P.b (bneck P.a f)) P.pw P.pb

/-- The global branch on pooled rows: the head, two bottlenecks and the last dense layer. -/
def globalOf (P : GlobalW) {R : Nat} (p : Arr R 1024) : Arr R 256 :=
  lin (bneck P.b (bneck P.a (lin p P.hw P.hb))) P.fw P.fb

/-! ## The branches act row by row -/

theorem RowsOf.stem {r R : Nat} {σ : Fin r → Fin R} {x : Arr r 768} {X : Arr R 768} (h : RowsOf σ x X) (P : LocalW) :
    RowsOf σ (stem P x) (stem P X) := h.lin P.sw P.sb

theorem RowsOf.localTail {r R : Nat} {σ : Fin r → Fin R} {f : Arr r 1024} {G : Arr R 1024} (h : RowsOf σ f G) (P : LocalW) :
    RowsOf σ (localTail P f) (localTail P G) := ((h.bneck P.a).bneck P.b).lin P.pw P.pb

theorem RowsOf.globalOf {r R : Nat} {σ : Fin r → Fin R} {p : Arr r 1024} {Q : Arr R 1024} (h : RowsOf σ p Q) (P : GlobalW) :
    RowsOf σ (globalOf P p) (globalOf P Q) := (((h.lin P.hw P.hb).bneck P.a).bneck P.b).lin P.fw P.fb

end Cert.Enc

end
-- ==== Proof.Whole.lean ====
/-
  The encoder's result as ONE function of the thirty-three argument arrays.

  The image batch [32, 3, 256, 256] is cut into 16 × 16 patches: row `b·256 + t` of the patch matrix [8192, 768] is
  patch `t` of image `b` (`patches`: a reshape, a transposition of the axes, a reshape). Each row is embedded by the
  stem (`embedded`). The LOCAL output is the local branch of each embedded row (`localOut`). The embedded rows of an
  image are summed per residue of the token number modulo 8 (`poolPart`: 8 partial sums per image, each of 32 rows),
  the 8 partial sums are added and scaled by the reciprocal of the number of tokens (`pooled`), and the GLOBAL output
  is the global branch of each image's pooled row (`globalOut`). The result [32, 257, 256] has, for image `b`, the
  global row at position 0 and the 256 local rows at positions 1 … 256 (`encoder`).
-/
import proofs.«104311_g2000204771767084_pallasbulk_517_4_alg».proof.Proof.Spec

noncomputable section

open scoped BigOperators

namespace Cert.Enc

open Idealize.ShloMosaic Idealize.ShloMosaic.ValueIdx Cert.Linear

abbrev SImg : Shape := ⟨4, ![32, 3, 256, 256]⟩
abbrev SCut : Shape := ⟨6, ![32, 3, 16, 16, 16, 16]⟩
abbrev SPat : Shape := ⟨6, ![32, 16, 16, 3, 16, 16]⟩
abbrev SOut : Shape := ⟨3, ![32, 257, 256]⟩

theorem cut_casts : SImg.ShapeCasts SCut := by decide
theorem pat_transposes : SCut.Transposes [0, 2, 4, 1, 3, 5] SPat := by decide
theorem rows_casts : SPat.ShapeCasts (Mat 8192 768) := by decide

/-- The patch matrix of an image batch: one row of 768 numbers per 16 × 16 patch, patches in row-major order. -/
def patches (img : SImg.Idx → EReal) : Arr 8192 768 :=
  shapeCast (Mat 8192 768) (transpose SPat [0, 2, 4, 1, 3, 5] (shapeCast SCut img cut_casts) pat_transposes) rows_casts

/-- The reciprocal of the number of tokens per image, 1/256, as the float word both programs carry. -/
def invTokens : EReal := FloatOps.ofBits (F := Ideal) .f32 0x3B800000#32

/-- Everything the encoder reads. -/
structure Params where
  img : SImg.Idx → EReal
  lw : LocalW
  gw : GlobalW

/-- The embedded patch rows. -/
def embedded (P : Params) : Arr 8192 1024 := stem P.lw (patches P.img)

/-- The local output, one row per patch. -/
def localOut (P : Params) : Arr 8192 256 := localTail P.lw (embedded P)

/-- Partial pooled sums: row `b·8 + s` is the sum of the embedded rows `b·256 + q·8 + s`, `q < 32`. -/
def poolPart (P : Params) : Arr 256 1024 := fun i =>
  ∑ q : Fin 32, embedded P (ix2 (n0 := 8192) (n1 := 1024)
    ⟨(i 0).val / 8 * 256 + q.val * 8 + (i 0).val % 8, by have h0 : (i 0).val < 256 := (i 0).isLt; have := q.isLt; omega⟩ (i 1))

/-- The pooled mean of each image: its 8 partial sums added, times the reciprocal of the token count. -/
def pooled (P : Params) : Arr 32 1024 := fun i =>
  (∑ s : Fin 8, poolPart P (ix2 (n0 := 256) (n1 := 1024) ⟨(i 0).val * 8 + s.val, by have h0 : (i 0).val < 32 := (i 0).isLt; have := s.isLt; omega⟩ (i 1)))
    * invTokens

/-- The global output, one row per image. -/
def globalOut (P : Params) : Arr 32 256 := globalOf P.gw (pooled P)

/-- The encoder's result: per image the global row, then the 256 local rows. -/
def encoder (P : Params) : SOut.Idx → EReal := fun i =>
  if (i 1).val = 0 then globalOut P (ix2 (n0 := 32) (n1 := 256) (i 0) (i 2))
  else localOut P (ix2 (n0 := 8192) (n1 := 256)
    ⟨(i 0).val * 256 + ((i 1).val - 1), by have h0 : (i 0).val < 32 := (i 0).isLt; have h1 : (i 1).val < 257 := (i 1).isLt; omega⟩ (i 2))

/-- The parameters from the programs' argument arrays, in the order of the arguments: the image batch; the stem's
    weight and bias; the head's; the last global layer's; the projection's; the two global bottlenecks' six arrays
    each; the two local bottlenecks' six arrays each. -/
def paramsOf (a0 : SImg.Idx → EReal) (a1 : Arr 768 1024) (a2 : Arr 1 1024) (a3 : Arr 1024 2048) (a4 : Arr 1 2048)
    (a5 : Arr 2048 256) (a6 : Arr 1 256) (a7 : Arr 1024 256) (a8 : Arr 1 256)
    (a9 : Arr 2048 512) (a10 : Arr 1 512) (a11 : Arr 512 512) (a12 : Arr 1 512) (a13 : Arr 512 2048) (a14 : Arr 1 2048)
    (a15 : Arr 2048 512) (a16 : Arr 1 512) (a17 : Arr 512 512) (a18 : Arr 1 512) (a19 : Arr 512 2048) (a20 : Arr 1 2048)
    (a21 : Arr 1024 256) (a22 : Arr 1 256) (a23 : Arr 256 256) (a24 : Arr 1 256) (a25 : Arr 256 1024) (a26 : Arr 1 1024)
    (a27 : Arr 1024 256) (a28 : Arr 1 256) (a29 : Arr 256 256) (a30 : Arr 1 256) (a31 : Arr 256 1024) (a32 : Arr 1 1024) :
    Params :=
  ⟨a0, ⟨a1, a2, ⟨a21, a22, a23, a24, a25, a26⟩, ⟨a27, a28, a29, a30, a31, a32⟩, a7, a8⟩,
    ⟨a3, a4, ⟨a9, a10, a11, a12, a13, a14⟩, ⟨a15, a16, a17, a18, a19, a20⟩, a5, a6⟩⟩

end Cert.Enc

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«104311_g2000204771767084_pallasbulk_517_4_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.KBody0.lean ====
/-
  Region 0 of the kernel, one grid point: what the body leaves in its two output blocks, as mathematics.

  The body multiplies its block of 1024 patch rows by the stem weights and adds the stem bias (the embedded rows),
  sends them through two residual bottlenecks and the projection (the block of the local output, viewed as 4 images of
  256 tokens), and adds up, per image and per residue of the token number modulo 8, the 32 embedded rows of that
  residue (the block of pooled partial sums). Changes of float format are the identity on the extended reals, a product
  accumulated into zero plus a broadcast bias is the dense layer, a maximum with the zero splat the rectifier.
-/
import proofs.«104311_g2000204771767084_pallasbulk_517_4_alg».proof.Proof.Spec
import proofs.«104311_g2000204771767084_pallasbulk_517_4_alg».proof.Proof.LibDotLists
import proofs.«104311_g2000204771767084_pallasbulk_517_4_alg».proof.Proof.Gen.KernelIdeal.Frame

set_option maxRecDepth 16384

noncomputable section

open scoped BigOperators

namespace Cert.KernelIdeal.Body0

open Idealize.ShloMosaic Idealize.ShloMosaic.ValueIdx Idealize.ShloMosaic.Pipeline
open Cert.KernelIdeal Cert.KernelIdeal.Gen Cert.Linear Cert.Enc

theorem hz2 : (![0, 0] : Fin 2 → Nat) = fun _ => 0 := funext fun a => by fin_cases a <;> rfl
theorem hz3 : (![0, 0, 0] : Fin 3 → Nat) = fun _ => 0 := funext fun a => by fin_cases a <;> rfl

theorem c_stem : Contracts dot_S1024x768_S768x1024_S1024x1024_1_0_0_1_n_n := contracts_of_lists _ rfl rfl rfl rfl rfl rfl
theorem c_down : Contracts dot_S1024x1024_S1024x256_S1024x256_1_0_0_1_n_n := contracts_of_lists _ rfl rfl rfl rfl rfl rfl
theorem c_mid : Contracts dot_S1024x256_S256x256_S1024x256_1_0_0_1_n_n := contracts_of_lists _ rfl rfl rfl rfl rfl rfl
theorem c_up : Contracts dot_S1024x256_S256x1024_S1024x1024_1_0_0_1_n_n := contracts_of_lists _ rfl rfl rfl rfl rfl rfl

/-- The stem's and the local branch's weights, from the body's sixteen weight blocks in the order it loads them. -/
def weights (x1 : Vec Ideal S768x1024 .bf16) (x2 : Vec Ideal S1x1024 .f32) (x3 : Vec Ideal S1024x256 .bf16) (x4 : Vec Ideal S1x256 .f32) (x5 : Vec Ideal S256x256 .bf16) (x6 : Vec Ideal S1x256 .f32) (x7 : Vec Ideal S256x1024 .bf16) (x8 : Vec Ideal S1x1024 .f32) (x9 : Vec Ideal S1024x256 .bf16) (x10 : Vec Ideal S1x256 .f32) (x11 : Vec Ideal S256x256 .bf16) (x12 : Vec Ideal S1x256 .f32) (x13 : Vec Ideal S256x1024 .bf16) (x14 : Vec Ideal S1x1024 .f32) (x15 : Vec Ideal S1024x256 .bf16) (x16 : Vec Ideal S1x256 .f32) : LocalW :=
  ⟨x1, x2, ⟨x3, x4, x5, x6, x7, x8⟩, ⟨x9, x10, x11, x12, x13, x14⟩, x15, x16⟩

/-- The block of the local output: the local branch of the block's rows, viewed as 4 images of 256 tokens. -/
theorem out0_17_eq (x0 : Vec Ideal S1024x768 .bf16) (x1 : Vec Ideal S768x1024 .bf16) (x2 : Vec Ideal S1x1024 .f32) (x3 : Vec Ideal S1024x256 .bf16) (x4 : Vec Ideal S1x256 .f32) (x5 : Vec Ideal S256x256 .bf16) (x6 : Vec Ideal S1x256 .f32) (x7 : Vec Ideal S256x1024 .bf16) (x8 : Vec Ideal S1x1024 .f32) (x9 : Vec Ideal S1024x256 .bf16) (x10 : Vec Ideal S1x256 .f32) (x11 : Vec Ideal S256x256 .bf16) (x12 : Vec Ideal S1x256 .f32) (x13 : Vec Ideal S256x1024 .bf16) (x14 : Vec Ideal S1x1024 .f32) (x15 : Vec Ideal S1024x256 .bf16) (x16 : Vec Ideal S1x256 .f32) :
    out0_17 (F := Ideal) x0 x1 x2 x3 x4 x5 x6 x7 x8 x9 x10 x11 x12 x13 x14 x15 x16
      = shapeCast S4x256x256 (localTail (weights x1 x2 x3 x4 x5 x6 x7 x8 x9 x10 x11 x12 x13 x14 x15 x16) (stem (weights x1 x2 x3 x4 x5 x6 x7 x8 x9 x10 x11 x12 x13 x14 x15 x16) x0)) shapeCasts_S1024x256_S4x256x256 := by
  unfold out0_17
  rw [View.canon_unit_zero hz3]
  simp only [View.ld_unit_zero (S := S1024x768) hz2, View.ld_unit_zero (S := S768x1024) hz2, View.ld_unit_zero (S := S1x1024) hz2, View.ld_unit_zero (S := S1024x256) hz2, View.ld_unit_zero (S := S1x256) hz2, View.ld_unit_zero (S := S256x256) hz2, View.ld_unit_zero (S := S256x1024) hz2]
  unfold k0_pay1 k0_pay7 k0_pay4 k0_pay5 k0_pay6 k0_pay2
  simp only [shapeCast_self, truncf_eq, lin_of_ops c_stem, lin_of_ops c_down, lin_of_ops c_mid, lin_of_ops c_up, relu_of_ops]
  rfl

/-- The block of pooled partial sums: the embedded rows viewed as 4 images × 32 groups × 8 residues, summed over the groups. -/
theorem out0_18_eq (x0 : Vec Ideal S1024x768 .bf16) (x1 : Vec Ideal S768x1024 .bf16) (x2 : Vec Ideal S1x1024 .f32) (x3 : Vec Ideal S1024x256 .bf16) (x4 : Vec Ideal S1x256 .f32) (x5 : Vec Ideal S256x256 .bf16) (x6 : Vec Ideal S1x256 .f32) (x7 : Vec Ideal S256x1024 .bf16) (x8 : Vec Ideal S1x1024 .f32) (x9 : Vec Ideal S1024x256 .bf16) (x10 : Vec Ideal S1x256 .f32) (x11 : Vec Ideal S256x256 .bf16) (x12 : Vec Ideal S1x256 .f32) (x13 : Vec Ideal S256x1024 .bf16) (x14 : Vec Ideal S1x1024 .f32) (x15 : Vec Ideal S1024x256 .bf16) (x16 : Vec Ideal S1x256 .f32) :
    out0_18 (F := Ideal) x0 x1 x2 x3 x4 x5 x6 x7 x8 x9 x10 x11 x12 x13 x14 x15 x16
      = shapeCast S32x1024 (multiReduction (F := Ideal) .add [1] S4x8x1024
          (shapeCast S4x32x8x1024 (stem (weights x1 x2 x3 x4 x5 x6 x7 x8 x9 x10 x11 x12 x13 x14 x15 x16) x0) shapeCasts_S1024x1024_S4x32x8x1024)
          0x00000000#32 reduces_S4x32x8x1024_S4x8x1024 (.inl rfl) rfl) shapeCasts_S4x8x1024_S32x1024 := by
  unfold out0_18
  rw [View.canon_unit_zero hz2]
  simp only [View.ld_unit_zero (S := S1024x768) hz2, View.ld_unit_zero (S := S768x1024) hz2, View.ld_unit_zero (S := S1x1024) hz2, View.ld_unit_zero (S := S1024x256) hz2, View.ld_unit_zero (S := S1x256) hz2, View.ld_unit_zero (S := S256x256) hz2, View.ld_unit_zero (S := S256x1024) hz2]
  unfold k0_pay3 k0_pay2
  simp only [shapeCast_self, lin_of_ops c_stem]
  rfl

/-- The local block at image `a`, token `p`, column `k` is the local branch's row `a·256 + p`. -/
theorem local_block_apply (f : Arr 1024 256) (a : Fin 4) (p : Fin 256) (k : Fin 256) :
    shapeCast S4x256x256 f shapeCasts_S1024x256_S4x256x256 (ix3 a p k)
      = f (ix2 (n0 := 1024) (n1 := 256) ⟨a.val * 256 + p.val, by have := a.isLt; have := p.isLt; omega⟩ k) := by
  refine shapeCast_apply f shapeCasts_S1024x256_S4x256x256 _ _ ?_
  rw [Shape.rowMajor_val_two, Shape.rowMajor_val_three]
  rfl

/-- The partial sums at row `u = a·8 + s`, column `k`: the sum over the 32 groups `q` of the embedded row `a·256 + q·8 + s`. -/
theorem pool_block_apply (f : Arr 1024 1024) (u : Fin 32) (k : Fin 1024) :
    shapeCast S32x1024 (multiReduction (F := Ideal) .add [1] S4x8x1024
          (shapeCast S4x32x8x1024 f shapeCasts_S1024x1024_S4x32x8x1024)
          0x00000000#32 reduces_S4x32x8x1024_S4x8x1024 (.inl rfl) rfl) shapeCasts_S4x8x1024_S32x1024 (ix2 u k)
      = ∑ q : Fin 32, f (ix2 (n0 := 1024) (n1 := 1024)
          ⟨u.val / 8 * 256 + q.val * 8 + u.val % 8, by have := u.isLt; have := q.isLt; omega⟩ k) := by
  have hu := u.isLt
  rw [shapeCast_apply _ shapeCasts_S4x8x1024_S32x1024 (ix2 u k)
    (ix3 (n0 := 4) (n1 := 8) (n2 := 1024) ⟨u.val / 8, by omega⟩ ⟨u.val % 8, by omega⟩ k)
    (by rw [Shape.rowMajor_val_two, Shape.rowMajor_val_three]
        show (u.val / 8 * 8 + u.val % 8) * 1024 + k.val = u.val * 1024 + k.val
        omega)]
  refine (Ideal.multiReduction_add_single _ _ _ _ _ _).trans ?_
  refine Finset.sum_congr rfl fun q _ => ?_
  refine shapeCast_apply f shapeCasts_S1024x1024_S4x32x8x1024 _ _ ?_
  rw [Shape.rowMajor_val_two, Shape.rowMajor_val_four]
  show (u.val / 8 * 256 + q.val * 8 + u.val % 8) * 1024 + k.val = ((u.val / 8 * 32 + q.val) * 8 + u.val % 8) * 1024 + k.val
  omega

end Cert.KernelIdeal.Body0

end
-- ==== Proof.KReg0.lean ====
/-
  Region 0 of the kernel, all grid points: the two arrays it leaves.

  The region runs the body on 8 blocks of 1024 patch rows. Every weight window holds its whole array at every point;
  the patch window's block at point `t` is rows `t·1024 …` of the patch matrix. As every layer acts row by row, the
  block of the local output at point `t` is rows `t·1024 …` of the local branch of the WHOLE patch matrix (images
  `4t … 4t+3`), and the block of partial sums at point `t` is rows `t·32 …` of the partial sums of the whole embedded
  matrix. The 8 blocks tile each array, so after the region the local array holds the local output of every patch row
  and the pooled array the partial sums of every image.
-/
import proofs.«104311_g2000204771767084_pallasbulk_517_4_alg».proof.Proof.Whole
import proofs.«104311_g2000204771767084_pallasbulk_517_4_alg».proof.Proof.KBody0

set_option maxRecDepth 16384

noncomputable section

open scoped BigOperators

namespace Cert.KernelIdeal.Reg0

open Idealize.ShloMosaic Idealize.ShloMosaic.TcCoe Idealize.ShloMosaic.ValueIdx Idealize.ShloMosaic.Pipeline Idealize.SL.Sem
open Cert.KernelIdeal Cert.KernelIdeal.Gen Cert.Linear Cert.Enc Cert.KernelIdeal.Body0

variable (m : (ℓ : Loc nD τ sig) → Buf (Elt Ideal) ℓ) (ρ : Dev nD → PrngReg)

/-- The encoder's parameters, from the argument arrays as launched. -/
def params (c : Dev nD) : Params := paramsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32))

/-! ## The printed index maps, decided over the grid -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)
theorem idx0_15 : ∀ t : Fin cfg0.N, win0_15.index t (0 : Fin 2) = 0 ∧ win0_15.index t (1 : Fin 2) = 0 :=
  (by decide +kernel : ∀ t : Fin grid0.N, _)
theorem idx0_16 : ∀ t : Fin cfg0.N, win0_16.index t (0 : Fin 2) = 0 ∧ win0_16.index t (1 : Fin 2) = 0 :=
  (by decide +kernel : ∀ t : Fin grid0.N, _)
theorem idx0_17 : ∀ t : Fin cfg0.N, win0_17.index t (0 : Fin 3) = t.val ∧ win0_17.index t (1 : Fin 3) = 0 ∧ win0_17.index t (2 : Fin 3) = 0 :=
  (by decide +kernel : ∀ t : Fin grid0.N, _)
theorem idx0_18 : ∀ t : Fin cfg0.N, win0_18.index t (0 : Fin 2) = t.val ∧ win0_18.index t (1 : Fin 2) = 0 :=
  (by decide +kernel : ∀ t : Fin grid0.N, _)

theorem lt_N (t : Fin cfg0.N) : t.val < 8 := lt_of_lt_of_eq t.isLt N_0

/-! ## The windows' blocks at a point -/

/-- Window 1's block is its whole array at every point. -/
theorem iblk_1 (V : (c : Dev nD) → (b : Ref sig .tc) → Buf (Elt Ideal) ((c : Thread nD τ).loc b)) (c : Dev nD) (t : Fin cfg0.N) :
    (iblk0 (F := Ideal) V c 1 t : S768x1024.Idx → EReal) = V c (Pipeline.arrRef spec0 1) := by
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 768 + 1 * (y 0).val = (y 0).val; rw [(idx0_1 t).1]; omega
  | ⟨1, _⟩ => show win0_1.index t (1 : Fin 2) * 1024 + 1 * (y 1).val = (y 1).val; rw [(idx0_1 t).2]; omega
/-- Window 2's block is its whole array at every point. -/
theorem iblk_2 (V : (c : Dev nD) → (b : Ref sig .tc) → Buf (Elt Ideal) ((c : Thread nD τ).loc b)) (c : Dev nD) (t : Fin cfg0.N) :
    (iblk0 (F := Ideal) V c 2 t : S1x1024.Idx → EReal) = V c (Pipeline.arrRef spec0 2) := by
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; rw [(idx0_2 t).1]; omega
  | ⟨1, _⟩ => show win0_2.index t (1 : Fin 2) * 1024 + 1 * (y 1).val = (y 1).val; rw [(idx0_2 t).2]; omega
/-- Window 3's block is its whole array at every point. -/
theorem iblk_3 (V : (c : Dev nD) → (b : Ref sig .tc) → Buf (Elt Ideal) ((c : Thread nD τ).loc b)) (c : Dev nD) (t : Fin cfg0.N) :
    (iblk0 (F := Ideal) V c 3 t : S1024x256.Idx → EReal) = V c (Pipeline.arrRef spec0 3) := by
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1024 + 1 * (y 0).val = (y 0).val; rw [(idx0_3 t).1]; omega
  | ⟨1, _⟩ => show win0_3.index t (1 : Fin 2) * 256 + 1 * (y 1).val = (y 1).val; rw [(idx0_3 t).2]; omega
/-- Window 4's block is its whole array at every point. -/
theorem iblk_4 (V : (c : Dev nD) → (b : Ref sig .tc) → Buf (Elt Ideal) ((c : Thread nD τ).loc b)) (c : Dev nD) (t : Fin cfg0.N) :
    (iblk0 (F := Ideal) V c 4 t : S1x256.Idx → EReal) = V c (Pipeline.arrRef spec0 4) := by
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; rw [(idx0_4 t).1]; omega
  | ⟨1, _⟩ => show win0_4.index t (1 : Fin 2) * 256 + 1 * (y 1).val = (y 1).val; rw [(idx0_4 t).2]; omega
/-- Window 5's block is its whole array at every point. -/
theorem iblk_5 (V : (c : Dev nD) → (b : Ref sig .tc) → Buf (Elt Ideal) ((c : Thread nD τ).loc b)) (c : Dev nD) (t : Fin cfg0.N) :
    (iblk0 (F := Ideal) V c 5 t : S256x256.Idx → EReal) = V c (Pipeline.arrRef spec0 5) := by
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 256 + 1 * (y 0).val = (y 0).val; rw [(idx0_5 t).1]; omega
  | ⟨1, _⟩ => show win0_5.index t (1 : Fin 2) * 256 + 1 * (y 1).val = (y 1).val; rw [(idx0_5 t).2]; omega
/-- Window 6's block is its whole array at every point. -/
theorem iblk_6 (V : (c : Dev nD) → (b : Ref sig .tc) → Buf (Elt Ideal) ((c : Thread nD τ).loc b)) (c : Dev nD) (t : Fin cfg0.N) :
    (iblk0 (F := Ideal) V c 6 t : S1x256.Idx → EReal) = V c (Pipeline.arrRef spec0 6) := by
  funext y
  show V c (Pipeline.arrRef spec0 6) (((cfg0.win 6).blk t).view.emb y) = V c (Pipeline.arrRef spec0 6) y
  refine congrArg _ (funext fun a => Fin.ext ?_)
  match a with
  | ⟨0, _⟩ => show win0_6.index t (0 : Fin 2) * 1 + 1 * (y 0).val = (y 0).val; rw [(idx0_6 t).1]; omega
  | ⟨1, _⟩ => show win0_6.index t (1 : Fin 2) * 256 + 1 * (y 1).val = (y 1).val; rw [(idx0_6 t).2]; omega
/-- Window 7's block is its whole array at every point. -/
theorem iblk_7 (V : (c : Dev nD) → (b : Ref sig .tc) → Buf (Elt Ideal) ((c : Thread nD τ).loc b)) (c : Dev nD) (t : Fin cfg0.N) :
    (iblk0 (F := Ideal) V c 7 t : S256x1024.Idx → EReal) = V c (Pipeline.arrRef spec0 7) := by
  funext y
  show V c (Pipeline.arrRef spec0 7) (((cfg0.win 7).blk t).view.emb y) = V c (Pipeline.arrRef spec0 7) y
  refine congrArg _ (funext fun a => Fin.ext ?_)
  match a with
  | ⟨0, _⟩ => show win0_7.index t (0 : Fin 2) * 256 + 1 * (y 0).val = (y 0).val; rw [(idx0_7 t).1]; omega
  | ⟨1, _⟩ => show win0_7.index t (1 : Fin 2) * 1024 + 1 * (y 1).val = (y 1).val; rw [(idx0_7 t).2]; omega
/-- Window 8's block is its whole array at every point. -/
theorem iblk_8 (V : (c : Dev nD) → (b : Ref sig .tc) → Buf (Elt Ideal) ((c : Thread nD τ).loc b)) (c : Dev nD) (t : Fin cfg0.N) :
    (iblk0 (F := Ideal) V c 8 t : S1x1024.Idx → EReal) = V c (Pipeline.arrRef spec0 8) := by
  funext y
  show V c (Pipeline.arrRef spec0 8) (((cfg0.win 8).blk t).view.emb y) = V c (Pipeline.arrRef spec0 8) y
  refine congrArg _ (funext fun a => Fin.ext ?_)
  match a with
  | ⟨0, _⟩ => show win0_8.index t (0 : Fin 2) * 1 + 1 * (y 0).val = (y 0).val; rw [(idx0_8 t).1]; omega
  | ⟨1, _⟩ => show win0_8.index t (1 : Fin 2) * 1024 + 1 * (y 1).val = (y 1).val; rw [(idx0_8 t).2]; omega
/-- Window 9's block is its whole array at every point. -/
theorem iblk_9 (V : (c : Dev nD) → (b : Ref sig .tc) → Buf (Elt Ideal) ((c : Thread nD τ).loc b)) (c : Dev nD) (t : Fin cfg0.N) :
    (iblk0 (F := Ideal) V c 9 t : S1024x256.Idx → EReal) = V c (Pipeline.arrRef spec0 9) := by
  funext y
  show V c (Pipeline.arrRef spec0 9) (((cfg0.win 9).blk t).view.emb y) = V c (Pipeline.arrRef spec0 9) y
  refine congrArg _ (funext fun a => Fin.ext ?_)
  match a with
  | ⟨0, _⟩ => show win0_9.index t (0 : Fin 2) * 1024 + 1 * (y 0).val = (y 0).val; rw [(idx0_9 t).1]; omega
  | ⟨1, _⟩ => show win0_9.index t (1 : Fin 2) * 256 + 1 * (y 1).val = (y 1).val; rw [(idx0_9 t).2]; omega
/-- Window 10's block is its whole array at every point. -/
theorem iblk_10 (V : (c : Dev nD) → (b : Ref sig .tc) → Buf (Elt Ideal) ((c : Thread nD τ).loc b)) (c : Dev nD) (t : Fin cfg0.N) :
    (iblk0 (F := Ideal) V c 10 t : S1x256.Idx → EReal) = V c (Pipeline.arrRef spec0 10) := by
  funext y
  show V c (Pipeline.arrRef spec0 10) (((cfg0.win 10).blk t).view.emb y) = V c (Pipeline.arrRef spec0 10) y
  refine congrArg _ (funext fun a => Fin.ext ?_)
  match a with
  | ⟨0, _⟩ => show win0_10.index t (0 : Fin 2) * 1 + 1 * (y 0).val = (y 0).val; rw [(idx0_10 t).1]; omega
  | ⟨1, _⟩ => show win0_10.index t (1 : Fin 2) * 256 + 1 * (y 1).val = (y 1).val; rw [(idx0_10 t).2]; omega
/-- Window 11's block is its whole array at every point. -/
theorem iblk_11 (V : (c : Dev nD) → (b : Ref sig .tc) → Buf (Elt Ideal) ((c : Thread nD τ).loc b)) (c : Dev nD) (t : Fin cfg0.N) :
    (iblk0 (F := Ideal) V c 11 t : S256x256.Idx → EReal) = V c (Pipeline.arrRef spec0 11) := by
  funext y
  show V c (Pipeline.arrRef spec0 11) (((cfg0.win 11).blk t).view.emb y) = V c (Pipeline.arrRef spec0 11) y
  refine congrArg _ (funext fun a => Fin.ext ?_)
  match a with
  | ⟨0, _⟩ => show win0_11.index t (0 : Fin 2) * 256 + 1 * (y 0).val = (y 0).val; rw [(idx0_11 t).1]; omega
  | ⟨1, _⟩ => show win0_11.index t (1 : Fin 2) * 256 + 1 * (y 1).val = (y 1).val; rw [(idx0_11 t).2]; omega
/-- Window 12's block is its whole array at every point. -/
theorem iblk_12 (V : (c : Dev nD) → (b : Ref sig .tc) → Buf (Elt Ideal) ((c : Thread nD τ).loc b)) (c : Dev nD) (t : Fin cfg0.N) :
    (iblk0 (F := Ideal) V c 12 t : S1x256.Idx → EReal) = V c (Pipeline.arrRef spec0 12) := by
  funext y
  show V c (Pipeline.arrRef spec0 12) (((cfg0.win 12).blk t).view.emb y) = V c (Pipeline.arrRef spec0 12) y
  refine congrArg _ (funext fun a => Fin.ext ?_)
  match a with
  | ⟨0, _⟩ => show win0_12.index t (0 : Fin 2) * 1 + 1 * (y 0).val = (y 0).val; rw [(idx0_12 t).1]; omega
  | ⟨1, _⟩ => show win0_12.index t (1 : Fin 2) * 256 + 1 * (y 1).val = (y 1).val; rw [(idx0_12 t).2]; omega
/-- Window 13's block is its whole array at every point. -/
theorem iblk_13 (V : (c : Dev nD) → (b : Ref sig .tc) → Buf (Elt Ideal) ((c : Thread nD τ).loc b)) (c : Dev nD) (t : Fin cfg0.N) :
    (iblk0 (F := Ideal) V c 13 t : S256x1024.Idx → EReal) = V c (Pipeline.arrRef spec0 13) := by
  funext y
  show V c (Pipeline.arrRef spec0 13) (((cfg0.win 13).blk t).view.emb y) = V c (Pipeline.arrRef spec0 13) y
  refine congrArg _ (funext fun a => Fin.ext ?_)
  match a with
  | ⟨0, _⟩ => show win0_13.index t (0 : Fin 2) * 256 + 1 * (y 0).val = (y 0).val; rw [(idx0_13 t).1]; omega
  | ⟨1, _⟩ => show win0_13.index t (1 : Fin 2) * 1024 + 1 * (y 1).val = (y 1).val; rw [(idx0_13 t).2]; omega
/-- Window 14's block is its whole array at every point. -/
theorem iblk_14 (V : (c : Dev nD) → (b : Ref sig .tc) → Buf (Elt Ideal) ((c : Thread nD τ).loc b)) (c : Dev nD) (t : Fin cfg0.N) :
    (iblk0 (F := Ideal) V c 14 t : S1x1024.Idx → EReal) = V c (Pipeline.arrRef spec0 14) := by
  funext y
  show V c (Pipeline.arrRef spec0 14) (((cfg0.win 14).blk t).view.emb y) = V c (Pipeline.arrRef spec0 14) y
  refine congrArg _ (funext fun a => Fin.ext ?_)
  match a with
  | ⟨0, _⟩ => show win0_14.index t (0 : Fin 2) * 1 + 1 * (y 0).val = (y 0).val; rw [(idx0_14 t).1]; omega
  | ⟨1, _⟩ => show win0_14.index t (1 : Fin 2) * 1024 + 1 * (y 1).val = (y 1).val; rw [(idx0_14 t).2]; omega
/-- Window 15's block is its whole array at every point. -/
theorem iblk_15 (V : (c : Dev nD) → (b : Ref sig .tc) → Buf (Elt Ideal) ((c : Thread nD τ).loc b)) (c : Dev nD) (t : Fin cfg0.N) :
    (iblk0 (F := Ideal) V c 15 t : S1024x256.Idx → EReal) = V c (Pipeline.arrRef spec0 15) := by
  funext y
  show V c (Pipeline.arrRef spec0 15) (((cfg0.win 15).blk t).view.emb y) = V c (Pipeline.arrRef spec0 15) y
  refine congrArg _ (funext fun a => Fin.ext ?_)
  match a with
  | ⟨0, _⟩ => show win0_15.index t (0 : Fin 2) * 1024 + 1 * (y 0).val = (y 0).val; rw [(idx0_15 t).1]; omega
  | ⟨1, _⟩ => show win0_15.index t (1 : Fin 2) * 256 + 1 * (y 1).val = (y 1).val; rw [(idx0_15 t).2]; omega
/-- Window 16's block is its whole array at every point. -/
theorem iblk_16 (V : (c : Dev nD) → (b : Ref sig .tc) → Buf (Elt Ideal) ((c : Thread nD τ).loc b)) (c : Dev nD) (t : Fin cfg0.N) :
    (iblk0 (F := Ideal) V c 16 t : S1x256.Idx → EReal) = V c (Pipeline.arrRef spec0 16) := by
  funext y
  show V c (Pipeline.arrRef spec0 16) (((cfg0.win 16).blk t).view.emb y) = V c (Pipeline.arrRef spec0 16) y
  refine congrArg _ (funext fun a => Fin.ext ?_)
  match a with
  | ⟨0, _⟩ => show win0_16.index t (0 : Fin 2) * 1 + 1 * (y 0).val = (y 0).val; rw [(idx0_16 t).1]; omega
  | ⟨1, _⟩ => show win0_16.index t (1 : Fin 2) * 256 + 1 * (y 1).val = (y 1).val; rw [(idx0_16 t).2]; omega

/-- Window 0's block at point `t` is rows `t·1024 …` of the patch matrix. -/
theorem rows_0 (V : (c : Dev nD) → (b : Ref sig .tc) → Buf (Elt Ideal) ((c : Thread nD τ).loc b)) (c : Dev nD) (t : Fin cfg0.N) :
    RowsOf (fun j : Fin 1024 => (⟨t.val * 1024 + j.val, by have := lt_N t; have := j.isLt; omega⟩ : Fin 8192))
      (iblk0 (F := Ideal) V c 0 t : Arr 1024 768) (V c (Pipeline.arrRef spec0 0) : Arr 8192 768) := fun j k => by
  show V c (Pipeline.arrRef spec0 0) (((cfg0.win 0).blk t).view.emb (ix2 j k)) = V c (Pipeline.arrRef spec0 0) _
  refine congrArg _ (funext fun a => Fin.ext ?_)
  match a with
  | ⟨0, _⟩ => show win0_0.index t (0 : Fin 2) * 1024 + 1 * j.val = t.val * 1024 + j.val; rw [(idx0_0 t).1]; omega
  | ⟨1, _⟩ => show win0_0.index t (1 : Fin 2) * 768 + 1 * k.val = k.val; rw [(idx0_0 t).2]; omega

/-! ## The arrays as region 0 finds them: the host operations before it read back -/

/-- The patch window's array: the image batch cut into patches (a format change, the identity, comes first). -/
theorem entry_0 (c : Dev nD) :
    (V1 m ρ c (Pipeline.arrRef spec0 0) : Arr 8192 768) = patches (m ((c : Thread nD τ).loc main_arg0)) := by
  dsimp only [V1, W1, hostOps0]
  after_results
  rfl
/-- Window 1's array: an argument after a change of float format, the identity. -/
theorem entry_1 (c : Dev nD) :
    (V1 m ρ c (Pipeline.arrRef spec0 1) : Arr 768 1024) = m ((c : Thread nD τ).loc main_arg1) := by
  dsimp only [V1, W1, hostOps0]
  after_results
  rfl
/-- Window 2's array: an argument no host operation writes. -/
theorem entry_2 (c : Dev nD) :
    (V1 m ρ c (Pipeline.arrRef spec0 2) : Arr 1 1024) = m ((c : Thread nD τ).loc main_arg2) := by
  dsimp only [V1, W1, hostOps0]
  after_results
/-- Window 3's array: an argument after a change of float format, the identity. -/
theorem entry_3 (c : Dev nD) :
    (V1 m ρ c (Pipeline.arrRef spec0 3) : Arr 1024 256) = m ((c : Thread nD τ).loc main_arg21) := by
  dsimp only [V1, W1, hostOps0]
  after_results
  rfl
/-- Window 4's array: an argument no host operation writes. -/
theorem entry_4 (c : Dev nD) :
    (V1 m ρ c (Pipeline.arrRef spec0 4) : Arr 1 256) = m ((c : Thread nD τ).loc main_arg22) := by
  dsimp only [V1, W1, hostOps0]
  after_results
/-- Window 5's array: an argument after a change of float format, the identity. -/
theorem entry_5 (c : Dev nD) :
    (V1 m ρ c (Pipeline.arrRef spec0 5) : Arr 256 256) = m ((c : Thread nD τ).loc main_arg23) := by
  dsimp only [V1, W1, hostOps0]
  after_results
  rfl
/-- Window 6's array: an argument no host operation writes. -/
theorem entry_6 (c : Dev nD) :
    (V1 m ρ c (Pipeline.arrRef spec0 6) : Arr 1 256) = m ((c : Thread nD τ).loc main_arg24) := by
  dsimp only [V1, W1, hostOps0]
  after_results
/-- Window 7's array: an argument after a change of float format, the identity. -/
theorem entry_7 (c : Dev nD) :
    (V1 m ρ c (Pipeline.arrRef spec0 7) : Arr 256 1024) = m ((c : Thread nD τ).loc main_arg25) := by
  dsimp only [V1, W1, hostOps0]
  after_results
  rfl
/-- Window 8's array: an argument no host operation writes. -/
theorem entry_8 (c : Dev nD) :
    (V1 m ρ c (Pipeline.arrRef spec0 8) : Arr 1 1024) = m ((c : Thread nD τ).loc main_arg26) := by
  dsimp only [V1, W1, hostOps0]
  after_results
/-- Window 9's array: an argument after a change of float format, the identity. -/
theorem entry_9 (c : Dev nD) :
    (V1 m ρ c (Pipeline.arrRef spec0 9) : Arr 1024 256) = m ((c : Thread nD τ).loc main_arg27) := by
  dsimp only [V1, W1, hostOps0]
  after_results
  rfl
/-- Window 10's array: an argument no host operation writes. -/
theorem entry_10 (c : Dev nD) :
    (V1 m ρ c (Pipeline.arrRef spec0 10) : Arr 1 256) = m ((c : Thread nD τ).loc main_arg28) := by
  dsimp only [V1, W1, hostOps0]
  after_results
/-- Window 11's array: an argument after a change of float format, the identity. -/
theorem entry_11 (c : Dev nD) :
    (V1 m ρ c (Pipeline.arrRef spec0 11) : Arr 256 256) = m ((c : Thread nD τ).loc main_arg29) := by
  dsimp only [V1, W1, hostOps0]
  after_results
  rfl
/-- Window 12's array: an argument no host operation writes. -/
theorem entry_12 (c : Dev nD) :
    (V1 m ρ c (Pipeline.arrRef spec0 12) : Arr 1 256) = m ((c : Thread nD τ).loc main_arg30) := by
  dsimp only [V1, W1, hostOps0]
  after_results
/-- Window 13's array: an argument after a change of float format, the identity. -/
theorem entry_13 (c : Dev nD) :
    (V1 m ρ c (Pipeline.arrRef spec0 13) : Arr 256 1024) = m ((c : Thread nD τ).loc main_arg31) := by
  dsimp only [V1, W1, hostOps0]
  after_results
  rfl
/-- Window 14's array: an argument no host operation writes. -/
theorem entry_14 (c : Dev nD) :
    (V1 m ρ c (Pipeline.arrRef spec0 14) : Arr 1 1024) = m ((c : Thread nD τ).loc main_arg32) := by
  dsimp only [V1, W1, hostOps0]
  after_results
/-- Window 15's array: an argument after a change of float format, the identity. -/
theorem entry_15 (c : Dev nD) :
    (V1 m ρ c (Pipeline.arrRef spec0 15) : Arr 1024 256) = m ((c : Thread nD τ).loc main_arg7) := by
  dsimp only [V1, W1, hostOps0]
  after_results
  rfl
/-- Window 16's array: an argument no host operation writes. -/
theorem entry_16 (c : Dev nD) :
    (V1 m ρ c (Pipeline.arrRef spec0 16) : Arr 1 256) = m ((c : Thread nD τ).loc main_arg8) := by
  dsimp only [V1, W1, hostOps0]
  after_results

/-- Two rank-2 indices with equal coordinate values are equal. -/
theorem ix2_congr {n0 n1 : Nat} {a a' : Fin n0} {b b' : Fin n1} (ha : a.val = a'.val) (hb : b.val = b'.val) :
    ix2 a b = ix2 a' b' := by
  obtain rfl := Fin.ext ha; obtain rfl := Fin.ext hb; rfl

/-- Equal weight blocks give equal weights. -/
theorem weights_congr {x1 x2 x3 x4 x5 x6 x7 x8 x9 x10 x11 x12 x13 x14 x15 x16 y1 y2 y3 y4 y5 y6 y7 y8 y9 y10 y11 y12 y13 y14 y15 y16 : _}
    (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) :
    weights x1 x2 x3 x4 x5 x6 x7 x8 x9 x10 x11 x12 x13 x14 x15 x16 = weights y1 y2 y3 y4 y5 y6 y7 y8 y9 y10 y11 y12 y13 y14 y15 y16 := by
  subst_vars; rfl

/-- At every point the body's sixteen weight blocks are the stem's and the local branch's weights as launched. -/
theorem weights_at (c : Dev nD) (t : Fin cfg0.N) :
    weights (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) = (params m c).lw :=
  (weights_congr ((iblk_1 (V1 m ρ) c t).trans (entry_1 m ρ c)) ((iblk_2 (V1 m ρ) c t).trans (entry_2 m ρ c)) ((iblk_3 (V1 m ρ) c t).trans (entry_3 m ρ c)) ((iblk_4 (V1 m ρ) c t).trans (entry_4 m ρ c)) ((iblk_5 (V1 m ρ) c t).trans (entry_5 m ρ c)) ((iblk_6 (V1 m ρ) c t).trans (entry_6 m ρ c)) ((iblk_7 (V1 m ρ) c t).trans (entry_7 m ρ c)) ((iblk_8 (V1 m ρ) c t).trans (entry_8 m ρ c)) ((iblk_9 (V1 m ρ) c t).trans (entry_9 m ρ c)) ((iblk_10 (V1 m ρ) c t).trans (entry_10 m ρ c)) ((iblk_11 (V1 m ρ) c t).trans (entry_11 m ρ c)) ((iblk_12 (V1 m ρ) c t).trans (entry_12 m ρ c)) ((iblk_13 (V1 m ρ) c t).trans (entry_13 m ρ c)) ((iblk_14 (V1 m ρ) c t).trans (entry_14 m ρ c)) ((iblk_15 (V1 m ρ) c t).trans (entry_15 m ρ c)) ((iblk_16 (V1 m ρ) c t).trans (entry_16 m ρ c))).trans rfl

/-! ## What each point writes back -/

/-- The local output in the kernel's layout: image, token, column. -/
def local3 (P : Params) : S32x256x256.Idx → EReal := fun i =>
  localOut P (ix2 (n0 := 8192) (n1 := 256)
    ⟨(i 0).val * 256 + (i 1).val, by have h0 : (i 0).val < 32 := (i 0).isLt; have h1 : (i 1).val < 256 := (i 1).isLt; omega⟩ (i 2))

/-- Point `t` writes back block `t` of the local output of the whole patch matrix. -/
theorem flushed_17 (c : Dev nD) (t : Fin cfg0.N) :
    (dat0 (V1 m ρ) c).flushed 17 t = ((cfg0.win 17).blk t).view.read (Elt Ideal) (local3 (params m c)) := by
  show (cfg0.win 17).cut (grid0.coords t) ((dat0 (V1 m ρ) c).after 17 t) = _
  rw [after0_17, out0_17_eq]
  rw [weights_at m ρ c t]
  funext y
  obtain ⟨a, p, k, rfl⟩ : ∃ (a : Fin 4) (p : Fin 256) (k : Fin 256), y = ix3 a p k := ⟨y 0, y 1, y 2, eq_ix3 y⟩
  have ht := lt_N t
  refine (local_block_apply _ a p k).trans ?_
  refine (((rows_0 (V1 m ρ) c t).stem _).localTail _ ⟨a.val * 256 + p.val, by have := a.isLt; have := p.isLt; omega⟩ k).trans ?_
  rw [entry_0 m ρ c]
  refine congrArg (localOut (params m c)) (ix2_congr ?_ ?_)
  · show t.val * 1024 + (a.val * 256 + p.val)
      = (win0_17.index t (0 : Fin 3) * 4 + 1 * a.val) * 256 + (win0_17.index t (1 : Fin 3) * 256 + 1 * p.val)
    rw [(idx0_17 t).1, (idx0_17 t).2.1]; omega
  · show k.val = win0_17.index t (2 : Fin 3) * 256 + 1 * k.val
    rw [(idx0_17 t).2.2]; omega

/-- Point `t` writes back block `t` of the partial sums of the whole embedded matrix. -/
theorem flushed_18 (c : Dev nD) (t : Fin cfg0.N) :
    (dat0 (V1 m ρ) c).flushed 18 t = ((cfg0.win 18).blk t).view.read (Elt Ideal) (poolPart (params m c)) := by
  show (cfg0.win 18).cut (grid0.coords t) ((dat0 (V1 m ρ) c).after 18 t) = _
  rw [after0_18, out0_18_eq]
  rw [weights_at m ρ c t]
  funext y
  obtain ⟨u, k, rfl⟩ : ∃ (u : Fin 32) (k : Fin 1024), y = ix2 u k := ⟨y 0, y 1, eq_ix2 y⟩
  have ht := lt_N t
  have hu := u.isLt
  refine (pool_block_apply _ u k).trans ?_
  show _ = poolPart (params m c) (((cfg0.win 18).blk t).view.emb (ix2 u k))
  unfold poolPart
  refine Finset.sum_congr rfl fun q _ => ?_
  have hq := q.isLt
  refine ((rows_0 (V1 m ρ) c t).stem _ ⟨u.val / 8 * 256 + q.val * 8 + u.val % 8, by omega⟩ k).trans ?_
  rw [entry_0 m ρ c]
  refine congrArg (embedded (params m c)) (ix2_congr ?_ ?_)
  · show t.val * 1024 + (u.val / 8 * 256 + q.val * 8 + u.val % 8)
      = (win0_18.index t (0 : Fin 2) * 32 + 1 * u.val) / 8 * 256 + q.val * 8 + (win0_18.index t (0 : Fin 2) * 32 + 1 * u.val) % 8
    rw [(idx0_18 t).1]; omega
  · show k.val = win0_18.index t (1 : Fin 2) * 1024 + 1 * k.val
    rw [(idx0_18 t).2]; omega

/-! ## The blocks tile the arrays -/

theorem mem_blk17 (t : Fin cfg0.N) (i : S32x256x256.Idx) :
    i ∈ ((cfg0.win 17).blk t).view.set ↔ ∀ a : Fin 3, win0_17.index t a * S4x256x256.size a ≤ (i a).val ∧ (i a).val < win0_17.index t a * S4x256x256.size a + S4x256x256.size a := by
  show i ∈ ((View.whole main_v12_0).slice (win0_17.rect t)).set ↔ _
  rw [View.set_slice_whole, Rect.mem_set_unit]
  exact Iff.rfl

theorem mem_blk18 (t : Fin cfg0.N) (i : S256x1024.Idx) :
    i ∈ ((cfg0.win 18).blk t).view.set ↔ ∀ a : Fin 2, win0_18.index t a * S32x1024.size a ≤ (i a).val ∧ (i a).val < win0_18.index t a * S32x1024.size a + S32x1024.size a := by
  show i ∈ ((View.whole main_v12_1).slice (win0_18.rect t)).set ↔ _
  rw [View.set_slice_whole, Rect.mem_set_unit]
  exact Iff.rfl

/-- Image `b` of the local array is in the block of point `b / 4`. -/
theorem cover17 (i : S32x256x256.Idx) : ∃ t : Fin cfg0.N, (cfg0.win 17).flush t = true ∧ i ∈ ((cfg0.win 17).blk t).view.set := by
  have h0 : (i 0).val < 32 := (i 0).isLt
  have h1 : (i 1).val < 256 := (i 1).isLt
  have h2 : (i 2).val < 256 := (i 2).isLt
  refine ⟨⟨(i 0).val / 4, by rw [show cfg0.N = 8 from N_0]; omega⟩, flush0_17 _, ?_⟩
  rw [mem_blk17]
  intro a
  match a with
  | ⟨0, _⟩ => show win0_17.index _ (0 : Fin 3) * 4 ≤ (i 0).val ∧ (i 0).val < win0_17.index _ (0 : Fin 3) * 4 + 4; rw [(idx0_17 _).1]; show (i 0).val / 4 * 4 ≤ (i 0).val ∧ (i 0).val < (i 0).val / 4 * 4 + 4; omega
  | ⟨1, _⟩ => show win0_17.index _ (1 : Fin 3) * 256 ≤ (i 1).val ∧ (i 1).val < win0_17.index _ (1 : Fin 3) * 256 + 256; rw [(idx0_17 _).2.1]; omega
  | ⟨2, _⟩ => show win0_17.index _ (2 : Fin 3) * 256 ≤ (i 2).val ∧ (i 2).val < win0_17.index _ (2 : Fin 3) * 256 + 256; rw [(idx0_17 _).2.2]; omega

/-- Row `r` of the pooled array is in the block of point `r / 32`. -/
theorem cover18 (i : S256x1024.Idx) : ∃ t : Fin cfg0.N, (cfg0.win 18).flush t = true ∧ i ∈ ((cfg0.win 18).blk t).view.set := by
  have h0 : (i 0).val < 256 := (i 0).isLt
  have h1 : (i 1).val < 1024 := (i 1).isLt
  refine ⟨⟨(i 0).val / 32, by rw [show cfg0.N = 8 from N_0]; omega⟩, flush0_18 _, ?_⟩
  rw [mem_blk18]
  intro a
  match a with
  | ⟨0, _⟩ => show win0_18.index _ (0 : Fin 2) * 32 ≤ (i 0).val ∧ (i 0).val < win0_18.index _ (0 : Fin 2) * 32 + 32; rw [(idx0_18 _).1]; show (i 0).val / 32 * 32 ≤ (i 0).val ∧ (i 0).val < (i 0).val / 32 * 32 + 32; omega
  | ⟨1, _⟩ => show win0_18.index _ (1 : Fin 2) * 1024 ≤ (i 1).val ∧ (i 1).val < win0_18.index _ (1 : Fin 2) * 1024 + 1024; rw [(idx0_18 _).2]; omega

/-! ## The arrays after the region -/

/-- After region 0 the local array holds the local output of every patch row. -/
theorem final_17 (c : Dev nD) : (dat0 (V1 m ρ) c).arrAt 17 cfg0.N = local3 (params m c) :=
  (dat0 (V1 m ρ) c).arrAt_eq_of_cover 17 _ (fun t _ => flushed_17 m ρ c t) cover17

/-- After region 0 the pooled array holds every image's 8 partial sums. -/
theorem final_18 (c : Dev nD) : (dat0 (V1 m ρ) c).arrAt 18 cfg0.N = poolPart (params m c) :=
  (dat0 (V1 m ρ) c).arrAt_eq_of_cover 18 _ (fun t _ => flushed_18 m ρ c t) cover18

end Cert.KernelIdeal.Reg0

end
-- ==== Proof.KBody1.lean ====
/-
  Region 1 of the kernel, one grid point: what the body leaves in its output block, as mathematics.

  The body adds the 8 partial sums of each of its 8 images and scales by the reciprocal of the token count (the pooled
  rows), sends them through the head, two residual bottlenecks and the last dense layer (the global rows), and writes
  the output block [8, 257, 256] by two stores: the global rows at position 0 of the middle axis, the block of the
  local array at positions 1 … 256. Read back, the block holds at (a, 0, k) the global row of image `a` and at
  (a, p + 1, k) the local row `p` of image `a`.
-/
import proofs.«104311_g2000204771767084_pallasbulk_517_4_alg».proof.Proof.Spec
import proofs.«104311_g2000204771767084_pallasbulk_517_4_alg».proof.Proof.Whole
import proofs.«104311_g2000204771767084_pallasbulk_517_4_alg».proof.Proof.LibDotLists
import proofs.«104311_g2000204771767084_pallasbulk_517_4_alg».proof.Proof.Gen.KernelIdeal.Frame

set_option maxRecDepth 16384

noncomputable section

open scoped BigOperators

namespace Cert.KernelIdeal.Body1

open Idealize.ShloMosaic Idealize.ShloMosaic.TcCoe Idealize.ShloMosaic.ValueIdx Idealize.ShloMosaic.Pipeline Idealize.ShloMosaic.Tactic
open Cert.KernelIdeal Cert.KernelIdeal.Gen Cert.Linear Cert.Enc

theorem hz2 : (![0, 0] : Fin 2 → Nat) = fun _ => 0 := funext fun a => by fin_cases a <;> rfl
theorem hz3 : (![0, 0, 0] : Fin 3 → Nat) = fun _ => 0 := funext fun a => by fin_cases a <;> rfl

theorem c_head : Contracts dot_S8x1024_S1024x2048_S8x2048_1_0_0_1_n_n := contracts_of_lists _ rfl rfl rfl rfl rfl rfl
theorem c_down : Contracts dot_S8x2048_S2048x512_S8x512_1_0_0_1_n_n := contracts_of_lists _ rfl rfl rfl rfl rfl rfl
theorem c_mid : Contracts dot_S8x512_S512x512_S8x512_1_0_0_1_n_n := contracts_of_lists _ rfl rfl rfl rfl rfl rfl
theorem c_up : Contracts dot_S8x512_S512x2048_S8x2048_1_0_0_1_n_n := contracts_of_lists _ rfl rfl rfl rfl rfl rfl
theorem c_last : Contracts dot_S8x2048_S2048x256_S8x256_1_0_0_1_n_n := contracts_of_lists _ rfl rfl rfl rfl rfl rfl

/-- The global branch's weights, from the body's sixteen weight blocks in the order it loads them. -/
def weights (x2 : Vec Ideal S1024x2048 .bf16) (x3 : Vec Ideal S1x2048 .f32) (x4 : Vec Ideal S2048x512 .bf16) (x5 : Vec Ideal S1x512 .f32) (x6 : Vec Ideal S512x512 .bf16) (x7 : Vec Ideal S1x512 .f32) (x8 : Vec Ideal S512x2048 .bf16) (x9 : Vec Ideal S1x2048 .f32) (x10 : Vec Ideal S2048x512 .bf16) (x11 : Vec Ideal S1x512 .f32) (x12 : Vec Ideal S512x512 .bf16) (x13 : Vec Ideal S1x512 .f32) (x14 : Vec Ideal S512x2048 .bf16) (x15 : Vec Ideal S1x2048 .f32) (x16 : Vec Ideal S2048x256 .bf16) (x17 : Vec Ideal S1x256 .f32) : GlobalW :=
  ⟨x2, x3, ⟨x4, x5, x6, x7, x8, x9⟩, ⟨x10, x11, x12, x13, x14, x15⟩, x16, x17⟩

/-- The pooled rows of a block of 64 partial sums: each image's 8 partial sums added, times the reciprocal of the
    token count. -/
def pooledBlk (x0 : Arr 64 1024) : Arr 8 1024 :=
  mulf (multiReduction (F := Ideal) .add [1] S8x1024 (shapeCast S8x8x1024 x0 shapeCasts_S64x1024_S8x8x1024)
      0x00000000#32 reduces_S8x8x1024_S8x1024 (.inl rfl) rfl)
    (broadcast S8x1024 (FloatOps.ofBits (F := Ideal) .f32 0x3B800000#32))

/-- The pooled row of image `a` at column `k`. -/
theorem pooledBlk_apply (x0 : Arr 64 1024) (a : Fin 8) (k : Fin 1024) :
    pooledBlk x0 (ix2 a k)
      = (∑ s : Fin 8, x0 (ix2 (n0 := 64) (n1 := 1024) ⟨a.val * 8 + s.val, by have := a.isLt; have := s.isLt; omega⟩ k)) * invTokens := by
  show (multiReduction (F := Ideal) .add [1] S8x1024 (shapeCast S8x8x1024 x0 shapeCasts_S64x1024_S8x8x1024)
      0x00000000#32 reduces_S8x8x1024_S8x1024 (.inl rfl) rfl) (ix2 a k) * invTokens = _
  refine congrArg (· * invTokens) ?_
  refine (Ideal.multiReduction_add_single _ _ _ _ _ _).trans ?_
  refine Finset.sum_congr rfl fun s _ => ?_
  refine shapeCast_apply x0 shapeCasts_S64x1024_S8x8x1024 _ _ ?_
  rw [Shape.rowMajor_val_two, Shape.rowMajor_val_three]
  rfl

/-- The global rows of a block, from the body's payloads: the last dense layer's product plus its broadcast bias row, viewed
    as [8, 1, 256]. -/
theorem global_pay_eq (x0 : Vec Ideal S64x1024 .f32) (x2 : Vec Ideal S1024x2048 .bf16) (x3 : Vec Ideal S1x2048 .f32) (x4 : Vec Ideal S2048x512 .bf16) (x5 : Vec Ideal S1x512 .f32) (x6 : Vec Ideal S512x512 .bf16) (x7 : Vec Ideal S1x512 .f32) (x8 : Vec Ideal S512x2048 .bf16) (x9 : Vec Ideal S1x2048 .f32) (x10 : Vec Ideal S2048x512 .bf16) (x11 : Vec Ideal S1x512 .f32) (x12 : Vec Ideal S512x512 .bf16) (x13 : Vec Ideal S1x512 .f32) (x14 : Vec Ideal S512x2048 .bf16) (x15 : Vec Ideal S1x2048 .f32) (x16 : Vec Ideal S2048x256 .bf16) (x17 : Vec Ideal S1x256 .f32) :
    k1_pay1 (F := Ideal)
        (k1_pay6 (k1_pay3 x0 x2 x3) (k1_pay4 x8) x9 (k1_pay5 x0 x2 x3 x4 x5 x6 x7) x10 x11 x12 x13 x14 x15 x16)
        (k1_pay7 x17)
      = shapeCast S8x1x256 (globalOf (weights x2 x3 x4 x5 x6 x7 x8 x9 x10 x11 x12 x13 x14 x15 x16 x17) (pooledBlk x0)) shapeCasts_S8x256_S8x1x256 := by
  unfold k1_pay1 k1_pay6 k1_pay4 k1_pay5 k1_pay7 k1_pay3
  simp only [shapeCast_self, truncf_eq, lin_of_ops c_head, lin_of_ops c_down, lin_of_ops c_mid, lin_of_ops c_up, lin_of_ops c_last, relu_of_ops]
  rfl

/-- Two rank-2 indices with equal coordinate values are equal. -/
theorem ix2_eq {n0 n1 : Nat} {a a' : Fin n0} {b b' : Fin n1} (ha : a.val = a'.val) (hb : b.val = b'.val) :
    ix2 a b = ix2 a' b' := by
  obtain rfl := Fin.ext ha; obtain rfl := Fin.ext hb; rfl

/-- The output block: per image the global row first, then the 256 local rows. -/
def blockOut (g : Arr 8 256) (l : S8x256x256.Idx → EReal) : S8x257x256.Idx → EReal := fun y =>
  if (y 1).val = 0 then g (ix2 (n0 := 8) (n1 := 256) (y 0) (y 2))
  else l (ix3 (n0 := 8) (n1 := 256) (n2 := 256) (y 0) ⟨(y 1).val - 1, by have h : (y 1).val < 257 := (y 1).isLt; omega⟩ (y 2))

/-- What the body's two stores leave in the output block. -/
theorem out1_eq (c : Dev nD) (i : grid1.Coords) (arg1 : Memref sig .tc .vmem S64x1024 .f32) (harg1 : arg1.IsWhole) (arg2 : Memref sig .tc .vmem S8x256x256 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S2048x512 .bf16) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x2048 .bf16) (harg15 : arg15.IsWhole) (arg16 : Memref sig .tc .vmem S1x2048 .f32) (harg16 : arg16.IsWhole) (arg17 : Memref sig .tc .vmem S2048x256 .bf16) (harg17 : arg17.IsWhole) (arg18 : Memref sig .tc .vmem S1x256 .f32) (harg18 : arg18.IsWhole) (arg19 : Memref sig .tc .vmem S8x257x256 .f32) (harg19 : arg19.IsWhole) (x0 : Vec Ideal S64x1024 .f32) (x1 : Vec Ideal S8x256x256 .f32) (x2 : Vec Ideal S1024x2048 .bf16) (x3 : Vec Ideal S1x2048 .f32) (x4 : Vec Ideal S2048x512 .bf16) (x5 : Vec Ideal S1x512 .f32) (x6 : Vec Ideal S512x512 .bf16) (x7 : Vec Ideal S1x512 .f32) (x8 : Vec Ideal S512x2048 .bf16) (x9 : Vec Ideal S1x2048 .f32) (x10 : Vec Ideal S2048x512 .bf16) (x11 : Vec Ideal S1x512 .f32) (x12 : Vec Ideal S512x512 .bf16) (x13 : Vec Ideal S1x512 .f32) (x14 : Vec Ideal S512x2048 .bf16) (x15 : Vec Ideal S1x2048 .f32) (x16 : Vec Ideal S2048x256 .bf16) (x17 : Vec Ideal S1x256 .f32) :
    out1_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17
      = blockOut (globalOf (weights x2 x3 x4 x5 x6 x7 x8 x9 x10 x11 x12 x13 x14 x15 x16 x17) (pooledBlk x0)) x1 := by
  funext y
  unfold out1_A_18
  rw [View.read_writes_eq_canon _ _ _ (cover1_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17)]
  have hcov := cover1_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 y
  revert hcov
  unfold kernelRun1_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S64x1024) hz2, View.ld_unit_zero (S := S1024x2048) hz2, View.ld_unit_zero (S := S1x2048) hz2, View.ld_unit_zero (S := S2048x512) hz2, View.ld_unit_zero (S := S1x512) hz2, View.ld_unit_zero (S := S512x512) hz2, View.ld_unit_zero (S := S512x2048) hz2, View.ld_unit_zero (S := S2048x256) hz2, View.ld_unit_zero (S := S1x256) hz2, View.ld_unit_zero (S := S8x256x256) hz3]
  intro hcov
  refine View.canon_apply_of_pieces (blockOut (globalOf (weights x2 x3 x4 x5 x6 x7 x8 x9 x10 x11 x12 x13 x14 x15 x16 x17) (pooledBlk x0)) x1) _ ?_ y hcov
  intro pc hpc x
  simp only [List.mem_cons, List.not_mem_nil, or_false] at hpc
  rcases hpc with rfl | rfl
  · have hx1 : k1_pay2 (F := Ideal) x1 = x1 := shapeCast_self x1 _
    dsimp only at x ⊢
    rw [hx1]
    unfold blockOut
    split
    · rename_i h
      exfalso; revert h
      show ¬ (1 + 1 * (x 1).val = 0)
      omega
    · refine congrArg x1 (funext fun a => Fin.ext ?_)
      match a with
      | ⟨0, _⟩ => show (x 0).val = 0 + 1 * (x 0).val; omega
      | ⟨1, _⟩ => show (x 1).val = 1 + 1 * (x 1).val - 1; omega
      | ⟨2, _⟩ => show (x 2).val = 0 + 1 * (x 2).val; omega
  · dsimp only at x ⊢
    rw [global_pay_eq]
    have hx1 : (x 1).val < 1 := (x 1).isLt
    unfold blockOut
    split
    · refine (shapeCast_apply _ shapeCasts_S8x256_S8x1x256 x (ix2 (n0 := 8) (n1 := 256) (x 0) (x 2)) ?_).trans ?_
      · rw [Shape.rowMajor_val_two, Shape.rowMajor_val_three]
        show (x 0).val * 256 + (x 2).val = ((x 0).val * 1 + (x 1).val) * 256 + (x 2).val
        omega
      · refine congrArg _ (ix2_eq ?_ ?_)
        · show (x 0).val = 0 + 1 * (x 0).val; omega
        · show (x 2).val = 0 + 1 * (x 2).val; omega
    · rename_i h
      exfalso; revert h
      show ¬ ¬ (0 + 1 * (x 1).val = 0)
      omega

end Cert.KernelIdeal.Body1

end
-- ==== Proof.KReg1.lean ====
/-
  Region 1 of the kernel, all grid points: the result array.

  The region runs its body on 4 groups of 8 images. At point `t` the block of partial sums is rows `t·64 …` of the
  pooled array (image `8t + a`'s 8 partial sums at rows `(8t + a)·8 …`), the block of the local array is images
  `8t … 8t+7`, every weight window holds its whole array. The pooled rows of the block are rows `8t …` of the pooled
  matrix of all images, so — every layer acting row by row — the block's global rows are rows `8t …` of the global
  output; and the output block at point `t` is images `8t … 8t+7` of the encoder's result. The 4 blocks tile the result.
-/
import proofs.«104311_g2000204771767084_pallasbulk_517_4_alg».proof.Proof.KReg0
import proofs.«104311_g2000204771767084_pallasbulk_517_4_alg».proof.Proof.KBody1

set_option maxRecDepth 16384

noncomputable section

open scoped BigOperators

namespace Cert.KernelIdeal.Reg1

open Idealize.ShloMosaic Idealize.ShloMosaic.TcCoe Idealize.ShloMosaic.ValueIdx Idealize.ShloMosaic.Pipeline Idealize.SL.Sem
open Cert.KernelIdeal Cert.KernelIdeal.Gen Cert.Linear Cert.Enc Cert.KernelIdeal.Body1 Cert.KernelIdeal.Reg0

variable (m : (ℓ : Loc nD τ sig) → Buf (Elt Ideal) ℓ) (ρ : Dev nD → PrngReg)

/-! ## The printed index maps, decided over the grid -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = 0 ∧ win1_14.index t (1 : Fin 2) = 0 :=
  (by decide +kernel : ∀ t : Fin grid1.N, _)
theorem idx1_15 : ∀ t : Fin cfg1.N, win1_15.index t (0 : Fin 2) = 0 ∧ win1_15.index t (1 : Fin 2) = 0 :=
  (by decide +kernel : ∀ t : Fin grid1.N, _)
theorem idx1_16 : ∀ t : Fin cfg1.N, win1_16.index t (0 : Fin 2) = 0 ∧ win1_16.index t (1 : Fin 2) = 0 :=
  (by decide +kernel : ∀ t : Fin grid1.N, _)
theorem idx1_17 : ∀ t : Fin cfg1.N, win1_17.index t (0 : Fin 2) = 0 ∧ win1_17.index t (1 : Fin 2) = 0 :=
  (by decide +kernel : ∀ t : Fin grid1.N, _)
theorem idx1_18 : ∀ t : Fin cfg1.N, win1_18.index t (0 : Fin 3) = t.val ∧ win1_18.index t (1 : Fin 3) = 0 ∧ win1_18.index t (2 : Fin 3) = 0 :=
  (by decide +kernel : ∀ t : Fin grid1.N, _)

theorem lt_N1 (t : Fin cfg1.N) : t.val < 4 := lt_of_lt_of_eq t.isLt N_1

/-! ## The windows' blocks at a point -/

/-- Window 2's block is its whole array at every point. -/
theorem iblk_2 (V : (c : Dev nD) → (b : Ref sig .tc) → Buf (Elt Ideal) ((c : Thread nD τ).loc b)) (c : Dev nD) (t : Fin cfg1.N) :
    (iblk1 (F := Ideal) V c 2 t : S1024x2048.Idx → EReal) = V c (Pipeline.arrRef spec1 2) := by
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1024 + 1 * (y 0).val = (y 0).val; rw [(idx1_2 t).1]; omega
  | ⟨1, _⟩ => show win1_2.index t (1 : Fin 2) * 2048 + 1 * (y 1).val = (y 1).val; rw [(idx1_2 t).2]; omega
/-- Window 3's block is its whole array at every point. -/
theorem iblk_3 (V : (c : Dev nD) → (b : Ref sig .tc) → Buf (Elt Ideal) ((c : Thread nD τ).loc b)) (c : Dev nD) (t : Fin cfg1.N) :
    (iblk1 (F := Ideal) V c 3 t : S1x2048.Idx → EReal) = V c (Pipeline.arrRef spec1 3) := by
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; rw [(idx1_3 t).1]; omega
  | ⟨1, _⟩ => show win1_3.index t (1 : Fin 2) * 2048 + 1 * (y 1).val = (y 1).val; rw [(idx1_3 t).2]; omega
/-- Window 4's block is its whole array at every point. -/
theorem iblk_4 (V : (c : Dev nD) → (b : Ref sig .tc) → Buf (Elt Ideal) ((c : Thread nD τ).loc b)) (c : Dev nD) (t : Fin cfg1.N) :
    (iblk1 (F := Ideal) V c 4 t : S2048x512.Idx → EReal) = V c (Pipeline.arrRef spec1 4) := by
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 2048 + 1 * (y 0).val = (y 0).val; rw [(idx1_4 t).1]; omega
  | ⟨1, _⟩ => show win1_4.index t (1 : Fin 2) * 512 + 1 * (y 1).val = (y 1).val; rw [(idx1_4 t).2]; omega
/-- Window 5's block is its whole array at every point. -/
theorem iblk_5 (V : (c : Dev nD) → (b : Ref sig .tc) → Buf (Elt Ideal) ((c : Thread nD τ).loc b)) (c : Dev nD) (t : Fin cfg1.N) :
    (iblk1 (F := Ideal) V c 5 t : S1x512.Idx → EReal) = V c (Pipeline.arrRef spec1 5) := by
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; rw [(idx1_5 t).1]; omega
  | ⟨1, _⟩ => show win1_5.index t (1 : Fin 2) * 512 + 1 * (y 1).val = (y 1).val; rw [(idx1_5 t).2]; omega
/-- Window 6's block is its whole array at every point. -/
theorem iblk_6 (V : (c : Dev nD) → (b : Ref sig .tc) → Buf (Elt Ideal) ((c : Thread nD τ).loc b)) (c : Dev nD) (t : Fin cfg1.N) :
    (iblk1 (F := Ideal) V c 6 t : S512x512.Idx → EReal) = V c (Pipeline.arrRef spec1 6) := by
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 512 + 1 * (y 0).val = (y 0).val; rw [(idx1_6 t).1]; omega
  | ⟨1, _⟩ => show win1_6.index t (1 : Fin 2) * 512 + 1 * (y 1).val = (y 1).val; rw [(idx1_6 t).2]; omega
/-- Window 7's block is its whole array at every point. -/
theorem iblk_7 (V : (c : Dev nD) → (b : Ref sig .tc) → Buf (Elt Ideal) ((c : Thread nD τ).loc b)) (c : Dev nD) (t : Fin cfg1.N) :
    (iblk1 (F := Ideal) V c 7 t : S1x512.Idx → EReal) = V c (Pipeline.arrRef spec1 7) := by
  funext y
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 1 + 1 * (y 0).val = (y 0).val; rw [(idx1_7 t).1]; omega
  | ⟨1, _⟩ => show win1_7.index t (1 : Fin 2) * 512 + 1 * (y 1).val = (y 1).val; rw [(idx1_7 t).2]; omega
/-- Window 8's block is its whole array at every point. -/
theorem iblk_8 (V : (c : Dev nD) → (b : Ref sig .tc) → Buf (Elt Ideal) ((c : Thread nD τ).loc b)) (c : Dev nD) (t : Fin cfg1.N) :
    (iblk1 (F := Ideal) V c 8 t : S512x2048.Idx → EReal) = V c (Pipeline.arrRef spec1 8) := by
  funext y
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 512 + 1 * (y 0).val = (y 0).val; rw [(idx1_8 t).1]; omega
  | ⟨1, _⟩ => show win1_8.index t (1 : Fin 2) * 2048 + 1 * (y 1).val = (y 1).val; rw [(idx1_8 t).2]; omega
/-- Window 9's block is its whole array at every point. -/
theorem iblk_9 (V : (c : Dev nD) → (b : Ref sig .tc) → Buf (Elt Ideal) ((c : Thread nD τ).loc b)) (c : Dev nD) (t : Fin cfg1.N) :
    (iblk1 (F := Ideal) V c 9 t : S1x2048.Idx → EReal) = V c (Pipeline.arrRef spec1 9) := by
  funext y
  show V c (Pipeline.arrRef spec1 9) (((cfg1.win 9).blk t).view.emb y) = V c (Pipeline.arrRef spec1 9) y
  refine congrArg _ (funext fun a => Fin.ext ?_)
  match a with
  | ⟨0, _⟩ => show win1_9.index t (0 : Fin 2) * 1 + 1 * (y 0).val = (y 0).val; rw [(idx1_9 t).1]; omega
  | ⟨1, _⟩ => show win1_9.index t (1 : Fin 2) * 2048 + 1 * (y 1).val = (y 1).val; rw [(idx1_9 t).2]; omega
/-- Window 10's block is its whole array at every point. -/
theorem iblk_10 (V : (c : Dev nD) → (b : Ref sig .tc) → Buf (Elt Ideal) ((c : Thread nD τ).loc b)) (c : Dev nD) (t : Fin cfg1.N) :
    (iblk1 (F := Ideal) V c 10 t : S2048x512.Idx → EReal) = V c (Pipeline.arrRef spec1 10) := by
  funext y
  show V c (Pipeline.arrRef spec1 10) (((cfg1.win 10).blk t).view.emb y) = V c (Pipeline.arrRef spec1 10) y
  refine congrArg _ (funext fun a => Fin.ext ?_)
  match a with
  | ⟨0, _⟩ => show win1_10.index t (0 : Fin 2) * 2048 + 1 * (y 0).val = (y 0).val; rw [(idx1_10 t).1]; omega
  | ⟨1, _⟩ => show win1_10.index t (1 : Fin 2) * 512 + 1 * (y 1).val = (y 1).val; rw [(idx1_10 t).2]; omega
/-- Window 11's block is its whole array at every point. -/
theorem iblk_11 (V : (c : Dev nD) → (b : Ref sig .tc) → Buf (Elt Ideal) ((c : Thread nD τ).loc b)) (c : Dev nD) (t : Fin cfg1.N) :
    (iblk1 (F := Ideal) V c 11 t : S1x512.Idx → EReal) = V c (Pipeline.arrRef spec1 11) := by
  funext y
  show V c (Pipeline.arrRef spec1 11) (((cfg1.win 11).blk t).view.emb y) = V c (Pipeline.arrRef spec1 11) y
  refine congrArg _ (funext fun a => Fin.ext ?_)
  match a with
  | ⟨0, _⟩ => show win1_11.index t (0 : Fin 2) * 1 + 1 * (y 0).val = (y 0).val; rw [(idx1_11 t).1]; omega
  | ⟨1, _⟩ => show win1_11.index t (1 : Fin 2) * 512 + 1 * (y 1).val = (y 1).val; rw [(idx1_11 t).2]; omega
/-- Window 12's block is its whole array at every point. -/
theorem iblk_12 (V : (c : Dev nD) → (b : Ref sig .tc) → Buf (Elt Ideal) ((c : Thread nD τ).loc b)) (c : Dev nD) (t : Fin cfg1.N) :
    (iblk1 (F := Ideal) V c 12 t : S512x512.Idx → EReal) = V c (Pipeline.arrRef spec1 12) := by
  funext y
  show V c (Pipeline.arrRef spec1 12) (((cfg1.win 12).blk t).view.emb y) = V c (Pipeline.arrRef spec1 12) y
  refine congrArg _ (funext fun a => Fin.ext ?_)
  match a with
  | ⟨0, _⟩ => show win1_12.index t (0 : Fin 2) * 512 + 1 * (y 0).val = (y 0).val; rw [(idx1_12 t).1]; omega
  | ⟨1, _⟩ => show win1_12.index t (1 : Fin 2) * 512 + 1 * (y 1).val = (y 1).val; rw [(idx1_12 t).2]; omega
/-- Window 13's block is its whole array at every point. -/
theorem iblk_13 (V : (c : Dev nD) → (b : Ref sig .tc) → Buf (Elt Ideal) ((c : Thread nD τ).loc b)) (c : Dev nD) (t : Fin cfg1.N) :
    (iblk1 (F := Ideal) V c 13 t : S1x512.Idx → EReal) = V c (Pipeline.arrRef spec1 13) := by
  funext y
  show V c (Pipeline.arrRef spec1 13) (((cfg1.win 13).blk t).view.emb y) = V c (Pipeline.arrRef spec1 13) y
  refine congrArg _ (funext fun a => Fin.ext ?_)
  match a with
  | ⟨0, _⟩ => show win1_13.index t (0 : Fin 2) * 1 + 1 * (y 0).val = (y 0).val; rw [(idx1_13 t).1]; omega
  | ⟨1, _⟩ => show win1_13.index t (1 : Fin 2) * 512 + 1 * (y 1).val = (y 1).val; rw [(idx1_13 t).2]; omega
/-- Window 14's block is its whole array at every point. -/
theorem iblk_14 (V : (c : Dev nD) → (b : Ref sig .tc) → Buf (Elt Ideal) ((c : Thread nD τ).loc b)) (c : Dev nD) (t : Fin cfg1.N) :
    (iblk1 (F := Ideal) V c 14 t : S512x2048.Idx → EReal) = V c (Pipeline.arrRef spec1 14) := by
  funext y
  show V c (Pipeline.arrRef spec1 14) (((cfg1.win 14).blk t).view.emb y) = V c (Pipeline.arrRef spec1 14) y
  refine congrArg _ (funext fun a => Fin.ext ?_)
  match a with
  | ⟨0, _⟩ => show win1_14.index t (0 : Fin 2) * 512 + 1 * (y 0).val = (y 0).val; rw [(idx1_14 t).1]; omega
  | ⟨1, _⟩ => show win1_14.index t (1 : Fin 2) * 2048 + 1 * (y 1).val = (y 1).val; rw [(idx1_14 t).2]; omega
/-- Window 15's block is its whole array at every point. -/
theorem iblk_15 (V : (c : Dev nD) → (b : Ref sig .tc) → Buf (Elt Ideal) ((c : Thread nD τ).loc b)) (c : Dev nD) (t : Fin cfg1.N) :
    (iblk1 (F := Ideal) V c 15 t : S1x2048.Idx → EReal) = V c (Pipeline.arrRef spec1 15) := by
  funext y
  show V c (Pipeline.arrRef spec1 15) (((cfg1.win 15).blk t).view.emb y) = V c (Pipeline.arrRef spec1 15) y
  refine congrArg _ (funext fun a => Fin.ext ?_)
  match a with
  | ⟨0, _⟩ => show win1_15.index t (0 : Fin 2) * 1 + 1 * (y 0).val = (y 0).val; rw [(idx1_15 t).1]; omega
  | ⟨1, _⟩ => show win1_15.index t (1 : Fin 2) * 2048 + 1 * (y 1).val = (y 1).val; rw [(idx1_15 t).2]; omega
/-- Window 16's block is its whole array at every point. -/
theorem iblk_16 (V : (c : Dev nD) → (b : Ref sig .tc) → Buf (Elt Ideal) ((c : Thread nD τ).loc b)) (c : Dev nD) (t : Fin cfg1.N) :
    (iblk1 (F := Ideal) V c 16 t : S2048x256.Idx → EReal) = V c (Pipeline.arrRef spec1 16) := by
  funext y
  show V c (Pipeline.arrRef spec1 16) (((cfg1.win 16).blk t).view.emb y) = V c (Pipeline.arrRef spec1 16) y
  refine congrArg _ (funext fun a => Fin.ext ?_)
  match a with
  | ⟨0, _⟩ => show win1_16.index t (0 : Fin 2) * 2048 + 1 * (y 0).val = (y 0).val; rw [(idx1_16 t).1]; omega
  | ⟨1, _⟩ => show win1_16.index t (1 : Fin 2) * 256 + 1 * (y 1).val = (y 1).val; rw [(idx1_16 t).2]; omega
/-- Window 17's block is its whole array at every point. -/
theorem iblk_17 (V : (c : Dev nD) → (b : Ref sig .tc) → Buf (Elt Ideal) ((c : Thread nD τ).loc b)) (c : Dev nD) (t : Fin cfg1.N) :
    (iblk1 (F := Ideal) V c 17 t : S1x256.Idx → EReal) = V c (Pipeline.arrRef spec1 17) := by
  funext y
  show V c (Pipeline.arrRef spec1 17) (((cfg1.win 17).blk t).view.emb y) = V c (Pipeline.arrRef spec1 17) y
  refine congrArg _ (funext fun a => Fin.ext ?_)
  match a with
  | ⟨0, _⟩ => show win1_17.index t (0 : Fin 2) * 1 + 1 * (y 0).val = (y 0).val; rw [(idx1_17 t).1]; omega
  | ⟨1, _⟩ => show win1_17.index t (1 : Fin 2) * 256 + 1 * (y 1).val = (y 1).val; rw [(idx1_17 t).2]; omega

/-- Window 0's block at point `t` is rows `t·64 …` of the pooled array. -/
theorem rows_0 (V : (c : Dev nD) → (b : Ref sig .tc) → Buf (Elt Ideal) ((c : Thread nD τ).loc b)) (c : Dev nD) (t : Fin cfg1.N) :
    RowsOf (fun j : Fin 64 => (⟨t.val * 64 + j.val, by have := lt_N1 t; have := j.isLt; omega⟩ : Fin 256))
      (iblk1 (F := Ideal) V c 0 t : Arr 64 1024) (V c (Pipeline.arrRef spec1 0) : Arr 256 1024) := fun j k => by
  show V c (Pipeline.arrRef spec1 0) (((cfg1.win 0).blk t).view.emb (ix2 j k)) = V c (Pipeline.arrRef spec1 0) _
  refine congrArg _ (funext fun a => Fin.ext ?_)
  match a with
  | ⟨0, _⟩ => show win1_0.index t (0 : Fin 2) * 64 + 1 * j.val = t.val * 64 + j.val; rw [(idx1_0 t).1]; omega
  | ⟨1, _⟩ => show win1_0.index t (1 : Fin 2) * 1024 + 1 * k.val = k.val; rw [(idx1_0 t).2]; omega

/-- Window 1's block at point `t` is images `8t …` of the local array. -/
theorem imgs_1 (V : (c : Dev nD) → (b : Ref sig .tc) → Buf (Elt Ideal) ((c : Thread nD τ).loc b)) (c : Dev nD) (t : Fin cfg1.N)
    (a : Fin 8) (p : Fin 256) (k : Fin 256) :
    (iblk1 (F := Ideal) V c 1 t : S8x256x256.Idx → EReal) (ix3 a p k)
      = (V c (Pipeline.arrRef spec1 1) : S32x256x256.Idx → EReal)
          (ix3 (n0 := 32) (n1 := 256) (n2 := 256) ⟨t.val * 8 + a.val, by have := lt_N1 t; have := a.isLt; omega⟩ p k) := by
  show V c (Pipeline.arrRef spec1 1) (((cfg1.win 1).blk t).view.emb (ix3 a p k)) = V c (Pipeline.arrRef spec1 1) _
  refine congrArg _ (funext fun d => Fin.ext ?_)
  match d with
  | ⟨0, _⟩ => show win1_1.index t (0 : Fin 3) * 8 + 1 * a.val = t.val * 8 + a.val; rw [(idx1_1 t).1]; omega
  | ⟨1, _⟩ => show win1_1.index t (1 : Fin 3) * 256 + 1 * p.val = p.val; rw [(idx1_1 t).2.1]; omega
  | ⟨2, _⟩ => show win1_1.index t (2 : Fin 3) * 256 + 1 * k.val = k.val; rw [(idx1_1 t).2.2]; omega

/-! ## The arrays as region 1 finds them -/

theorem W2_arg3 (c : Dev nD) : W2 m ρ c (Proc.devRef .tc main_arg3) = m ((c : Thread nD τ).loc main_arg3) :=
  (W2_of_ne m ρ c main_arg3 (by decide)).trans (by dsimp only [W1, hostOps0]; after_results)
theorem W2_arg4 (c : Dev nD) : W2 m ρ c (Proc.devRef .tc main_arg4) = m ((c : Thread nD τ).loc main_arg4) :=
  (W2_of_ne m ρ c main_arg4 (by decide)).trans (by dsimp only [W1, hostOps0]; after_results)
theorem W2_arg5 (c : Dev nD) : W2 m ρ c (Proc.devRef .tc main_arg5) = m ((c : Thread nD τ).loc main_arg5) :=
  (W2_of_ne m ρ c main_arg5 (by decide)).trans (by dsimp only [W1, hostOps0]; after_results)
theorem W2_arg6 (c : Dev nD) : W2 m ρ c (Proc.devRef .tc main_arg6) = m ((c : Thread nD τ).loc main_arg6) :=
  (W2_of_ne m ρ c main_arg6 (by decide)).trans (by dsimp only [W1, hostOps0]; after_results)
theorem W2_arg9 (c : Dev nD) : W2 m ρ c (Proc.devRef .tc main_arg9) = m ((c : Thread nD τ).loc main_arg9) :=
  (W2_of_ne m ρ c main_arg9 (by decide)).trans (by dsimp only [W1, hostOps0]; after_results)
theorem W2_arg10 (c : Dev nD) : W2 m ρ c (Proc.devRef .tc main_arg10) = m ((c : Thread nD τ).loc main_arg10) :=
  (W2_of_ne m ρ c main_arg10 (by decide)).trans (by dsimp only [W1, hostOps0]; after_results)
theorem W2_arg11 (c : Dev nD) : W2 m ρ c (Proc.devRef .tc main_arg11) = m ((c : Thread nD τ).loc main_arg11) :=
  (W2_of_ne m ρ c main_arg11 (by decide)).trans (by dsimp only [W1, hostOps0]; after_results)
theorem W2_arg12 (c : Dev nD) : W2 m ρ c (Proc.devRef .tc main_arg12) = m ((c : Thread nD τ).loc main_arg12) :=
  (W2_of_ne m ρ c main_arg12 (by decide)).trans (by dsimp only [W1, hostOps0]; after_results)
theorem W2_arg13 (c : Dev nD) : W2 m ρ c (Proc.devRef .tc main_arg13) = m ((c : Thread nD τ).loc main_arg13) :=
  (W2_of_ne m ρ c main_arg13 (by decide)).trans (by dsimp only [W1, hostOps0]; after_results)
theorem W2_arg14 (c : Dev nD) : W2 m ρ c (Proc.devRef .tc main_arg14) = m ((c : Thread nD τ).loc main_arg14) :=
  (W2_of_ne m ρ c main_arg14 (by decide)).trans (by dsimp only [W1, hostOps0]; after_results)
theorem W2_arg15 (c : Dev nD) : W2 m ρ c (Proc.devRef .tc main_arg15) = m ((c : Thread nD τ).loc main_arg15) :=
  (W2_of_ne m ρ c main_arg15 (by decide)).trans (by dsimp only [W1, hostOps0]; after_results)
theorem W2_arg16 (c : Dev nD) : W2 m ρ c (Proc.devRef .tc main_arg16) = m ((c : Thread nD τ).loc main_arg16) :=
  (W2_of_ne m ρ c main_arg16 (by decide)).trans (by dsimp only [W1, hostOps0]; after_results)
theorem W2_arg17 (c : Dev nD) : W2 m ρ c (Proc.devRef .tc main_arg17) = m ((c : Thread nD τ).loc main_arg17) :=
  (W2_of_ne m ρ c main_arg17 (by decide)).trans (by dsimp only [W1, hostOps0]; after_results)
theorem W2_arg18 (c : Dev nD) : W2 m ρ c (Proc.devRef .tc main_arg18) = m ((c : Thread nD τ).loc main_arg18) :=
  (W2_of_ne m ρ c main_arg18 (by decide)).trans (by dsimp only [W1, hostOps0]; after_results)
theorem W2_arg19 (c : Dev nD) : W2 m ρ c (Proc.devRef .tc main_arg19) = m ((c : Thread nD τ).loc main_arg19) :=
  (W2_of_ne m ρ c main_arg19 (by decide)).trans (by dsimp only [W1, hostOps0]; after_results)
theorem W2_arg20 (c : Dev nD) : W2 m ρ c (Proc.devRef .tc main_arg20) = m ((c : Thread nD τ).loc main_arg20) :=
  (W2_of_ne m ρ c main_arg20 (by decide)).trans (by dsimp only [W1, hostOps0]; after_results)

/-- The pooled window's array: what region 0 left, every image's 8 partial sums. -/
theorem entry1_0 (c : Dev nD) :
    (V3 m ρ c (Pipeline.arrRef spec1 0) : Arr 256 1024) = poolPart (params m c) := by
  dsimp only [V3, W3, hostOps1]
  after_results
  exact (W2_arr m ρ c 18).trans (Reg0.final_18 m ρ c)

/-- The local window's array: what region 0 left, the local output of every patch row. -/
theorem entry1_1 (c : Dev nD) :
    (V3 m ρ c (Pipeline.arrRef spec1 1) : S32x256x256.Idx → EReal) = local3 (params m c) := by
  dsimp only [V3, W3, hostOps1]
  after_results
  exact (W2_arr m ρ c 17).trans (Reg0.final_17 m ρ c)
theorem entry1_2 (c : Dev nD) :
    (V3 m ρ c (Pipeline.arrRef spec1 2) : Arr 1024 2048) = m ((c : Thread nD τ).loc main_arg3) := by
  dsimp only [V3, W3, hostOps1]
  after_results
  exact W2_arg3 m ρ c
theorem entry1_3 (c : Dev nD) :
    (V3 m ρ c (Pipeline.arrRef spec1 3) : Arr 1 2048) = m ((c : Thread nD τ).loc main_arg4) := by
  dsimp only [V3, W3, hostOps1]
  after_results
  exact W2_arg4 m ρ c
theorem entry1_4 (c : Dev nD) :
    (V3 m ρ c (Pipeline.arrRef spec1 4) : Arr 2048 512) = m ((c : Thread nD τ).loc main_arg9) := by
  dsimp only [V3, W3, hostOps1]
  after_results
  exact W2_arg9 m ρ c
theorem entry1_5 (c : Dev nD) :
    (V3 m ρ c (Pipeline.arrRef spec1 5) : Arr 1 512) = m ((c : Thread nD τ).loc main_arg10) := by
  dsimp only [V3, W3, hostOps1]
  after_results
  exact W2_arg10 m ρ c
theorem entry1_6 (c : Dev nD) :
    (V3 m ρ c (Pipeline.arrRef spec1 6) : Arr 512 512) = m ((c : Thread nD τ).loc main_arg11) := by
  dsimp only [V3, W3, hostOps1]
  after_results
  exact W2_arg11 m ρ c
theorem entry1_7 (c : Dev nD) :
    (V3 m ρ c (Pipeline.arrRef spec1 7) : Arr 1 512) = m ((c : Thread nD τ).loc main_arg12) := by
  dsimp only [V3, W3, hostOps1]
  after_results
  exact W2_arg12 m ρ c
theorem entry1_8 (c : Dev nD) :
    (V3 m ρ c (Pipeline.arrRef spec1 8) : Arr 512 2048) = m ((c : Thread nD τ).loc main_arg13) := by
  dsimp only [V3, W3, hostOps1]
  after_results
  exact W2_arg13 m ρ c
theorem entry1_9 (c : Dev nD) :
    (V3 m ρ c (Pipeline.arrRef spec1 9) : Arr 1 2048) = m ((c : Thread nD τ).loc main_arg14) := by
  dsimp only [V3, W3, hostOps1]
  after_results
  exact W2_arg14 m ρ c
theorem entry1_10 (c : Dev nD) :
    (V3 m ρ c (Pipeline.arrRef spec1 10) : Arr 2048 512) = m ((c : Thread nD τ).loc main_arg15) := by
  dsimp only [V3, W3, hostOps1]
  after_results
  exact W2_arg15 m ρ c
theorem entry1_11 (c : Dev nD) :
    (V3 m ρ c (Pipeline.arrRef spec1 11) : Arr 1 512) = m ((c : Thread nD τ).loc main_arg16) := by
  dsimp only [V3, W3, hostOps1]
  after_results
  exact W2_arg16 m ρ c
theorem entry1_12 (c : Dev nD) :
    (V3 m ρ c (Pipeline.arrRef spec1 12) : Arr 512 512) = m ((c : Thread nD τ).loc main_arg17) := by
  dsimp only [V3, W3, hostOps1]
  after_results
  exact W2_arg17 m ρ c
theorem entry1_13 (c : Dev nD) :
    (V3 m ρ c (Pipeline.arrRef spec1 13) : Arr 1 512) = m ((c : Thread nD τ).loc main_arg18) := by
  dsimp only [V3, W3, hostOps1]
  after_results
  exact W2_arg18 m ρ c
theorem entry1_14 (c : Dev nD) :
    (V3 m ρ c (Pipeline.arrRef spec1 14) : Arr 512 2048) = m ((c : Thread nD τ).loc main_arg19) := by
  dsimp only [V3, W3, hostOps1]
  after_results
  exact W2_arg19 m ρ c
theorem entry1_15 (c : Dev nD) :
    (V3 m ρ c (Pipeline.arrRef spec1 15) : Arr 1 2048) = m ((c : Thread nD τ).loc main_arg20) := by
  dsimp only [V3, W3, hostOps1]
  after_results
  exact W2_arg20 m ρ c
theorem entry1_16 (c : Dev nD) :
    (V3 m ρ c (Pipeline.arrRef spec1 16) : Arr 2048 256) = m ((c : Thread nD τ).loc main_arg5) := by
  dsimp only [V3, W3, hostOps1]
  after_results
  exact W2_arg5 m ρ c
theorem entry1_17 (c : Dev nD) :
    (V3 m ρ c (Pipeline.arrRef spec1 17) : Arr 1 256) = m ((c : Thread nD τ).loc main_arg6) := by
  dsimp only [V3, W3, hostOps1]
  after_results
  exact W2_arg6 m ρ c

/-- Equal weight blocks give equal weights. -/
theorem weights_congr {x2 x3 x4 x5 x6 x7 x8 x9 x10 x11 x12 x13 x14 x15 x16 x17 y2 y3 y4 y5 y6 y7 y8 y9 y10 y11 y12 y13 y14 y15 y16 y17 : _}
    (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) :
    Body1.weights x2 x3 x4 x5 x6 x7 x8 x9 x10 x11 x12 x13 x14 x15 x16 x17 = Body1.weights y2 y3 y4 y5 y6 y7 y8 y9 y10 y11 y12 y13 y14 y15 y16 y17 := by
  subst_vars; rfl

/-- At every point the body's sixteen weight blocks are the global branch's weights as launched. -/
theorem weights_at (c : Dev nD) (t : Fin cfg1.N) :
    Body1.weights (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t) (iblk1 (V3 m ρ) c 14 t) (iblk1 (V3 m ρ) c 15 t) (iblk1 (V3 m ρ) c 16 t) (iblk1 (V3 m ρ) c 17 t) = (params m c).gw :=
  (weights_congr ((iblk_2 (V3 m ρ) c t).trans (entry1_2 m ρ c)) ((iblk_3 (V3 m ρ) c t).trans (entry1_3 m ρ c)) ((iblk_4 (V3 m ρ) c t).trans (entry1_4 m ρ c)) ((iblk_5 (V3 m ρ) c t).trans (entry1_5 m ρ c)) ((iblk_6 (V3 m ρ) c t).trans (entry1_6 m ρ c)) ((iblk_7 (V3 m ρ) c t).trans (entry1_7 m ρ c)) ((iblk_8 (V3 m ρ) c t).trans (entry1_8 m ρ c)) ((iblk_9 (V3 m ρ) c t).trans (entry1_9 m ρ c)) ((iblk_10 (V3 m ρ) c t).trans (entry1_10 m ρ c)) ((iblk_11 (V3 m ρ) c t).trans (entry1_11 m ρ c)) ((iblk_12 (V3 m ρ) c t).trans (entry1_12 m ρ c)) ((iblk_13 (V3 m ρ) c t).trans (entry1_13 m ρ c)) ((iblk_14 (V3 m ρ) c t).trans (entry1_14 m ρ c)) ((iblk_15 (V3 m ρ) c t).trans (entry1_15 m ρ c)) ((iblk_16 (V3 m ρ) c t).trans (entry1_16 m ρ c)) ((iblk_17 (V3 m ρ) c t).trans (entry1_17 m ρ c))).trans rfl

/-! ## What each point writes back -/

/-- The pooled rows of the block at point `t` are rows `8t …` of the pooled matrix of all images. -/
theorem pooled_rows (c : Dev nD) (t : Fin cfg1.N) :
    RowsOf (fun a : Fin 8 => (⟨t.val * 8 + a.val, by have := lt_N1 t; have := a.isLt; omega⟩ : Fin 32))
      (pooledBlk (iblk1 (V3 m ρ) c 0 t)) (pooled (params m c)) := fun a k => by
  have ht := lt_N1 t
  have ha := a.isLt
  rw [pooledBlk_apply]
  show _ = (∑ s : Fin 8, poolPart (params m c) _) * invTokens
  refine congrArg (· * invTokens) (Finset.sum_congr rfl fun s _ => ?_)
  have hs := s.isLt
  refine ((rows_0 (V3 m ρ) c t) ⟨a.val * 8 + s.val, by omega⟩ k).trans ?_
  rw [entry1_0 m ρ c]
  refine congrArg (poolPart (params m c)) (ix2_congr ?_ rfl)
  show t.val * 64 + (a.val * 8 + s.val) = (t.val * 8 + a.val) * 8 + s.val
  omega

/-- Point `t` writes back images `8t … 8t+7` of the encoder's result. -/
theorem flushed_18 (c : Dev nD) (t : Fin cfg1.N) :
    (dat1 (V3 m ρ) c).flushed 18 t = ((cfg1.win 18).blk t).view.read (Elt Ideal) (encoder (params m c)) := by
  show (cfg1.win 18).cut (grid1.coords t) ((dat1 (V3 m ρ) c).after 18 t) = _
  rw [after1_18]
  unfold outsAt1
  rw [out1_eq, weights_at m ρ c t]
  funext y
  obtain ⟨a, p, k, rfl⟩ : ∃ (a : Fin 8) (p : Fin 257) (k : Fin 256), y = ix3 a p k := ⟨y 0, y 1, y 2, eq_ix3 y⟩
  have ht := lt_N1 t
  have ha := a.isLt
  have hp := p.isLt
  show blockOut (globalOf (params m c).gw (pooledBlk (iblk1 (V3 m ρ) c 0 t))) (iblk1 (V3 m ρ) c 1 t) (ix3 a p k)
    = encoder (params m c) (((cfg1.win 18).blk t).view.emb (ix3 a p k))
  have e0 : ((((cfg1.win 18).blk t).view.emb (ix3 a p k)) (0 : Fin 3)).val = t.val * 8 + a.val := by
    show win1_18.index t (0 : Fin 3) * 8 + 1 * a.val = _; rw [(idx1_18 t).1]; omega
  have e1 : ((((cfg1.win 18).blk t).view.emb (ix3 a p k)) (1 : Fin 3)).val = p.val := by
    show win1_18.index t (1 : Fin 3) * 257 + 1 * p.val = _; rw [(idx1_18 t).2.1]; omega
  have e2 : ((((cfg1.win 18).blk t).view.emb (ix3 a p k)) (2 : Fin 3)).val = k.val := by
    show win1_18.index t (2 : Fin 3) * 256 + 1 * k.val = _; rw [(idx1_18 t).2.2]; omega
  unfold blockOut encoder
  by_cases hp0 : p.val = 0
  · rw [if_pos (show ((ix3 a p k : S8x257x256.Idx) 1).val = 0 from hp0), if_pos (e1.trans hp0)]
    refine (((pooled_rows m ρ c t).globalOf (params m c).gw) a k).trans ?_
    exact congrArg (globalOut (params m c)) (ix2_congr e0.symm e2.symm)
  · rw [if_neg (show ¬ ((ix3 a p k : S8x257x256.Idx) 1).val = 0 from hp0), if_neg (fun h => hp0 (e1.symm.trans h))]
    refine (imgs_1 (V3 m ρ) c t a ⟨p.val - 1, by omega⟩ k).trans ?_
    rw [entry1_1 m ρ c]
    refine congrArg (localOut (params m c)) (ix2_congr ?_ e2.symm)
    exact (congrArg₂ (fun x y : ℕ => x * 256 + (y - 1)) e0 e1).symm

/-! ## The blocks tile the result -/

theorem mem_blk18 (t : Fin cfg1.N) (i : S32x257x256.Idx) :
    i ∈ ((cfg1.win 18).blk t).view.set ↔ ∀ a : Fin 3, win1_18.index t a * S8x257x256.size a ≤ (i a).val ∧ (i a).val < win1_18.index t a * S8x257x256.size a + S8x257x256.size a := by
  show i ∈ ((View.whole main_v21).slice (win1_18.rect t)).set ↔ _
  rw [View.set_slice_whole, Rect.mem_set_unit]
  exact Iff.rfl

/-- Image `b` of the result is in the block of point `b / 8`. -/
theorem cover18 (i : S32x257x256.Idx) : ∃ t : Fin cfg1.N, (cfg1.win 18).flush t = true ∧ i ∈ ((cfg1.win 18).blk t).view.set := by
  have h0 : (i 0).val < 32 := (i 0).isLt
  have h1 : (i 1).val < 257 := (i 1).isLt
  have h2 : (i 2).val < 256 := (i 2).isLt
  refine ⟨⟨(i 0).val / 8, by rw [show cfg1.N = 4 from N_1]; omega⟩, flush1_18 _, ?_⟩
  rw [mem_blk18]
  intro a
  match a with
  | ⟨0, _⟩ => show win1_18.index _ (0 : Fin 3) * 8 ≤ (i 0).val ∧ (i 0).val < win1_18.index _ (0 : Fin 3) * 8 + 8; rw [(idx1_18 _).1]; show (i 0).val / 8 * 8 ≤ (i 0).val ∧ (i 0).val < (i 0).val / 8 * 8 + 8; omega
  | ⟨1, _⟩ => show win1_18.index _ (1 : Fin 3) * 257 ≤ (i 1).val ∧ (i 1).val < win1_18.index _ (1 : Fin 3) * 257 + 257; rw [(idx1_18 _).2.1]; omega
  | ⟨2, _⟩ => show win1_18.index _ (2 : Fin 3) * 256 ≤ (i 2).val ∧ (i 2).val < win1_18.index _ (2 : Fin 3) * 256 + 256; rw [(idx1_18 _).2.2]; omega

/-! ## The result array after the region, and after the program -/

/-- After region 1 the result array holds the encoder's result. -/
theorem final_18 (c : Dev nD) : (dat1 (V3 m ρ) c).arrAt 18 cfg1.N = encoder (params m c) :=
  (dat1 (V3 m ρ) c).arrAt_eq_of_cover 18 _ (fun t _ => flushed_18 m ρ c t) cover18

/-- The contents of the result array at the program's last boundary. -/
theorem result (c : Dev nD) : W4 m ρ c (Proc.devRef .tc main_v21) = encoder (params m c) :=
  (W4_arr m ρ c 18).trans (final_18 m ρ c)

end Cert.KernelIdeal.Reg1

end
-- ==== Proof.RBody0.lean ====
/-
  Region 0 of the reference, one grid point: what the body leaves in its two output blocks, as mathematics.

  The body multiplies its block of 512 patch rows (2 images of 256 tokens) by the stem weights and adds the stem bias
  (the embedded rows), sends them through two residual bottlenecks and the projection (the block of the local output),
  and adds up, per image and per residue of the token number modulo 8, the 32 embedded rows of that residue (the block
  of pooled partial sums, 16 rows). Changes of float format are the identity on the extended reals, a product
  accumulated into zero plus a broadcast bias is the dense layer, a maximum with the zero splat the rectifier.
-/
import proofs.«104311_g2000204771767084_pallasbulk_517_4_alg».proof.Proof.Spec
import proofs.«104311_g2000204771767084_pallasbulk_517_4_alg».proof.Proof.LibDotLists
import proofs.«104311_g2000204771767084_pallasbulk_517_4_alg».proof.Proof.Gen.ReferenceIdeal.Frame

set_option maxRecDepth 16384

noncomputable section

open scoped BigOperators

namespace Cert.ReferenceIdeal.Body0

open Idealize.ShloMosaic Idealize.ShloMosaic.ValueIdx Idealize.ShloMosaic.Pipeline
open Cert.ReferenceIdeal Cert.ReferenceIdeal.Gen Cert.Linear Cert.Enc

theorem hz2 : (![0, 0] : Fin 2 → Nat) = fun _ => 0 := funext fun a => by fin_cases a <;> rfl

theorem c_stem : Contracts dot_S512x768_S768x1024_S512x1024_1_0_0_1_n_n := contracts_of_lists _ rfl rfl rfl rfl rfl rfl
theorem c_down : Contracts dot_S512x1024_S1024x256_S512x256_1_0_0_1_n_n := contracts_of_lists _ rfl rfl rfl rfl rfl rfl
theorem c_mid : Contracts dot_S512x256_S256x256_S512x256_1_0_0_1_n_n := contracts_of_lists _ rfl rfl rfl rfl rfl rfl
theorem c_up : Contracts dot_S512x256_S256x1024_S512x1024_1_0_0_1_n_n := contracts_of_lists _ rfl rfl rfl rfl rfl rfl

/-- The stem's and the local branch's weights, from the body's sixteen weight blocks in the order it loads them. -/
def weights (x1 : Vec Ideal S768x1024 .bf16) (x2 : Vec Ideal S1x1024 .f32) (x3 : Vec Ideal S1024x256 .bf16) (x4 : Vec Ideal S1x256 .f32) (x5 : Vec Ideal S256x256 .bf16) (x6 : Vec Ideal S1x256 .f32) (x7 : Vec Ideal S256x1024 .bf16) (x8 : Vec Ideal S1x1024 .f32) (x9 : Vec Ideal S1024x256 .bf16) (x10 : Vec Ideal S1x256 .f32) (x11 : Vec Ideal S256x256 .bf16) (x12 : Vec Ideal S1x256 .f32) (x13 : Vec Ideal S256x1024 .bf16) (x14 : Vec Ideal S1x1024 .f32) (x15 : Vec Ideal S1024x256 .bf16) (x16 : Vec Ideal S1x256 .f32) : LocalW :=
  ⟨x1, x2, ⟨x3, x4, x5, x6, x7, x8⟩, ⟨x9, x10, x11, x12, x13, x14⟩, x15, x16⟩

/-- The block of the local output: the local branch of the block's embedded rows. -/
theorem out0_17_eq (x0 : Vec Ideal S512x768 .bf16) (x1 : Vec Ideal S768x1024 .bf16) (x2 : Vec Ideal S1x1024 .f32) (x3 : Vec Ideal S1024x256 .bf16) (x4 : Vec Ideal S1x256 .f32) (x5 : Vec Ideal S256x256 .bf16) (x6 : Vec Ideal S1x256 .f32) (x7 : Vec Ideal S256x1024 .bf16) (x8 : Vec Ideal S1x1024 .f32) (x9 : Vec Ideal S1024x256 .bf16) (x10 : Vec Ideal S1x256 .f32) (x11 : Vec Ideal S256x256 .bf16) (x12 : Vec Ideal S1x256 .f32) (x13 : Vec Ideal S256x1024 .bf16) (x14 : Vec Ideal S1x1024 .f32) (x15 : Vec Ideal S1024x256 .bf16) (x16 : Vec Ideal S1x256 .f32) :
    out0_17 (F := Ideal) x0 x1 x2 x3 x4 x5 x6 x7 x8 x9 x10 x11 x12 x13 x14 x15 x16
      = localTail (weights x1 x2 x3 x4 x5 x6 x7 x8 x9 x10 x11 x12 x13 x14 x15 x16) (stem (weights x1 x2 x3 x4 x5 x6 x7 x8 x9 x10 x11 x12 x13 x14 x15 x16) x0) := by
  unfold out0_17
  rw [View.canon_unit_zero hz2]
  simp only [View.ld_unit_zero (S := S512x768) hz2, View.ld_unit_zero (S := S768x1024) hz2, View.ld_unit_zero (S := S1x1024) hz2, View.ld_unit_zero (S := S1024x256) hz2, View.ld_unit_zero (S := S1x256) hz2, View.ld_unit_zero (S := S256x256) hz2, View.ld_unit_zero (S := S256x1024) hz2]
  unfold k0_pay1 k0_pay6 k0_pay4 k0_pay5 k0_pay2
  simp only [shapeCast_self, truncf_eq, lin_of_ops c_stem, lin_of_ops c_down, lin_of_ops c_mid, lin_of_ops c_up, relu_of_ops]
  rfl

/-- The block of pooled partial sums: the embedded rows viewed as 2 images × 32 groups × 8 residues, summed over the groups. -/
theorem out0_18_eq (x0 : Vec Ideal S512x768 .bf16) (x1 : Vec Ideal S768x1024 .bf16) (x2 : Vec Ideal S1x1024 .f32) (x3 : Vec Ideal S1024x256 .bf16) (x4 : Vec Ideal S1x256 .f32) (x5 : Vec Ideal S256x256 .bf16) (x6 : Vec Ideal S1x256 .f32) (x7 : Vec Ideal S256x1024 .bf16) (x8 : Vec Ideal S1x1024 .f32) (x9 : Vec Ideal S1024x256 .bf16) (x10 : Vec Ideal S1x256 .f32) (x11 : Vec Ideal S256x256 .bf16) (x12 : Vec Ideal S1x256 .f32) (x13 : Vec Ideal S256x1024 .bf16) (x14 : Vec Ideal S1x1024 .f32) (x15 : Vec Ideal S1024x256 .bf16) (x16 : Vec Ideal S1x256 .f32) :
    out0_18 (F := Ideal) x0 x1 x2 x3 x4 x5 x6 x7 x8 x9 x10 x11 x12 x13 x14 x15 x16
      = shapeCast S16x1024 (multiReduction (F := Ideal) .add [1] S2x8x1024
          (shapeCast S2x32x8x1024 (stem (weights x1 x2 x3 x4 x5 x6 x7 x8 x9 x10 x11 x12 x13 x14 x15 x16) x0) shapeCasts_S512x1024_S2x32x8x1024)
          0x00000000#32 reduces_S2x32x8x1024_S2x8x1024 (.inl rfl) rfl) shapeCasts_S2x8x1024_S16x1024 := by
  unfold out0_18
  rw [View.canon_unit_zero hz2]
  simp only [View.ld_unit_zero (S := S512x768) hz2, View.ld_unit_zero (S := S768x1024) hz2, View.ld_unit_zero (S := S1x1024) hz2]
  unfold k0_pay3 k0_pay2
  simp only [shapeCast_self, lin_of_ops c_stem]
  rfl

/-- The partial sums at row `u = a·8 + s`, column `k`: the sum over the 32 groups `q` of the embedded row `a·256 + q·8 + s`. -/
theorem pool_block_apply (f : Arr 512 1024) (u : Fin 16) (k : Fin 1024) :
    shapeCast S16x1024 (multiReduction (F := Ideal) .add [1] S2x8x1024
          (shapeCast S2x32x8x1024 f shapeCasts_S512x1024_S2x32x8x1024)
          0x00000000#32 reduces_S2x32x8x1024_S2x8x1024 (.inl rfl) rfl) shapeCasts_S2x8x1024_S16x1024 (ix2 u k)
      = ∑ q : Fin 32, f (ix2 (n0 := 512) (n1 := 1024)
          ⟨u.val / 8 * 256 + q.val * 8 + u.val % 8, by have := u.isLt; have := q.isLt; omega⟩ k) := by
  have hu := u.isLt
  rw [shapeCast_apply _ shapeCasts_S2x8x1024_S16x1024 (ix2 u k)
    (ix3 (n0 := 2) (n1 := 8) (n2 := 1024) ⟨u.val / 8, by omega⟩ ⟨u.val % 8, by omega⟩ k)
    (by rw [Shape.rowMajor_val_two, Shape.rowMajor_val_three]
        show (u.val / 8 * 8 + u.val % 8) * 1024 + k.val = u.val * 1024 + k.val
        omega)]
  refine (Ideal.multiReduction_add_single _ _ _ _ _ _).trans ?_
  refine Finset.sum_congr rfl fun q _ => ?_
  refine shapeCast_apply f shapeCasts_S512x1024_S2x32x8x1024 _ _ ?_
  rw [Shape.rowMajor_val_two, Shape.rowMajor_val_four]
  show (u.val / 8 * 256 + q.val * 8 + u.val % 8) * 1024 + k.val = ((u.val / 8 * 32 + q.val) * 8 + u.val % 8) * 1024 + k.val
  omega

end Cert.ReferenceIdeal.Body0

end
-- ==== Proof.RIn0.lean ====
/-
  Region 0 of the reference, the whole grid: what the region's points read.

  The region runs 16 points. The host operations before it leave the patch matrix of the image batch in the array of
  window 0 and each weight argument (its format changed, which is the identity) in the arrays of windows 1 … 16. Point `t`
  reads rows `512·t … 512·t + 511` of the patch matrix (2 images) and the sixteen weight arrays whole: so the body's
  weights at every point are the specification's local weights.
-/
import proofs.«104311_g2000204771767084_pallasbulk_517_4_alg».proof.Proof.Whole
import proofs.«104311_g2000204771767084_pallasbulk_517_4_alg».proof.Proof.RBody0

set_option maxRecDepth 16384

noncomputable section

open scoped BigOperators

namespace Cert.ReferenceIdeal.Reg0

open Idealize.ShloMosaic Idealize.ShloMosaic.TcCoe Idealize.ShloMosaic.ValueIdx Idealize.ShloMosaic.Pipeline Idealize.SL.Sem
open Cert.ReferenceIdeal Cert.ReferenceIdeal.Gen Cert.Linear Cert.Enc Cert.ReferenceIdeal.Body0

variable (m : (ℓ : Loc nD τ sig) → Buf (Elt Ideal) ℓ) (ρ : Dev nD → PrngReg) (c : Dev nD)

/-- The encoder's parameters, read off the launch memory: the thirty-three argument arrays in order. -/
abbrev paramsAt : Params :=
  paramsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32))

/-! ## What the host operations before the region left in the region's input arrays -/

/-- The patch matrix: the image batch reshaped, its axes transposed, reshaped again (the format change is the identity). -/
theorem entry0 : (V1 m ρ c main_v3 : S8192x768.Idx → EReal) = patches (m ((c : Thread nD τ).loc main_arg0)) := by
  dsimp only [V1, W1, hostOps0]
  after_results
  rfl

theorem entry1 : (V1 m ρ c main_v4 : S768x1024.Idx → EReal) = (m ((c : Thread nD τ).loc main_arg1)) := by
  dsimp only [V1, W1, hostOps0]
  after_results
  rfl

theorem entry2 : (V1 m ρ c main_arg2 : S1x1024.Idx → EReal) = (m ((c : Thread nD τ).loc main_arg2)) := by
  dsimp only [V1, W1, hostOps0]
  after_results

theorem entry3 : (V1 m ρ c main_v5 : S1024x256.Idx → EReal) = (m ((c : Thread nD τ).loc main_arg21)) := by
  dsimp only [V1, W1, hostOps0]
  after_results
  rfl

theorem entry4 : (V1 m ρ c main_arg22 : S1x256.Idx → EReal) = (m ((c : Thread nD τ).loc main_arg22)) := by
  dsimp only [V1, W1, hostOps0]
  after_results

theorem entry5 : (V1 m ρ c main_v6 : S256x256.Idx → EReal) = (m ((c : Thread nD τ).loc main_arg23)) := by
  dsimp only [V1, W1, hostOps0]
  after_results
  rfl

theorem entry6 : (V1 m ρ c main_arg24 : S1x256.Idx → EReal) = (m ((c : Thread nD τ).loc main_arg24)) := by
  dsimp only [V1, W1, hostOps0]
  after_results

theorem entry7 : (V1 m ρ c main_v7 : S256x1024.Idx → EReal) = (m ((c : Thread nD τ).loc main_arg25)) := by
  dsimp only [V1, W1, hostOps0]
  after_results
  rfl

theorem entry8 : (V1 m ρ c main_arg26 : S1x1024.Idx → EReal) = (m ((c : Thread nD τ).loc main_arg26)) := by
  dsimp only [V1, W1, hostOps0]
  after_results

theorem entry9 : (V1 m ρ c main_v8 : S1024x256.Idx → EReal) = (m ((c : Thread nD τ).loc main_arg27)) := by
  dsimp only [V1, W1, hostOps0]
  after_results
  rfl

theorem entry10 : (V1 m ρ c main_arg28 : S1x256.Idx → EReal) = (m ((c : Thread nD τ).loc main_arg28)) := by
  dsimp only [V1, W1, hostOps0]
  after_results

theorem entry11 : (V1 m ρ c main_v9 : S256x256.Idx → EReal) = (m ((c : Thread nD τ).loc main_arg29)) := by
  dsimp only [V1, W1, hostOps0]
  after_results
  rfl

theorem entry12 : (V1 m ρ c main_arg30 : S1x256.Idx → EReal) = (m ((c : Thread nD τ).loc main_arg30)) := by
  dsimp only [V1, W1, hostOps0]
  after_results

theorem entry13 : (V1 m ρ c main_v10 : S256x1024.Idx → EReal) = (m ((c : Thread nD τ).loc main_arg31)) := by
  dsimp only [V1, W1, hostOps0]
  after_results
  rfl

theorem entry14 : (V1 m ρ c main_arg32 : S1x1024.Idx → EReal) = (m ((c : Thread nD τ).loc main_arg32)) := by
  dsimp only [V1, W1, hostOps0]
  after_results

theorem entry15 : (V1 m ρ c main_v11 : S1024x256.Idx → EReal) = (m ((c : Thread nD τ).loc main_arg7)) := by
  dsimp only [V1, W1, hostOps0]
  after_results
  rfl

theorem entry16 : (V1 m ρ c main_arg8 : S1x256.Idx → EReal) = (m ((c : Thread nD τ).loc main_arg8)) := by
  dsimp only [V1, W1, hostOps0]
  after_results

/-! ## The index maps, decided once over the grid -/

theorem tlt (t : Fin cfg0.N) : t.val < 16 := lt_of_lt_of_eq t.isLt N_0

theorem idx0_0 : ∀ t : Fin grid0.N, win0_0.index t (0 : Fin 2) = t.val ∧ win0_0.index t (1 : Fin 2) = 0 :=
  (by decide +kernel : ∀ t : Fin grid0.N, _)
theorem idx0_1 : ∀ t : Fin grid0.N, win0_1.index t (0 : Fin 2) = 0 ∧ win0_1.index t (1 : Fin 2) = 0 :=
  (by decide +kernel : ∀ t : Fin grid0.N, _)
theorem idx0_2 : ∀ t : Fin grid0.N, win0_2.index t (0 : Fin 2) = 0 ∧ win0_2.index t (1 : Fin 2) = 0 :=
  (by decide +kernel : ∀ t : Fin grid0.N, _)
theorem idx0_3 : ∀ t : Fin grid0.N, win0_3.index t (0 : Fin 2) = 0 ∧ win0_3.index t (1 : Fin 2) = 0 :=
  (by decide +kernel : ∀ t : Fin grid0.N, _)
theorem idx0_4 : ∀ t : Fin grid0.N, win0_4.index t (0 : Fin 2) = 0 ∧ win0_4.index t (1 : Fin 2) = 0 :=
  (by decide +kernel : ∀ t : Fin grid0.N, _)
theorem idx0_5 : ∀ t : Fin grid0.N, win0_5.index t (0 : Fin 2) = 0 ∧ win0_5.index t (1 : Fin 2) = 0 :=
  (by decide +kernel : ∀ t : Fin grid0.N, _)
theorem idx0_6 : ∀ t : Fin grid0.N, win0_6.index t (0 : Fin 2) = 0 ∧ win0_6.index t (1 : Fin 2) = 0 :=
  (by decide +kernel : ∀ t : Fin grid0.N, _)
theorem idx0_7 : ∀ t : Fin grid0.N, win0_7.index t (0 : Fin 2) = 0 ∧ win0_7.index t (1 : Fin 2) = 0 :=
  (by decide +kernel : ∀ t : Fin grid0.N, _)
theorem idx0_8 : ∀ t : Fin grid0.N, win0_8.index t (0 : Fin 2) = 0 ∧ win0_8.index t (1 : Fin 2) = 0 :=
  (by decide +kernel : ∀ t : Fin grid0.N, _)
theorem idx0_9 : ∀ t : Fin grid0.N, win0_9.index t (0 : Fin 2) = 0 ∧ win0_9.index t (1 : Fin 2) = 0 :=
  (by decide +kernel : ∀ t : Fin grid0.N, _)
theorem idx0_10 : ∀ t : Fin grid0.N, win0_10.index t (0 : Fin 2) = 0 ∧ win0_10.index t (1 : Fin 2) = 0 :=
  (by decide +kernel : ∀ t : Fin grid0.N, _)
theorem idx0_11 : ∀ t : Fin grid0.N, win0_11.index t (0 : Fin 2) = 0 ∧ win0_11.index t (1 : Fin 2) = 0 :=
  (by decide +kernel : ∀ t : Fin grid0.N, _)
theorem idx0_12 : ∀ t : Fin grid0.N, win0_12.index t (0 : Fin 2) = 0 ∧ win0_12.index t (1 : Fin 2) = 0 :=
  (by decide +kernel : ∀ t : Fin grid0.N, _)
theorem idx0_13 : ∀ t : Fin grid0.N, win0_13.index t (0 : Fin 2) = 0 ∧ win0_13.index t (1 : Fin 2) = 0 :=
  (by decide +kernel : ∀ t : Fin grid0.N, _)
theorem idx0_14 : ∀ t : Fin grid0.N, win0_14.index t (0 : Fin 2) = 0 ∧ win0_14.index t (1 : Fin 2) = 0 :=
  (by decide +kernel : ∀ t : Fin grid0.N, _)
theorem idx0_15 : ∀ t : Fin grid0.N, win0_15.index t (0 : Fin 2) = 0 ∧ win0_15.index t (1 : Fin 2) = 0 :=
  (by decide +kernel : ∀ t : Fin grid0.N, _)
theorem idx0_16 : ∀ t : Fin grid0.N, win0_16.index t (0 : Fin 2) = 0 ∧ win0_16.index t (1 : Fin 2) = 0 :=
  (by decide +kernel : ∀ t : Fin grid0.N, _)
theorem idx0_17 : ∀ t : Fin grid0.N, win0_17.index t (0 : Fin 2) = t.val ∧ win0_17.index t (1 : Fin 2) = 0 :=
  (by decide +kernel : ∀ t : Fin grid0.N, _)
theorem idx0_18 : ∀ t : Fin grid0.N, win0_18.index t (0 : Fin 2) = t.val ∧ win0_18.index t (1 : Fin 2) = 0 :=
  (by decide +kernel : ∀ t : Fin grid0.N, _)

/-! ## The input blocks: each weight window's block is its whole array, window 0's block is 512 rows of the patch matrix -/

section Blocks

variable (V : (c : Dev nD) → (b : Ref sig .tc) → Buf (Elt Ideal) ((c : Thread nD τ).loc b))

theorem whole0_1 (t : Fin cfg0.N) : iblk0 V c 1 t = V c main_v4 := by
  obtain ⟨e0, e1⟩ := idx0_1 t
  funext y
  unfold iblk0
  rw [View.read_apply]
  show V c main_v4 _ = V c main_v4 y
  congr 1
  funext a
  apply Fin.ext
  match a with
  | ⟨0, _⟩ => show win0_1.index t (0 : Fin 2) * 768 + 1 * (y 0).val = (y 0).val; omega
  | ⟨1, _⟩ => show win0_1.index t (1 : Fin 2) * 1024 + 1 * (y 1).val = (y 1).val; omega

theorem whole0_2 (t : Fin cfg0.N) : iblk0 V c 2 t = V c main_arg2 := by
  obtain ⟨e0, e1⟩ := idx0_2 t
  funext y
  unfold iblk0
  rw [View.read_apply]
  show V c main_arg2 _ = V c main_arg2 y
  congr 1
  funext a
  apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem whole0_3 (t : Fin cfg0.N) : iblk0 V c 3 t = V c main_v5 := by
  obtain ⟨e0, e1⟩ := idx0_3 t
  funext y
  unfold iblk0
  rw [View.read_apply]
  show V c main_v5 _ = V c main_v5 y
  congr 1
  funext a
  apply Fin.ext
  match a with
  | ⟨0, _⟩ => show win0_3.index t (0 : Fin 2) * 1024 + 1 * (y 0).val = (y 0).val; omega
  | ⟨1, _⟩ => show win0_3.index t (1 : Fin 2) * 256 + 1 * (y 1).val = (y 1).val; omega

theorem whole0_4 (t : Fin cfg0.N) : iblk0 V c 4 t = V c main_arg22 := by
  obtain ⟨e0, e1⟩ := idx0_4 t
  funext y
  unfold iblk0
  rw [View.read_apply]
  show V c main_arg22 _ = V c main_arg22 y
  congr 1
  funext a
  apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem whole0_5 (t : Fin cfg0.N) : iblk0 V c 5 t = V c main_v6 := by
  obtain ⟨e0, e1⟩ := idx0_5 t
  funext y
  unfold iblk0
  rw [View.read_apply]
  show V c main_v6 _ = V c main_v6 y
  congr 1
  funext a
  apply Fin.ext
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem whole0_6 (t : Fin cfg0.N) : iblk0 V c 6 t = V c main_arg24 := by
  obtain ⟨e0, e1⟩ := idx0_6 t
  funext y
  unfold iblk0
  rw [View.read_apply]
  show V c main_arg24 _ = V c main_arg24 y
  congr 1
  funext a
  apply Fin.ext
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem whole0_7 (t : Fin cfg0.N) : iblk0 V c 7 t = V c main_v7 := by
  obtain ⟨e0, e1⟩ := idx0_7 t
  funext y
  unfold iblk0
  rw [View.read_apply]
  show V c main_v7 _ = V c main_v7 y
  congr 1
  funext a
  apply Fin.ext
  match a with
  | ⟨0, _⟩ => show win0_7.index t (0 : Fin 2) * 256 + 1 * (y 0).val = (y 0).val; omega
  | ⟨1, _⟩ => show win0_7.index t (1 : Fin 2) * 1024 + 1 * (y 1).val = (y 1).val; omega

theorem whole0_8 (t : Fin cfg0.N) : iblk0 V c 8 t = V c main_arg26 := by
  obtain ⟨e0, e1⟩ := idx0_8 t
  funext y
  unfold iblk0
  rw [View.read_apply]
  show V c main_arg26 _ = V c main_arg26 y
  congr 1
  funext a
  apply Fin.ext
  match a with
  | ⟨0, _⟩ => show win0_8.index t (0 : Fin 2) * 1 + 1 * (y 0).val = (y 0).val; omega
  | ⟨1, _⟩ => show win0_8.index t (1 : Fin 2) * 1024 + 1 * (y 1).val = (y 1).val; omega

theorem whole0_9 (t : Fin cfg0.N) : iblk0 V c 9 t = V c main_v8 := by
  obtain ⟨e0, e1⟩ := idx0_9 t
  funext y
  unfold iblk0
  rw [View.read_apply]
  show V c main_v8 _ = V c main_v8 y
  congr 1
  funext a
  apply Fin.ext
  match a with
  | ⟨0, _⟩ => show win0_9.index t (0 : Fin 2) * 1024 + 1 * (y 0).val = (y 0).val; omega
  | ⟨1, _⟩ => show win0_9.index t (1 : Fin 2) * 256 + 1 * (y 1).val = (y 1).val; omega

theorem whole0_10 (t : Fin cfg0.N) : iblk0 V c 10 t = V c main_arg28 := by
  obtain ⟨e0, e1⟩ := idx0_10 t
  funext y
  unfold iblk0
  rw [View.read_apply]
  show V c main_arg28 _ = V c main_arg28 y
  congr 1
  funext a
  apply Fin.ext
  match a with
  | ⟨0, _⟩ => show win0_10.index t (0 : Fin 2) * 1 + 1 * (y 0).val = (y 0).val; omega
  | ⟨1, _⟩ => show win0_10.index t (1 : Fin 2) * 256 + 1 * (y 1).val = (y 1).val; omega

theorem whole0_11 (t : Fin cfg0.N) : iblk0 V c 11 t = V c main_v9 := by
  obtain ⟨e0, e1⟩ := idx0_11 t
  funext y
  unfold iblk0
  rw [View.read_apply]
  show V c main_v9 _ = V c main_v9 y
  congr 1
  funext a
  apply Fin.ext
  match a with
  | ⟨0, _⟩ => show win0_11.index t (0 : Fin 2) * 256 + 1 * (y 0).val = (y 0).val; omega
  | ⟨1, _⟩ => show win0_11.index t (1 : Fin 2) * 256 + 1 * (y 1).val = (y 1).val; omega

theorem whole0_12 (t : Fin cfg0.N) : iblk0 V c 12 t = V c main_arg30 := by
  obtain ⟨e0, e1⟩ := idx0_12 t
  funext y
  unfold iblk0
  rw [View.read_apply]
  show V c main_arg30 _ = V c main_arg30 y
  congr 1
  funext a
  apply Fin.ext
  match a with
  | ⟨0, _⟩ => show win0_12.index t (0 : Fin 2) * 1 + 1 * (y 0).val = (y 0).val; omega
  | ⟨1, _⟩ => show win0_12.index t (1 : Fin 2) * 256 + 1 * (y 1).val = (y 1).val; omega

theorem whole0_13 (t : Fin cfg0.N) : iblk0 V c 13 t = V c main_v10 := by
  obtain ⟨e0, e1⟩ := idx0_13 t
  funext y
  unfold iblk0
  rw [View.read_apply]
  show V c main_v10 _ = V c main_v10 y
  congr 1
  funext a
  apply Fin.ext
  match a with
  | ⟨0, _⟩ => show win0_13.index t (0 : Fin 2) * 256 + 1 * (y 0).val = (y 0).val; omega
  | ⟨1, _⟩ => show win0_13.index t (1 : Fin 2) * 1024 + 1 * (y 1).val = (y 1).val; omega

theorem whole0_14 (t : Fin cfg0.N) : iblk0 V c 14 t = V c main_arg32 := by
  obtain ⟨e0, e1⟩ := idx0_14 t
  funext y
  unfold iblk0
  rw [View.read_apply]
  show V c main_arg32 _ = V c main_arg32 y
  congr 1
  funext a
  apply Fin.ext
  match a with
  | ⟨0, _⟩ => show win0_14.index t (0 : Fin 2) * 1 + 1 * (y 0).val = (y 0).val; omega
  | ⟨1, _⟩ => show win0_14.index t (1 : Fin 2) * 1024 + 1 * (y 1).val = (y 1).val; omega

theorem whole0_15 (t : Fin cfg0.N) : iblk0 V c 15 t = V c main_v11 := by
  obtain ⟨e0, e1⟩ := idx0_15 t
  funext y
  unfold iblk0
  rw [View.read_apply]
  show V c main_v11 _ = V c main_v11 y
  congr 1
  funext a
  apply Fin.ext
  match a with
  | ⟨0, _⟩ => show win0_15.index t (0 : Fin 2) * 1024 + 1 * (y 0).val = (y 0).val; omega
  | ⟨1, _⟩ => show win0_15.index t (1 : Fin 2) * 256 + 1 * (y 1).val = (y 1).val; omega

theorem whole0_16 (t : Fin cfg0.N) : iblk0 V c 16 t = V c main_arg8 := by
  obtain ⟨e0, e1⟩ := idx0_16 t
  funext y
  unfold iblk0
  rw [View.read_apply]
  show V c main_arg8 _ = V c main_arg8 y
  congr 1
  funext a
  apply Fin.ext
  match a with
  | ⟨0, _⟩ => show win0_16.index t (0 : Fin 2) * 1 + 1 * (y 0).val = (y 0).val; omega
  | ⟨1, _⟩ => show win0_16.index t (1 : Fin 2) * 256 + 1 * (y 1).val = (y 1).val; omega

/-- The patch row that row `j` of point `t`'s block is. -/
def rowAt (t : Fin cfg0.N) (j : Fin 512) : Fin 8192 := ⟨t.val * 512 + j.val, by have := tlt t; have := j.isLt; omega⟩

theorem rows0 (t : Fin cfg0.N) : RowsOf (rowAt t) (iblk0 V c 0 t) (V c main_v3) := by
  obtain ⟨e0, e1⟩ := idx0_0 t
  intro j k
  unfold iblk0
  rw [View.read_apply]
  show V c main_v3 _ = V c main_v3 _
  congr 1
  funext a
  apply Fin.ext
  match a with
  | ⟨0, _⟩ => show win0_0.index t (0 : Fin 2) * 512 + 1 * j.val = t.val * 512 + j.val; omega
  | ⟨1, _⟩ => show win0_0.index t (1 : Fin 2) * 768 + 1 * k.val = k.val; omega

end Blocks

/-- The body's weights at any point are the specification's local weights. -/
theorem weights_eq (t : Fin cfg0.N) :
    weights (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) = (paramsAt m c).lw := by
  rw [whole0_1 c (V1 m ρ) t, entry1 m ρ c, whole0_2 c (V1 m ρ) t, entry2 m ρ c, whole0_3 c (V1 m ρ) t, entry3 m ρ c, whole0_4 c (V1 m ρ) t, entry4 m ρ c, whole0_5 c (V1 m ρ) t, entry5 m ρ c, whole0_6 c (V1 m ρ) t, entry6 m ρ c, whole0_7 c (V1 m ρ) t, entry7 m ρ c, whole0_8 c (V1 m ρ) t, entry8 m ρ c, whole0_9 c (V1 m ρ) t, entry9 m ρ c, whole0_10 c (V1 m ρ) t, entry10 m ρ c, whole0_11 c (V1 m ρ) t, entry11 m ρ c, whole0_12 c (V1 m ρ) t, entry12 m ρ c, whole0_13 c (V1 m ρ) t, entry13 m ρ c, whole0_14 c (V1 m ρ) t, entry14 m ρ c, whole0_15 c (V1 m ρ) t, entry15 m ρ c, whole0_16 c (V1 m ρ) t, entry16 m ρ c]
  rfl

end Cert.ReferenceIdeal.Reg0

end
-- ==== Proof.RReg0.lean ====
/-
  Region 0 of the reference, the whole grid: what its two output arrays hold when the region ends.

  Point `t` writes rows `512·t … 512·t + 511` of the local output and rows `16·t … 16·t + 15` of the partial pooled
  sums. Every layer acts row by row, so what point `t` writes is block `t` of ONE function of the argument arrays: the
  specification's local output, resp. its partial pooled sums. The blocks tile the two arrays, so the arrays end holding
  those functions.
-/
import proofs.«104311_g2000204771767084_pallasbulk_517_4_alg».proof.Proof.RIn0

set_option maxRecDepth 16384

noncomputable section

open scoped BigOperators

namespace Cert.ReferenceIdeal.Reg0

open Idealize.ShloMosaic Idealize.ShloMosaic.TcCoe Idealize.ShloMosaic.ValueIdx Idealize.ShloMosaic.Pipeline Idealize.SL.Sem
open Cert.ReferenceIdeal Cert.ReferenceIdeal.Gen Cert.Linear Cert.Enc Cert.ReferenceIdeal.Body0

variable (m : (ℓ : Loc nD τ sig) → Buf (Elt Ideal) ℓ) (ρ : Dev nD → PrngReg) (c : Dev nD)

/-! ## What each point writes back: its block of ONE function of the arguments -/

/-- Row `j` of point `t`'s block of the local output is the local branch of the patch row `512·t + j`. -/
theorem local_point (W : LocalW) (X : Arr 8192 768) (σ : Fin 512 → Fin 8192) (x0 : Arr 512 768) (x1 : Arr 768 1024) (x2 : Arr 1 1024) (x3 : Arr 1024 256) (x4 : Arr 1 256) (x5 : Arr 256 256) (x6 : Arr 1 256) (x7 : Arr 256 1024) (x8 : Arr 1 1024) (x9 : Arr 1024 256) (x10 : Arr 1 256) (x11 : Arr 256 256) (x12 : Arr 1 256) (x13 : Arr 256 1024) (x14 : Arr 1 1024) (x15 : Arr 1024 256) (x16 : Arr 1 256)
    (hW : weights x1 x2 x3 x4 x5 x6 x7 x8 x9 x10 x11 x12 x13 x14 x15 x16 = W) (h : RowsOf σ x0 X) (y : S512x256.Idx) :
    out0_17 (F := Ideal) x0 x1 x2 x3 x4 x5 x6 x7 x8 x9 x10 x11 x12 x13 x14 x15 x16 y = localTail W (stem W X) (ix2 (n0 := 8192) (n1 := 256) (σ (y 0)) (y 1)) := by
  rw [out0_17_eq, hW, ← (h.stem W).localTail W (y 0) (y 1)]
  exact congrArg _ (eq_ix2 y)

/-- Row `u` of point `t`'s block of partial sums is the sum of the 32 embedded rows `512·t + u/8·256 + 8q + u%8`. -/
theorem pool_point (W : LocalW) (X : Arr 8192 768) (σ : Fin 512 → Fin 8192) (x0 : Arr 512 768) (x1 : Arr 768 1024) (x2 : Arr 1 1024) (x3 : Arr 1024 256) (x4 : Arr 1 256) (x5 : Arr 256 256) (x6 : Arr 1 256) (x7 : Arr 256 1024) (x8 : Arr 1 1024) (x9 : Arr 1024 256) (x10 : Arr 1 256) (x11 : Arr 256 256) (x12 : Arr 1 256) (x13 : Arr 256 1024) (x14 : Arr 1 1024) (x15 : Arr 1024 256) (x16 : Arr 1 256)
    (hW : weights x1 x2 x3 x4 x5 x6 x7 x8 x9 x10 x11 x12 x13 x14 x15 x16 = W) (h : RowsOf σ x0 X) (y : S16x1024.Idx) :
    out0_18 (F := Ideal) x0 x1 x2 x3 x4 x5 x6 x7 x8 x9 x10 x11 x12 x13 x14 x15 x16 y
      = ∑ q : Fin 32, stem W X (ix2 (n0 := 8192) (n1 := 1024)
          (σ ⟨(y 0).val / 8 * 256 + q.val * 8 + (y 0).val % 8, by have h0 : (y 0).val < 16 := (y 0).isLt; have := q.isLt; omega⟩) (y 1)) := by
  rw [out0_18_eq, hW]
  refine (congrArg _ (eq_ix2 y)).trans ((pool_block_apply (stem W x0) (y 0) (y 1)).trans ?_)
  exact Finset.sum_congr rfl fun q _ => (h.stem W) _ _

theorem read17 (G : Arr 8192 256) (t : Fin cfg0.N) (y : S512x256.Idx) :
    ((cfg0.win 17).blk t).view.read (Elt Ideal) G y = G (ix2 (n0 := 8192) (n1 := 256) (rowAt t (y 0)) (y 1)) := by
  obtain ⟨e0, e1⟩ := idx0_17 t
  rw [View.read_apply]
  show G _ = G _
  congr 1
  funext a
  apply Fin.ext
  match a with
  | ⟨0, _⟩ => show win0_17.index t (0 : Fin 2) * 512 + 1 * (y 0).val = t.val * 512 + (y 0).val; omega
  | ⟨1, _⟩ => show win0_17.index t (1 : Fin 2) * 256 + 1 * (y 1).val = (y 1).val; omega

theorem read18 (G : Arr 256 1024) (t : Fin cfg0.N) (y : S16x1024.Idx) :
    ((cfg0.win 18).blk t).view.read (Elt Ideal) G y
      = G (ix2 (n0 := 256) (n1 := 1024) ⟨t.val * 16 + (y 0).val, by have := tlt t; have h0 : (y 0).val < 16 := (y 0).isLt; omega⟩ (y 1)) := by
  obtain ⟨e0, e1⟩ := idx0_18 t
  rw [View.read_apply]
  show G _ = G _
  congr 1
  funext a
  apply Fin.ext
  match a with
  | ⟨0, _⟩ => show win0_18.index t (0 : Fin 2) * 16 + 1 * (y 0).val = t.val * 16 + (y 0).val; omega
  | ⟨1, _⟩ => show win0_18.index t (1 : Fin 2) * 1024 + 1 * (y 1).val = (y 1).val; omega

/-- Point `t` writes back block `t` of the specification's local output. -/
theorem flushed17_eq (t : Fin cfg0.N) :
    (dat0 (V1 m ρ) c).flushed 17 t = ((cfg0.win 17).blk t).view.read (Elt Ideal) (localOut (paramsAt m c)) := by
  show (cfg0.win 17).cut (grid0.coords t) ((dat0 (V1 m ρ) c).after 17 t) = _
  rw [after0_17]
  funext y
  rw [read17]
  show out0_17 (F := Ideal) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) y = _
  refine (local_point (paramsAt m c).lw (patches (m ((c : Thread nD τ).loc main_arg0))) (rowAt t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t)
    (weights_eq m ρ c t) ?_ y).trans rfl
  rw [← entry0 m ρ c]
  exact rows0 c (V1 m ρ) t

/-- Point `t` writes back block `t` of the specification's partial pooled sums. -/
theorem flushed18_eq (t : Fin cfg0.N) :
    (dat0 (V1 m ρ) c).flushed 18 t = ((cfg0.win 18).blk t).view.read (Elt Ideal) (poolPart (paramsAt m c)) := by
  show (cfg0.win 18).cut (grid0.coords t) ((dat0 (V1 m ρ) c).after 18 t) = _
  rw [after0_18]
  funext y
  rw [read18]
  show out0_18 (F := Ideal) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) y = _
  refine (pool_point (paramsAt m c).lw (patches (m ((c : Thread nD τ).loc main_arg0))) (rowAt t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t)
    (weights_eq m ρ c t) ?_ y).trans ?_
  · rw [← entry0 m ρ c]
    exact rows0 c (V1 m ρ) t
  · have ht := tlt t
    have h0 : (y 0).val < 16 := (y 0).isLt
    refine Finset.sum_congr rfl fun q _ => ?_
    have hq := q.isLt
    show embedded (paramsAt m c) _ = embedded (paramsAt m c) _
    congr 1
    funext a
    apply Fin.ext
    match a with
    | ⟨0, _⟩ => show t.val * 512 + ((y 0).val / 8 * 256 + q.val * 8 + (y 0).val % 8) = (t.val * 16 + (y 0).val) / 8 * 256 + q.val * 8 + (t.val * 16 + (y 0).val) % 8; omega
    | ⟨1, _⟩ => rfl

/-! ## The blocks tile the arrays -/

theorem mem_blk17 (t : Fin cfg0.N) (i : S8192x256.Idx) :
    i ∈ ((cfg0.win 17).blk t).view.set ↔ ∀ a : Fin 2, win0_17.index t a * S512x256.size a ≤ (i a).val ∧ (i a).val < win0_17.index t a * S512x256.size a + S512x256.size a := by
  show i ∈ ((View.whole main_v12_0).slice (win0_17.rect t)).set ↔ _
  rw [View.set_slice_whole, Rect.mem_set_unit]
  exact Iff.rfl

theorem mem_blk18 (t : Fin cfg0.N) (i : S256x1024.Idx) :
    i ∈ ((cfg0.win 18).blk t).view.set ↔ ∀ a : Fin 2, win0_18.index t a * S16x1024.size a ≤ (i a).val ∧ (i a).val < win0_18.index t a * S16x1024.size a + S16x1024.size a := by
  show i ∈ ((View.whole main_v12_1).slice (win0_18.rect t)).set ↔ _
  rw [View.set_slice_whole, Rect.mem_set_unit]
  exact Iff.rfl

/-- Row `r` of the local output is in the block of point `r / 512`. -/
theorem cover17 (i : S8192x256.Idx) : ∃ t : Fin cfg0.N, (cfg0.win 17).flush t = true ∧ i ∈ ((cfg0.win 17).blk t).view.set := by
  have h0 : (i 0).val < 8192 := (i 0).isLt
  have h1 : (i 1).val < 256 := (i 1).isLt
  obtain ⟨t, ht⟩ : ∃ t : Fin cfg0.N, t.val = (i 0).val / 512 := ⟨⟨(i 0).val / 512, by rw [show cfg0.N = 16 from N_0]; omega⟩, rfl⟩
  obtain ⟨e0, e1⟩ := idx0_17 t
  refine ⟨t, flush0_17 t, ?_⟩
  rw [mem_blk17]
  intro a
  match a with
  | ⟨0, _⟩ => show win0_17.index t (0 : Fin 2) * 512 ≤ (i 0).val ∧ (i 0).val < win0_17.index t (0 : Fin 2) * 512 + 512; omega
  | ⟨1, _⟩ => show win0_17.index t (1 : Fin 2) * 256 ≤ (i 1).val ∧ (i 1).val < win0_17.index t (1 : Fin 2) * 256 + 256; omega

/-- Row `r` of the partial sums is in the block of point `r / 16`. -/
theorem cover18 (i : S256x1024.Idx) : ∃ t : Fin cfg0.N, (cfg0.win 18).flush t = true ∧ i ∈ ((cfg0.win 18).blk t).view.set := by
  have h0 : (i 0).val < 256 := (i 0).isLt
  have h1 : (i 1).val < 1024 := (i 1).isLt
  obtain ⟨t, ht⟩ : ∃ t : Fin cfg0.N, t.val = (i 0).val / 16 := ⟨⟨(i 0).val / 16, by rw [show cfg0.N = 16 from N_0]; omega⟩, rfl⟩
  obtain ⟨e0, e1⟩ := idx0_18 t
  refine ⟨t, flush0_18 t, ?_⟩
  rw [mem_blk18]
  intro a
  match a with
  | ⟨0, _⟩ => show win0_18.index t (0 : Fin 2) * 16 ≤ (i 0).val ∧ (i 0).val < win0_18.index t (0 : Fin 2) * 16 + 16; omega
  | ⟨1, _⟩ => show win0_18.index t (1 : Fin 2) * 1024 ≤ (i 1).val ∧ (i 1).val < win0_18.index t (1 : Fin 2) * 1024 + 1024; omega

/-! ## The two output arrays when the region ends -/

/-- The local output array ends holding the specification's local output. -/
theorem final17 : (dat0 (V1 m ρ) c).arrAt 17 cfg0.N = localOut (paramsAt m c) :=
  (dat0 (V1 m ρ) c).arrAt_eq_of_cover 17 (localOut (paramsAt m c)) (fun t _ => flushed17_eq m ρ c t) cover17

/-- The partial sums array ends holding the specification's partial pooled sums. -/
theorem final18 : (dat0 (V1 m ρ) c).arrAt 18 cfg0.N = poolPart (paramsAt m c) :=
  (dat0 (V1 m ρ) c).arrAt_eq_of_cover 18 (poolPart (paramsAt m c)) (fun t _ => flushed18_eq m ρ c t) cover18

end Cert.ReferenceIdeal.Reg0

end
-- ==== Proof.RBody1.lean ====
/-
  Region 1 of the reference, its one grid point: what the body leaves in its output block, as mathematics.

  The body reads the 256 rows of partial pooled sums (8 per image), adds the 8 partial sums of each image and multiplies
  by the reciprocal of the token count (the pooled rows, one per image), and sends them through the head, two residual
  bottlenecks and the last dense layer: the global branch of the pooled rows.
-/
import proofs.«104311_g2000204771767084_pallasbulk_517_4_alg».proof.Proof.Spec
import proofs.«104311_g2000204771767084_pallasbulk_517_4_alg».proof.Proof.Whole
import proofs.«104311_g2000204771767084_pallasbulk_517_4_alg».proof.Proof.LibDotLists
import proofs.«104311_g2000204771767084_pallasbulk_517_4_alg».proof.Proof.Gen.ReferenceIdeal.Frame

set_option maxRecDepth 16384

noncomputable section

open scoped BigOperators

namespace Cert.ReferenceIdeal.Body1

open Idealize.ShloMosaic Idealize.ShloMosaic.ValueIdx Idealize.ShloMosaic.Pipeline
open Cert.ReferenceIdeal Cert.ReferenceIdeal.Gen Cert.Linear Cert.Enc

theorem hz2 : (![0, 0] : Fin 2 → Nat) = fun _ => 0 := funext fun a => by fin_cases a <;> rfl

theorem c_head : Contracts dot_S32x1024_S1024x2048_S32x2048_1_0_0_1_n_n := contracts_of_lists _ rfl rfl rfl rfl rfl rfl
theorem c_down : Contracts dot_S32x2048_S2048x512_S32x512_1_0_0_1_n_n := contracts_of_lists _ rfl rfl rfl rfl rfl rfl
theorem c_mid : Contracts dot_S32x512_S512x512_S32x512_1_0_0_1_n_n := contracts_of_lists _ rfl rfl rfl rfl rfl rfl
theorem c_up : Contracts dot_S32x512_S512x2048_S32x2048_1_0_0_1_n_n := contracts_of_lists _ rfl rfl rfl rfl rfl rfl
theorem c_last : Contracts dot_S32x2048_S2048x256_S32x256_1_0_0_1_n_n := contracts_of_lists _ rfl rfl rfl rfl rfl rfl

/-- The global branch's weights, from the body's sixteen weight blocks in the order it loads them. -/
def weights (x1 : Vec Ideal S1024x2048 .bf16) (x2 : Vec Ideal S1x2048 .f32) (x3 : Vec Ideal S2048x512 .bf16) (x4 : Vec Ideal S1x512 .f32) (x5 : Vec Ideal S512x512 .bf16) (x6 : Vec Ideal S1x512 .f32) (x7 : Vec Ideal S512x2048 .bf16) (x8 : Vec Ideal S1x2048 .f32) (x9 : Vec Ideal S2048x512 .bf16) (x10 : Vec Ideal S1x512 .f32) (x11 : Vec Ideal S512x512 .bf16) (x12 : Vec Ideal S1x512 .f32) (x13 : Vec Ideal S512x2048 .bf16) (x14 : Vec Ideal S1x2048 .f32) (x15 : Vec Ideal S2048x256 .bf16) (x16 : Vec Ideal S1x256 .f32) : GlobalW :=
  ⟨x1, x2, ⟨x3, x4, x5, x6, x7, x8⟩, ⟨x9, x10, x11, x12, x13, x14⟩, x15, x16⟩

/-- The body's pooling: the partial sums viewed as 32 images × 8 partial sums, added per image, times the word of 1/256. -/
def poolOps (x0 : Vec Ideal S256x1024 .f32) : Arr 32 1024 :=
  mulf (F := Ideal) (multiReduction (F := Ideal) .add [1] S32x1024 (shapeCast S32x8x1024 x0 shapeCasts_S256x1024_S32x8x1024)
      0x00000000#32 reduces_S32x8x1024_S32x1024 (.inl rfl) rfl)
    (broadcast S32x1024 (FloatOps.ofBits (F := Ideal) .f32 0x3B800000#32))

/-- The output block: the global branch of the pooled rows. -/
theorem out1_17_eq (x0 : Vec Ideal S256x1024 .f32) (x1 : Vec Ideal S1024x2048 .bf16) (x2 : Vec Ideal S1x2048 .f32) (x3 : Vec Ideal S2048x512 .bf16) (x4 : Vec Ideal S1x512 .f32) (x5 : Vec Ideal S512x512 .bf16) (x6 : Vec Ideal S1x512 .f32) (x7 : Vec Ideal S512x2048 .bf16) (x8 : Vec Ideal S1x2048 .f32) (x9 : Vec Ideal S2048x512 .bf16) (x10 : Vec Ideal S1x512 .f32) (x11 : Vec Ideal S512x512 .bf16) (x12 : Vec Ideal S1x512 .f32) (x13 : Vec Ideal S512x2048 .bf16) (x14 : Vec Ideal S1x2048 .f32) (x15 : Vec Ideal S2048x256 .bf16) (x16 : Vec Ideal S1x256 .f32) :
    out1_17 (F := Ideal) x0 x1 x2 x3 x4 x5 x6 x7 x8 x9 x10 x11 x12 x13 x14 x15 x16 = globalOf (weights x1 x2 x3 x4 x5 x6 x7 x8 x9 x10 x11 x12 x13 x14 x15 x16) (poolOps x0) := by
  unfold out1_17
  rw [View.canon_unit_zero hz2]
  simp only [View.ld_unit_zero (S := S256x1024) hz2, View.ld_unit_zero (S := S1024x2048) hz2, View.ld_unit_zero (S := S1x2048) hz2, View.ld_unit_zero (S := S2048x512) hz2, View.ld_unit_zero (S := S1x512) hz2, View.ld_unit_zero (S := S512x512) hz2, View.ld_unit_zero (S := S512x2048) hz2, View.ld_unit_zero (S := S2048x256) hz2, View.ld_unit_zero (S := S1x256) hz2]
  unfold k1_pay4 k1_pay2 k1_pay3 k1_pay1
  simp only [shapeCast_self, truncf_eq, lin_of_ops c_head, lin_of_ops c_down, lin_of_ops c_mid, lin_of_ops c_up, lin_of_ops c_last, relu_of_ops]
  rfl

/-- The pooled row of image `b` at column `k`: its 8 partial sums added, times the reciprocal of the token count. -/
theorem poolOps_apply (f : Arr 256 1024) (b : Fin 32) (k : Fin 1024) :
    poolOps f (ix2 b k)
      = (∑ s : Fin 8, f (ix2 (n0 := 256) (n1 := 1024) ⟨b.val * 8 + s.val, by have := b.isLt; have := s.isLt; omega⟩ k)) * invTokens := by
  show multiReduction (F := Ideal) .add [1] S32x1024 (shapeCast S32x8x1024 f shapeCasts_S256x1024_S32x8x1024)
      0x00000000#32 reduces_S32x8x1024_S32x1024 (.inl rfl) rfl (ix2 b k) * invTokens = _
  congr 1
  refine (Ideal.multiReduction_add_single _ _ _ _ _ _).trans ?_
  refine Finset.sum_congr rfl fun s _ => ?_
  refine shapeCast_apply f shapeCasts_S256x1024_S32x8x1024 _ _ ?_
  rw [Shape.rowMajor_val_two, Shape.rowMajor_val_three]
  rfl

/-- The body's pooling of the specification's partial sums is the specification's pooled rows. -/
theorem poolOps_poolPart (P : Params) : poolOps (poolPart P) = pooled P := by
  funext i
  obtain ⟨b, k, rfl⟩ : ∃ (b : Fin 32) (k : Fin 1024), i = ix2 b k := ⟨i 0, i 1, eq_ix2 i⟩
  rw [poolOps_apply]
  rfl

end Cert.ReferenceIdeal.Body1

end
-- ==== Proof.RIn1.lean ====
/-
  Region 1 of the reference: what its one grid point reads.

  Between the two regions the host only changes the format of eight weight arguments (the identity on the extended
  reals), and region 0 wrote nothing but its two output arrays. So when region 1 starts, its window 0 holds the partial
  pooled sums region 0 left, and windows 1 … 16 hold the global branch's weight arguments as launched. Every window's block
  is its whole array: the body's weights are the specification's global weights.
-/
import proofs.«104311_g2000204771767084_pallasbulk_517_4_alg».proof.Proof.RReg0
import proofs.«104311_g2000204771767084_pallasbulk_517_4_alg».proof.Proof.RBody1

set_option maxRecDepth 16384

noncomputable section

open scoped BigOperators

namespace Cert.ReferenceIdeal.Reg1

open Idealize.ShloMosaic Idealize.ShloMosaic.TcCoe Idealize.ShloMosaic.ValueIdx Idealize.ShloMosaic.Pipeline Idealize.SL.Sem
open Cert.ReferenceIdeal Cert.ReferenceIdeal.Gen Cert.Linear Cert.Enc Cert.ReferenceIdeal.Reg0 Cert.ReferenceIdeal.Body1

variable (m : (ℓ : Loc nD τ sig) → Buf (Elt Ideal) ℓ) (ρ : Dev nD → PrngReg) (c : Dev nD)

/-! ## The weight arguments when region 0 ends: as launched (no host operation and no window of region 0 writes one) -/

theorem kept3 : (W2 m ρ c (Proc.devRef .tc main_arg3) : S1024x2048.Idx → EReal) = (m ((c : Thread nD τ).loc main_arg3)) := by
  refine (W2_of_ne m ρ c main_arg3 (by decide)).trans ?_
  dsimp only [W1, hostOps0]
  after_results

theorem kept4 : (W2 m ρ c (Proc.devRef .tc main_arg4) : S1x2048.Idx → EReal) = (m ((c : Thread nD τ).loc main_arg4)) := by
  refine (W2_of_ne m ρ c main_arg4 (by decide)).trans ?_
  dsimp only [W1, hostOps0]
  after_results

theorem kept9 : (W2 m ρ c (Proc.devRef .tc main_arg9) : S2048x512.Idx → EReal) = (m ((c : Thread nD τ).loc main_arg9)) := by
  refine (W2_of_ne m ρ c main_arg9 (by decide)).trans ?_
  dsimp only [W1, hostOps0]
  after_results

theorem kept10 : (W2 m ρ c (Proc.devRef .tc main_arg10) : S1x512.Idx → EReal) = (m ((c : Thread nD τ).loc main_arg10)) := by
  refine (W2_of_ne m ρ c main_arg10 (by decide)).trans ?_
  dsimp only [W1, hostOps0]
  after_results

theorem kept11 : (W2 m ρ c (Proc.devRef .tc main_arg11) : S512x512.Idx → EReal) = (m ((c : Thread nD τ).loc main_arg11)) := by
  refine (W2_of_ne m ρ c main_arg11 (by decide)).trans ?_
  dsimp only [W1, hostOps0]
  after_results

theorem kept12 : (W2 m ρ c (Proc.devRef .tc main_arg12) : S1x512.Idx → EReal) = (m ((c : Thread nD τ).loc main_arg12)) := by
  refine (W2_of_ne m ρ c main_arg12 (by decide)).trans ?_
  dsimp only [W1, hostOps0]
  after_results

theorem kept13 : (W2 m ρ c (Proc.devRef .tc main_arg13) : S512x2048.Idx → EReal) = (m ((c : Thread nD τ).loc main_arg13)) := by
  refine (W2_of_ne m ρ c main_arg13 (by decide)).trans ?_
  dsimp only [W1, hostOps0]
  after_results

theorem kept14 : (W2 m ρ c (Proc.devRef .tc main_arg14) : S1x2048.Idx → EReal) = (m ((c : Thread nD τ).loc main_arg14)) := by
  refine (W2_of_ne m ρ c main_arg14 (by decide)).trans ?_
  dsimp only [W1, hostOps0]
  after_results

theorem kept15 : (W2 m ρ c (Proc.devRef .tc main_arg15) : S2048x512.Idx → EReal) = (m ((c : Thread nD τ).loc main_arg15)) := by
  refine (W2_of_ne m ρ c main_arg15 (by decide)).trans ?_
  dsimp only [W1, hostOps0]
  after_results

theorem kept16 : (W2 m ρ c (Proc.devRef .tc main_arg16) : S1x512.Idx → EReal) = (m ((c : Thread nD τ).loc main_arg16)) := by
  refine (W2_of_ne m ρ c main_arg16 (by decide)).trans ?_
  dsimp only [W1, hostOps0]
  after_results

theorem kept17 : (W2 m ρ c (Proc.devRef .tc main_arg17) : S512x512.Idx → EReal) = (m ((c : Thread nD τ).loc main_arg17)) := by
  refine (W2_of_ne m ρ c main_arg17 (by decide)).trans ?_
  dsimp only [W1, hostOps0]
  after_results

theorem kept18 : (W2 m ρ c (Proc.devRef .tc main_arg18) : S1x512.Idx → EReal) = (m ((c : Thread nD τ).loc main_arg18)) := by
  refine (W2_of_ne m ρ c main_arg18 (by decide)).trans ?_
  dsimp only [W1, hostOps0]
  after_results

theorem kept19 : (W2 m ρ c (Proc.devRef .tc main_arg19) : S512x2048.Idx → EReal) = (m ((c : Thread nD τ).loc main_arg19)) := by
  refine (W2_of_ne m ρ c main_arg19 (by decide)).trans ?_
  dsimp only [W1, hostOps0]
  after_results

theorem kept20 : (W2 m ρ c (Proc.devRef .tc main_arg20) : S1x2048.Idx → EReal) = (m ((c : Thread nD τ).loc main_arg20)) := by
  refine (W2_of_ne m ρ c main_arg20 (by decide)).trans ?_
  dsimp only [W1, hostOps0]
  after_results

theorem kept5 : (W2 m ρ c (Proc.devRef .tc main_arg5) : S2048x256.Idx → EReal) = (m ((c : Thread nD τ).loc main_arg5)) := by
  refine (W2_of_ne m ρ c main_arg5 (by decide)).trans ?_
  dsimp only [W1, hostOps0]
  after_results

theorem kept6 : (W2 m ρ c (Proc.devRef .tc main_arg6) : S1x256.Idx → EReal) = (m ((c : Thread nD τ).loc main_arg6)) := by
  refine (W2_of_ne m ρ c main_arg6 (by decide)).trans ?_
  dsimp only [W1, hostOps0]
  after_results

/-! ## What region 1's input arrays hold when it starts -/

/-- Window 0's array: the partial pooled sums region 0 left. -/
theorem entry0 : (V3 m ρ c main_v12_1 : S256x1024.Idx → EReal) = poolPart (paramsAt m c) := by
  dsimp only [V3, W3, hostOps1]
  after_results
  exact (W2_arr m ρ c 18).trans (final18 m ρ c)

theorem entry1 : (V3 m ρ c main_v13 : S1024x2048.Idx → EReal) = (m ((c : Thread nD τ).loc main_arg3)) := by
  dsimp only [V3, W3, hostOps1]
  after_results
  exact kept3 m ρ c

theorem entry2 : (V3 m ρ c main_arg4 : S1x2048.Idx → EReal) = (m ((c : Thread nD τ).loc main_arg4)) := by
  dsimp only [V3, W3, hostOps1]
  after_results
  exact kept4 m ρ c

theorem entry3 : (V3 m ρ c main_v14 : S2048x512.Idx → EReal) = (m ((c : Thread nD τ).loc main_arg9)) := by
  dsimp only [V3, W3, hostOps1]
  after_results
  exact kept9 m ρ c

theorem entry4 : (V3 m ρ c main_arg10 : S1x512.Idx → EReal) = (m ((c : Thread nD τ).loc main_arg10)) := by
  dsimp only [V3, W3, hostOps1]
  after_results
  exact kept10 m ρ c

theorem entry5 : (V3 m ρ c main_v15 : S512x512.Idx → EReal) = (m ((c : Thread nD τ).loc main_arg11)) := by
  dsimp only [V3, W3, hostOps1]
  after_results
  exact kept11 m ρ c

theorem entry6 : (V3 m ρ c main_arg12 : S1x512.Idx → EReal) = (m ((c : Thread nD τ).loc main_arg12)) := by
  dsimp only [V3, W3, hostOps1]
  after_results
  exact kept12 m ρ c

theorem entry7 : (V3 m ρ c main_v16 : S512x2048.Idx → EReal) = (m ((c : Thread nD τ).loc main_arg13)) := by
  dsimp only [V3, W3, hostOps1]
  after_results
  exact kept13 m ρ c

theorem entry8 : (V3 m ρ c main_arg14 : S1x2048.Idx → EReal) = (m ((c : Thread nD τ).loc main_arg14)) := by
  dsimp only [V3, W3, hostOps1]
  after_results
  exact kept14 m ρ c

theorem entry9 : (V3 m ρ c main_v17 : S2048x512.Idx → EReal) = (m ((c : Thread nD τ).loc main_arg15)) := by
  dsimp only [V3, W3, hostOps1]
  after_results
  exact kept15 m ρ c

theorem entry10 : (V3 m ρ c main_arg16 : S1x512.Idx → EReal) = (m ((c : Thread nD τ).loc main_arg16)) := by
  dsimp only [V3, W3, hostOps1]
  after_results
  exact kept16 m ρ c

theorem entry11 : (V3 m ρ c main_v18 : S512x512.Idx → EReal) = (m ((c : Thread nD τ).loc main_arg17)) := by
  dsimp only [V3, W3, hostOps1]
  after_results
  exact kept17 m ρ c

theorem entry12 : (V3 m ρ c main_arg18 : S1x512.Idx → EReal) = (m ((c : Thread nD τ).loc main_arg18)) := by
  dsimp only [V3, W3, hostOps1]
  after_results
  exact kept18 m ρ c

theorem entry13 : (V3 m ρ c main_v19 : S512x2048.Idx → EReal) = (m ((c : Thread nD τ).loc main_arg19)) := by
  dsimp only [V3, W3, hostOps1]
  after_results
  exact kept19 m ρ c

theorem entry14 : (V3 m ρ c main_arg20 : S1x2048.Idx → EReal) = (m ((c : Thread nD τ).loc main_arg20)) := by
  dsimp only [V3, W3, hostOps1]
  after_results
  exact kept20 m ρ c

theorem entry15 : (V3 m ρ c main_v20 : S2048x256.Idx → EReal) = (m ((c : Thread nD τ).loc main_arg5)) := by
  dsimp only [V3, W3, hostOps1]
  after_results
  exact kept5 m ρ c

theorem entry16 : (V3 m ρ c main_arg6 : S1x256.Idx → EReal) = (m ((c : Thread nD τ).loc main_arg6)) := by
  dsimp only [V3, W3, hostOps1]
  after_results
  exact kept6 m ρ c

/-! ## Every window's block is its whole array -/

theorem idx1_0 : ∀ t : Fin grid1.N, win1_0.index t (0 : Fin 2) = 0 ∧ win1_0.index t (1 : Fin 2) = 0 :=
  (by decide +kernel : ∀ t : Fin grid1.N, _)
theorem idx1_1 : ∀ t : Fin grid1.N, win1_1.index t (0 : Fin 2) = 0 ∧ win1_1.index t (1 : Fin 2) = 0 :=
  (by decide +kernel : ∀ t : Fin grid1.N, _)
theorem idx1_2 : ∀ t : Fin grid1.N, win1_2.index t (0 : Fin 2) = 0 ∧ win1_2.index t (1 : Fin 2) = 0 :=
  (by decide +kernel : ∀ t : Fin grid1.N, _)
theorem idx1_3 : ∀ t : Fin grid1.N, win1_3.index t (0 : Fin 2) = 0 ∧ win1_3.index t (1 : Fin 2) = 0 :=
  (by decide +kernel : ∀ t : Fin grid1.N, _)
theorem idx1_4 : ∀ t : Fin grid1.N, win1_4.index t (0 : Fin 2) = 0 ∧ win1_4.index t (1 : Fin 2) = 0 :=
  (by decide +kernel : ∀ t : Fin grid1.N, _)
theorem idx1_5 : ∀ t : Fin grid1.N, win1_5.index t (0 : Fin 2) = 0 ∧ win1_5.index t (1 : Fin 2) = 0 :=
  (by decide +kernel : ∀ t : Fin grid1.N, _)
theorem idx1_6 : ∀ t : Fin grid1.N, win1_6.index t (0 : Fin 2) = 0 ∧ win1_6.index t (1 : Fin 2) = 0 :=
  (by decide +kernel : ∀ t : Fin grid1.N, _)
theorem idx1_7 : ∀ t : Fin grid1.N, win1_7.index t (0 : Fin 2) = 0 ∧ win1_7.index t (1 : Fin 2) = 0 :=
  (by decide +kernel : ∀ t : Fin grid1.N, _)
theorem idx1_8 : ∀ t : Fin grid1.N, win1_8.index t (0 : Fin 2) = 0 ∧ win1_8.index t (1 : Fin 2) = 0 :=
  (by decide +kernel : ∀ t : Fin grid1.N, _)
theorem idx1_9 : ∀ t : Fin grid1.N, win1_9.index t (0 : Fin 2) = 0 ∧ win1_9.index t (1 : Fin 2) = 0 :=
  (by decide +kernel : ∀ t : Fin grid1.N, _)
theorem idx1_10 : ∀ t : Fin grid1.N, win1_10.index t (0 : Fin 2) = 0 ∧ win1_10.index t (1 : Fin 2) = 0 :=
  (by decide +kernel : ∀ t : Fin grid1.N, _)
theorem idx1_11 : ∀ t : Fin grid1.N, win1_11.index t (0 : Fin 2) = 0 ∧ win1_11.index t (1 : Fin 2) = 0 :=
  (by decide +kernel : ∀ t : Fin grid1.N, _)
theorem idx1_12 : ∀ t : Fin grid1.N, win1_12.index t (0 : Fin 2) = 0 ∧ win1_12.index t (1 : Fin 2) = 0 :=
  (by decide +kernel : ∀ t : Fin grid1.N, _)
theorem idx1_13 : ∀ t : Fin grid1.N, win1_13.index t (0 : Fin 2) = 0 ∧ win1_13.index t (1 : Fin 2) = 0 :=
  (by decide +kernel : ∀ t : Fin grid1.N, _)
theorem idx1_14 : ∀ t : Fin grid1.N, win1_14.index t (0 : Fin 2) = 0 ∧ win1_14.index t (1 : Fin 2) = 0 :=
  (by decide +kernel : ∀ t : Fin grid1.N, _)
theorem idx1_15 : ∀ t : Fin grid1.N, win1_15.index t (0 : Fin 2) = 0 ∧ win1_15.index t (1 : Fin 2) = 0 :=
  (by decide +kernel : ∀ t : Fin grid1.N, _)
theorem idx1_16 : ∀ t : Fin grid1.N, win1_16.index t (0 : Fin 2) = 0 ∧ win1_16.index t (1 : Fin 2) = 0 :=
  (by decide +kernel : ∀ t : Fin grid1.N, _)
theorem idx1_17 : ∀ t : Fin grid1.N, win1_17.index t (0 : Fin 2) = 0 ∧ win1_17.index t (1 : Fin 2) = 0 :=
  (by decide +kernel : ∀ t : Fin grid1.N, _)

section Blocks

variable (V : (c : Dev nD) → (b : Ref sig .tc) → Buf (Elt Ideal) ((c : Thread nD τ).loc b))

theorem whole1_0 (t : Fin cfg1.N) : iblk1 V c 0 t = V c main_v12_1 := by
  obtain ⟨e0, e1⟩ := idx1_0 t
  funext y
  unfold iblk1
  rw [View.read_apply]
  show V c main_v12_1 _ = V c main_v12_1 y
  congr 1
  funext a
  apply Fin.ext
  match a with
  | ⟨0, _⟩ => show win1_0.index t (0 : Fin 2) * 256 + 1 * (y 0).val = (y 0).val; omega
  | ⟨1, _⟩ => show win1_0.index t (1 : Fin 2) * 1024 + 1 * (y 1).val = (y 1).val; omega

theorem whole1_1 (t : Fin cfg1.N) : iblk1 V c 1 t = V c main_v13 := by
  obtain ⟨e0, e1⟩ := idx1_1 t
  funext y
  unfold iblk1
  rw [View.read_apply]
  show V c main_v13 _ = V c main_v13 y
  congr 1
  funext a
  apply Fin.ext
  match a with
  | ⟨0, _⟩ => show win1_1.index t (0 : Fin 2) * 1024 + 1 * (y 0).val = (y 0).val; omega
  | ⟨1, _⟩ => show win1_1.index t (1 : Fin 2) * 2048 + 1 * (y 1).val = (y 1).val; omega

theorem whole1_2 (t : Fin cfg1.N) : iblk1 V c 2 t = V c main_arg4 := by
  obtain ⟨e0, e1⟩ := idx1_2 t
  funext y
  unfold iblk1
  rw [View.read_apply]
  show V c main_arg4 _ = V c main_arg4 y
  congr 1
  funext a
  apply Fin.ext
  match a with
  | ⟨0, _⟩ => show win1_2.index t (0 : Fin 2) * 1 + 1 * (y 0).val = (y 0).val; omega
  | ⟨1, _⟩ => show win1_2.index t (1 : Fin 2) * 2048 + 1 * (y 1).val = (y 1).val; omega

theorem whole1_3 (t : Fin cfg1.N) : iblk1 V c 3 t = V c main_v14 := by
  obtain ⟨e0, e1⟩ := idx1_3 t
  funext y
  unfold iblk1
  rw [View.read_apply]
  show V c main_v14 _ = V c main_v14 y
  congr 1
  funext a
  apply Fin.ext
  match a with
  | ⟨0, _⟩ => show win1_3.index t (0 : Fin 2) * 2048 + 1 * (y 0).val = (y 0).val; omega
  | ⟨1, _⟩ => show win1_3.index t (1 : Fin 2) * 512 + 1 * (y 1).val = (y 1).val; omega

theorem whole1_4 (t : Fin cfg1.N) : iblk1 V c 4 t = V c main_arg10 := by
  obtain ⟨e0, e1⟩ := idx1_4 t
  funext y
  unfold iblk1
  rw [View.read_apply]
  show V c main_arg10 _ = V c main_arg10 y
  congr 1
  funext a
  apply Fin.ext
  match a with
  | ⟨0, _⟩ => show win1_4.index t (0 : Fin 2) * 1 + 1 * (y 0).val = (y 0).val; omega
  | ⟨1, _⟩ => show win1_4.index t (1 : Fin 2) * 512 + 1 * (y 1).val = (y 1).val; omega

theorem whole1_5 (t : Fin cfg1.N) : iblk1 V c 5 t = V c main_v15 := by
  obtain ⟨e0, e1⟩ := idx1_5 t
  funext y
  unfold iblk1
  rw [View.read_apply]
  show V c main_v15 _ = V c main_v15 y
  congr 1
  funext a
  apply Fin.ext
  match a with
  | ⟨0, _⟩ => show win1_5.index t (0 : Fin 2) * 512 + 1 * (y 0).val = (y 0).val; omega
  | ⟨1, _⟩ => show win1_5.index t (1 : Fin 2) * 512 + 1 * (y 1).val = (y 1).val; omega

theorem whole1_6 (t : Fin cfg1.N) : iblk1 V c 6 t = V c main_arg12 := by
  obtain ⟨e0, e1⟩ := idx1_6 t
  funext y
  unfold iblk1
  rw [View.read_apply]
  show V c main_arg12 _ = V c main_arg12 y
  congr 1
  funext a
  apply Fin.ext
  match a with
  | ⟨0, _⟩ => show win1_6.index t (0 : Fin 2) * 1 + 1 * (y 0).val = (y 0).val; omega
  | ⟨1, _⟩ => show win1_6.index t (1 : Fin 2) * 512 + 1 * (y 1).val = (y 1).val; omega

theorem whole1_7 (t : Fin cfg1.N) : iblk1 V c 7 t = V c main_v16 := by
  obtain ⟨e0, e1⟩ := idx1_7 t
  funext y
  unfold iblk1
  rw [View.read_apply]
  show V c main_v16 _ = V c main_v16 y
  congr 1
  funext a
  apply Fin.ext
  match a with
  | ⟨0, _⟩ => show win1_7.index t (0 : Fin 2) * 512 + 1 * (y 0).val = (y 0).val; omega
  | ⟨1, _⟩ => show win1_7.index t (1 : Fin 2) * 2048 + 1 * (y 1).val = (y 1).val; omega

theorem whole1_8 (t : Fin cfg1.N) : iblk1 V c 8 t = V c main_arg14 := by
  obtain ⟨e0, e1⟩ := idx1_8 t
  funext y
  unfold iblk1
  rw [View.read_apply]
  show V c main_arg14 _ = V c main_arg14 y
  congr 1
  funext a
  apply Fin.ext
  match a with
  | ⟨0, _⟩ => show win1_8.index t (0 : Fin 2) * 1 + 1 * (y 0).val = (y 0).val; omega
  | ⟨1, _⟩ => show win1_8.index t (1 : Fin 2) * 2048 + 1 * (y 1).val = (y 1).val; omega

theorem whole1_9 (t : Fin cfg1.N) : iblk1 V c 9 t = V c main_v17 := by
  obtain ⟨e0, e1⟩ := idx1_9 t
  funext y
  unfold iblk1
  rw [View.read_apply]
  show V c main_v17 _ = V c main_v17 y
  congr 1
  funext a
  apply Fin.ext
  match a with
  | ⟨0, _⟩ => show win1_9.index t (0 : Fin 2) * 2048 + 1 * (y 0).val = (y 0).val; omega
  | ⟨1, _⟩ => show win1_9.index t (1 : Fin 2) * 512 + 1 * (y 1).val = (y 1).val; omega

theorem whole1_10 (t : Fin cfg1.N) : iblk1 V c 10 t = V c main_arg16 := by
  obtain ⟨e0, e1⟩ := idx1_10 t
  funext y
  unfold iblk1
  rw [View.read_apply]
  show V c main_arg16 _ = V c main_arg16 y
  congr 1
  funext a
  apply Fin.ext
  match a with
  | ⟨0, _⟩ => show win1_10.index t (0 : Fin 2) * 1 + 1 * (y 0).val = (y 0).val; omega
  | ⟨1, _⟩ => show win1_10.index t (1 : Fin 2) * 512 + 1 * (y 1).val = (y 1).val; omega

theorem whole1_11 (t : Fin cfg1.N) : iblk1 V c 11 t = V c main_v18 := by
  obtain ⟨e0, e1⟩ := idx1_11 t
  funext y
  unfold iblk1
  rw [View.read_apply]
  show V c main_v18 _ = V c main_v18 y
  congr 1
  funext a
  apply Fin.ext
  match a with
  | ⟨0, _⟩ => show win1_11.index t (0 : Fin 2) * 512 + 1 * (y 0).val = (y 0).val; omega
  | ⟨1, _⟩ => show win1_11.index t (1 : Fin 2) * 512 + 1 * (y 1).val = (y 1).val; omega

theorem whole1_12 (t : Fin cfg1.N) : iblk1 V c 12 t = V c main_arg18 := by
  obtain ⟨e0, e1⟩ := idx1_12 t
  funext y
  unfold iblk1
  rw [View.read_apply]
  show V c main_arg18 _ = V c main_arg18 y
  congr 1
  funext a
  apply Fin.ext
  match a with
  | ⟨0, _⟩ => show win1_12.index t (0 : Fin 2) * 1 + 1 * (y 0).val = (y 0).val; omega
  | ⟨1, _⟩ => show win1_12.index t (1 : Fin 2) * 512 + 1 * (y 1).val = (y 1).val; omega

theorem whole1_13 (t : Fin cfg1.N) : iblk1 V c 13 t = V c main_v19 := by
  obtain ⟨e0, e1⟩ := idx1_13 t
  funext y
  unfold iblk1
  rw [View.read_apply]
  show V c main_v19 _ = V c main_v19 y
  congr 1
  funext a
  apply Fin.ext
  match a with
  | ⟨0, _⟩ => show win1_13.index t (0 : Fin 2) * 512 + 1 * (y 0).val = (y 0).val; omega
  | ⟨1, _⟩ => show win1_13.index t (1 : Fin 2) * 2048 + 1 * (y 1).val = (y 1).val; omega

theorem whole1_14 (t : Fin cfg1.N) : iblk1 V c 14 t = V c main_arg20 := by
  obtain ⟨e0, e1⟩ := idx1_14 t
  funext y
  unfold iblk1
  rw [View.read_apply]
  show V c main_arg20 _ = V c main_arg20 y
  congr 1
  funext a
  apply Fin.ext
  match a with
  | ⟨0, _⟩ => show win1_14.index t (0 : Fin 2) * 1 + 1 * (y 0).val = (y 0).val; omega
  | ⟨1, _⟩ => show win1_14.index t (1 : Fin 2) * 2048 + 1 * (y 1).val = (y 1).val; omega

theorem whole1_15 (t : Fin cfg1.N) : iblk1 V c 15 t = V c main_v20 := by
  obtain ⟨e0, e1⟩ := idx1_15 t
  funext y
  unfold iblk1
  rw [View.read_apply]
  show V c main_v20 _ = V c main_v20 y
  congr 1
  funext a
  apply Fin.ext
  match a with
  | ⟨0, _⟩ => show win1_15.index t (0 : Fin 2) * 2048 + 1 * (y 0).val = (y 0).val; omega
  | ⟨1, _⟩ => show win1_15.index t (1 : Fin 2) * 256 + 1 * (y 1).val = (y 1).val; omega

theorem whole1_16 (t : Fin cfg1.N) : iblk1 V c 16 t = V c main_arg6 := by
  obtain ⟨e0, e1⟩ := idx1_16 t
  funext y
  unfold iblk1
  rw [View.read_apply]
  show V c main_arg6 _ = V c main_arg6 y
  congr 1
  funext a
  apply Fin.ext
  match a with
  | ⟨0, _⟩ => show win1_16.index t (0 : Fin 2) * 1 + 1 * (y 0).val = (y 0).val; omega
  | ⟨1, _⟩ => show win1_16.index t (1 : Fin 2) * 256 + 1 * (y 1).val = (y 1).val; omega

end Blocks

/-- The body's partial sums block is the specification's partial pooled sums. -/
theorem block0_eq (t : Fin cfg1.N) : (iblk1 (V3 m ρ) c 0 t : S256x1024.Idx → EReal) = poolPart (paramsAt m c) :=
  (whole1_0 c (V3 m ρ) t).trans (entry0 m ρ c)

/-- The body's weights are the specification's global weights. -/
theorem weights_eq (t : Fin cfg1.N) :
    weights (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t) (iblk1 (V3 m ρ) c 14 t) (iblk1 (V3 m ρ) c 15 t) (iblk1 (V3 m ρ) c 16 t) = (paramsAt m c).gw := by
  rw [whole1_1 c (V3 m ρ) t, entry1 m ρ c, whole1_2 c (V3 m ρ) t, entry2 m ρ c, whole1_3 c (V3 m ρ) t, entry3 m ρ c, whole1_4 c (V3 m ρ) t, entry4 m ρ c, whole1_5 c (V3 m ρ) t, entry5 m ρ c, whole1_6 c (V3 m ρ) t, entry6 m ρ c, whole1_7 c (V3 m ρ) t, entry7 m ρ c, whole1_8 c (V3 m ρ) t, entry8 m ρ c, whole1_9 c (V3 m ρ) t, entry9 m ρ c, whole1_10 c (V3 m ρ) t, entry10 m ρ c, whole1_11 c (V3 m ρ) t, entry11 m ρ c, whole1_12 c (V3 m ρ) t, entry12 m ρ c, whole1_13 c (V3 m ρ) t, entry13 m ρ c, whole1_14 c (V3 m ρ) t, entry14 m ρ c, whole1_15 c (V3 m ρ) t, entry15 m ρ c, whole1_16 c (V3 m ρ) t, entry16 m ρ c]
  rfl

end Cert.ReferenceIdeal.Reg1

end
-- ==== Proof.RReg1.lean ====
/-
  Region 1 of the reference: what its output array holds when the region ends.

  The one grid point reads the partial pooled sums and the global branch's weights, each window whole, and writes the
  whole output array: the global branch of the pooled rows, which is the specification's global output.
-/
import proofs.«104311_g2000204771767084_pallasbulk_517_4_alg».proof.Proof.RIn1

set_option maxRecDepth 16384

noncomputable section

open scoped BigOperators

namespace Cert.ReferenceIdeal.Reg1

open Idealize.ShloMosaic Idealize.ShloMosaic.TcCoe Idealize.ShloMosaic.ValueIdx Idealize.ShloMosaic.Pipeline Idealize.SL.Sem
open Cert.ReferenceIdeal Cert.ReferenceIdeal.Gen Cert.Linear Cert.Enc Cert.ReferenceIdeal.Reg0 Cert.ReferenceIdeal.Body1

variable (m : (ℓ : Loc nD τ sig) → Buf (Elt Ideal) ℓ) (ρ : Dev nD → PrngReg) (c : Dev nD)

/-- The body on the specification's partial sums and global weights leaves the specification's global output. -/
theorem global_point (P : Params) (x0 : Arr 256 1024) (x1 : Arr 1024 2048) (x2 : Arr 1 2048) (x3 : Arr 2048 512) (x4 : Arr 1 512) (x5 : Arr 512 512) (x6 : Arr 1 512) (x7 : Arr 512 2048) (x8 : Arr 1 2048) (x9 : Arr 2048 512) (x10 : Arr 1 512) (x11 : Arr 512 512) (x12 : Arr 1 512) (x13 : Arr 512 2048) (x14 : Arr 1 2048) (x15 : Arr 2048 256) (x16 : Arr 1 256)
    (h0 : x0 = poolPart P) (hW : weights x1 x2 x3 x4 x5 x6 x7 x8 x9 x10 x11 x12 x13 x14 x15 x16 = P.gw) :
    out1_17 (F := Ideal) x0 x1 x2 x3 x4 x5 x6 x7 x8 x9 x10 x11 x12 x13 x14 x15 x16 = globalOut P := by
  rw [out1_17_eq, hW, h0, poolOps_poolPart]
  rfl

/-- The output window's block is its whole array. -/
theorem read17 (G : Arr 32 256) (t : Fin cfg1.N) (y : S32x256.Idx) :
    ((cfg1.win 17).blk t).view.read (Elt Ideal) G y = G y := by
  obtain ⟨e0, e1⟩ := idx1_17 t
  rw [View.read_apply]
  show G _ = G y
  congr 1
  funext a
  apply Fin.ext
  match a with
  | ⟨0, _⟩ => show win1_17.index t (0 : Fin 2) * 32 + 1 * (y 0).val = (y 0).val; omega
  | ⟨1, _⟩ => show win1_17.index t (1 : Fin 2) * 256 + 1 * (y 1).val = (y 1).val; omega

/-- The point writes back the specification's global output. -/
theorem flushed17_eq (t : Fin cfg1.N) :
    (dat1 (V3 m ρ) c).flushed 17 t = ((cfg1.win 17).blk t).view.read (Elt Ideal) (globalOut (paramsAt m c)) := by
  show (cfg1.win 17).cut (grid1.coords t) ((dat1 (V3 m ρ) c).after 17 t) = _
  rw [after1_17]
  funext y
  rw [read17]
  show out1_17 (F := Ideal) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t) (iblk1 (V3 m ρ) c 14 t) (iblk1 (V3 m ρ) c 15 t) (iblk1 (V3 m ρ) c 16 t) y = _
  exact congrFun (global_point (paramsAt m c) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t) (iblk1 (V3 m ρ) c 14 t) (iblk1 (V3 m ρ) c 15 t) (iblk1 (V3 m ρ) c 16 t)
    (block0_eq m ρ c t) (weights_eq m ρ c t)) y

theorem mem_blk17 (t : Fin cfg1.N) (i : S32x256.Idx) :
    i ∈ ((cfg1.win 17).blk t).view.set ↔ ∀ a : Fin 2, win1_17.index t a * S32x256.size a ≤ (i a).val ∧ (i a).val < win1_17.index t a * S32x256.size a + S32x256.size a := by
  show i ∈ ((View.whole main_v21).slice (win1_17.rect t)).set ↔ _
  rw [View.set_slice_whole, Rect.mem_set_unit]
  exact Iff.rfl

/-- The one point's block covers the output array. -/
theorem cover17 (i : S32x256.Idx) : ∃ t : Fin cfg1.N, (cfg1.win 17).flush t = true ∧ i ∈ ((cfg1.win 17).blk t).view.set := by
  have h0 : (i 0).val < 32 := (i 0).isLt
  have h1 : (i 1).val < 256 := (i 1).isLt
  obtain ⟨e0, e1⟩ := idx1_17 t1_0
  refine ⟨t1_0, flush1_17 t1_0, ?_⟩
  rw [mem_blk17]
  intro a
  match a with
  | ⟨0, _⟩ => show win1_17.index t1_0 (0 : Fin 2) * 32 ≤ (i 0).val ∧ (i 0).val < win1_17.index t1_0 (0 : Fin 2) * 32 + 32; omega
  | ⟨1, _⟩ => show win1_17.index t1_0 (1 : Fin 2) * 256 ≤ (i 1).val ∧ (i 1).val < win1_17.index t1_0 (1 : Fin 2) * 256 + 256; omega

/-- The output array ends holding the specification's global output. -/
theorem final17 : (dat1 (V3 m ρ) c).arrAt 17 cfg1.N = globalOut (paramsAt m c) :=
  (dat1 (V3 m ρ) c).arrAt_eq_of_cover 17 (globalOut (paramsAt m c)) (fun t _ => flushed17_eq m ρ c t) cover17

end Cert.ReferenceIdeal.Reg1

end
-- ==== Proof.RFinal.lean ====
/-
  The reference's result array, as the specification's encoder of the argument arrays.

  After region 1 the host broadcasts the global output [32,256] to [32,1,256], reshapes the local output [8192,256] to
  [32,256,256], and concatenates the two along axis 1: for image `b`, position 0 is the global row and position `p ≥ 1`
  is the local row `256·b + p − 1`. Region 1 and the host operations between the regions leave the local output where
  region 0 put it.
-/
import proofs.«104311_g2000204771767084_pallasbulk_517_4_alg».proof.Proof.RReg1

set_option maxRecDepth 16384

noncomputable section

open scoped BigOperators

namespace Cert.ReferenceIdeal.Final

open Idealize.ShloMosaic Idealize.ShloMosaic.TcCoe Idealize.ShloMosaic.ValueIdx Idealize.ShloMosaic.Pipeline Idealize.SL.Sem
open Cert.ReferenceIdeal Cert.ReferenceIdeal.Gen Cert.Linear Cert.Enc Cert.ReferenceIdeal.Reg0

variable (m : (ℓ : Loc nD τ sig) → Buf (Elt Ideal) ℓ) (ρ : Dev nD → PrngReg) (c : Dev nD)

/-- The host tail on a global output and a local output: the global rows as one position each, the local rows as 256
    positions per image, put side by side along the positions. -/
def assemble (g : Arr 32 256) (l : Arr 8192 256) : SOut.Idx → EReal :=
  concatenate S32x257x256 1
    [⟨S32x1x256, broadcastInDim S32x1x256 ![0, 2] bcast_S32x256_S32x1x256_0_2 g⟩,
     ⟨S32x256x256, shapeCast S32x256x256 l shapeCasts_S8192x256_S32x256x256⟩]
    concatenates_S32x1x256_S32x256x256_S32x257x256_d1

/-- Read at an index: position 0 is the global row of the image, position `p ≥ 1` its local row `p − 1`. -/
theorem assemble_apply (g : Arr 32 256) (l : Arr 8192 256) (i : SOut.Idx) :
    assemble g l i = if (i 1).val = 0 then g (ix2 (n0 := 32) (n1 := 256) (i 0) (i 2))
      else l (ix2 (n0 := 8192) (n1 := 256)
        ⟨(i 0).val * 256 + ((i 1).val - 1), by have h0 : (i 0).val < 32 := (i 0).isLt; have h1 : (i 1).val < 257 := (i 1).isLt; omega⟩ (i 2)) := by
  have h0 : (i 0).val < 32 := (i 0).isLt
  have h1 : (i 1).val < 257 := (i 1).isLt
  have h2 : (i 2).val < 256 := (i 2).isLt
  unfold assemble
  by_cases h : (i 1).val = 0
  · rw [if_pos h]
    refine (concatenate_pair_apply_left (t := S32x257x256) (s₁ := S32x1x256) (s₂ := S32x256x256) (1 : Fin 3) _ _ _ i rfl
      (ix3 (n0 := 32) (n1 := 1) (n2 := 256) (i 0) 0 (i 2)) ?_).trans ?_
    · intro b
      match b with
      | ⟨0, _⟩ => rfl
      | ⟨1, _⟩ => exact h.symm
      | ⟨2, _⟩ => rfl
    · refine broadcastInDim_apply _ _ g _ (ix2 (n0 := 32) (n1 := 256) (i 0) (i 2)) ?_
      intro a
      match a with
      | ⟨0, _⟩ => exact (if_neg (show ¬ ((32 : Nat) = 1) from by decide)).symm
      | ⟨1, _⟩ => exact (if_neg (show ¬ ((256 : Nat) = 1) from by decide)).symm
  · rw [if_neg h]
    refine (concatenate_pair_apply_right (t := S32x257x256) (s₁ := S32x1x256) (s₂ := S32x256x256) (1 : Fin 3) _ _ _ i rfl rfl
      (ix3 (n0 := 32) (n1 := 256) (n2 := 256) (i 0) ⟨(i 1).val - 1, by omega⟩ (i 2)) ?_ ?_).trans ?_
    · intro b hb
      match b with
      | ⟨0, _⟩ => rfl
      | ⟨1, _⟩ => exact absurd rfl hb
      | ⟨2, _⟩ => rfl
    · show ((i 1).val - 1) + 1 = (i 1).val
      omega
    · refine shapeCast_apply l shapeCasts_S8192x256_S32x256x256 _ _ ?_
      rw [Shape.rowMajor_val_two, Shape.rowMajor_val_three]
      rfl

/-- The tail of the specification's two outputs is the specification's result. -/
theorem assemble_spec (P : Params) : assemble (globalOut P) (localOut P) = encoder P :=
  funext fun i => assemble_apply _ _ i

/-- The local output array, when the program reaches its tail, is as region 0 left it. -/
theorem tail_local : (W4 m ρ c (Proc.devRef .tc main_v12_0) : S8192x256.Idx → EReal) = localOut (paramsAt m c) := by
  refine (W4_of_ne m ρ c main_v12_0 (by decide)).trans ?_
  dsimp only [W3, hostOps1]
  after_results
  exact (W2_arr m ρ c 17).trans (Reg0.final17 m ρ c)

/-- The global output array, when the program reaches its tail, is as region 1 left it. -/
theorem tail_global : (W4 m ρ c (Proc.devRef .tc main_v21) : S32x256.Idx → EReal) = globalOut (paramsAt m c) :=
  (W4_arr m ρ c 17).trans (Reg1.final17 m ρ c)

/-- The reference's result array is the specification's encoder of the argument arrays. -/
theorem result : W5 m ρ c (Proc.devRef .tc main_v24)
    = encoder (paramsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32))) := by
  show W5 m ρ c (Proc.devRef .tc main_v24) = encoder (paramsAt m c)
  dsimp only [W5, hostOps2]
  after_results
  show assemble (W4 m ρ c (Proc.devRef .tc main_v21)) (W4 m ρ c (Proc.devRef .tc main_v12_0)) = _
  rw [tail_local, tail_global]
  exact assemble_spec _

end Cert.ReferenceIdeal.Final

end
-- ==== Proof.lean ====
/-
  The certificate of the encoder kernel against its reference.

  Both programs compute, at the ideal instance (floats are extended reals, every operation exact, every change of
  float format the identity), ONE function of their thirty-three argument arrays: `Cert.Enc.encoder` (Proof/Whole.lean).
  The image batch is cut into 16 × 16 patches; each patch row is embedded by the stem; the local branch (two residual
  bottlenecks and a projection) of each embedded row is a row of the result; the embedded rows of each image are
  averaged and sent through the global branch (a head, two residual bottlenecks, a last dense layer), which gives the
  image's first row of the result. The two programs differ only in how they tile this: the kernel embeds 1024 patch
  rows per grid point and assembles the result 8 images at a time inside its second region; the reference embeds 512
  rows per grid point, runs the global branch once for all 32 images and concatenates on the host. Every layer acts on
  the rows of a matrix one by one (Proof/Spec.lean, `RowsOf`), so a block of rows goes to the same block of rows of the
  whole-matrix function whatever the block size, and the partial pooled sums are the same finite sums of the same
  terms. No algebraic law beyond this bookkeeping is needed, and no finiteness of the inputs: the precondition is never
  opened.

  The frames are the generated ones. `preserves` is trivial (the idealization rewrote nothing). For `algebraic`, each
  program's run with its result array named (Proof/KRun.lean, Proof/RRun.lean) is re-posted at `encoder` of its own
  arguments (Proof/KReg1.lean `result`, Proof/RFinal.lean `result`), and the arguments agree.
-/
import proofs.«104311_g2000204771767084_pallasbulk_517_4_alg».proof.Defs
import proofs.«104311_g2000204771767084_pallasbulk_517_4_alg».proof.Proof.Gen.Kernel
import proofs.«104311_g2000204771767084_pallasbulk_517_4_alg».proof.Proof.Gen.Kernel.Skeleton
import proofs.«104311_g2000204771767084_pallasbulk_517_4_alg».proof.Proof.Gen.Kernel.Launch
import proofs.«104311_g2000204771767084_pallasbulk_517_4_alg».proof.Proof.Gen.Kernel.Points
import proofs.«104311_g2000204771767084_pallasbulk_517_4_alg».proof.Proof.Gen.Kernel.Frame
import proofs.«104311_g2000204771767084_pallasbulk_517_4_alg».proof.Proof.Gen.KernelIdeal
import proofs.«104311_g2000204771767084_pallasbulk_517_4_alg».proof.Proof.Gen.KernelIdeal.Skeleton
import proofs.«104311_g2000204771767084_pallasbulk_517_4_alg».proof.Proof.Gen.KernelIdeal.Launch
import proofs.«104311_g2000204771767084_pallasbulk_517_4_alg».proof.Proof.Gen.KernelIdeal.Points
import proofs.«104311_g2000204771767084_pallasbulk_517_4_alg».proof.Proof.Gen.KernelIdeal.Frame
import proofs.«104311_g2000204771767084_pallasbulk_517_4_alg».proof.Proof.Gen.ReferenceIdeal
import proofs.«104311_g2000204771767084_pallasbulk_517_4_alg».proof.Proof.Gen.ReferenceIdeal.Skeleton
import proofs.«104311_g2000204771767084_pallasbulk_517_4_alg».proof.Proof.Gen.ReferenceIdeal.Launch
import proofs.«104311_g2000204771767084_pallasbulk_517_4_alg».proof.Proof.Gen.ReferenceIdeal.Points
import proofs.«104311_g2000204771767084_pallasbulk_517_4_alg».proof.Proof.Gen.ReferenceIdeal.Frame
import proofs.«104311_g2000204771767084_pallasbulk_517_4_alg».proof.Proof.Gen.Pre_finite_inputs
import proofs.«104311_g2000204771767084_pallasbulk_517_4_alg».proof.Proof.KRun
import proofs.«104311_g2000204771767084_pallasbulk_517_4_alg».proof.Proof.RRun
import proofs.«104311_g2000204771767084_pallasbulk_517_4_alg».proof.Proof.KReg1
import proofs.«104311_g2000204771767084_pallasbulk_517_4_alg».proof.Proof.RFinal
import Idealize.ShloMosaic.Adequacy
import Idealize.ShloMosaic.Init

noncomputable section

namespace Cert.Proof

open Idealize.ShloMosaic Idealize.ShloMosaic.TcCoe Idealize.SL.Sem Cert.Enc

/-- The kernel's frame: the generated one. -/
theorem frame_k : Cert.frame_Kernel := fun m ρ _ => Cert.Kernel.Gen.frame m ρ

/-- The idealized kernel's frame: the generated one. -/
theorem frame_ki : Cert.frame_KernelIdeal := fun m ρ _ => Cert.KernelIdeal.Gen.frame m ρ

/-- The idealized reference's frame: the generated one. -/
theorem frame_ri : Cert.frame_ReferenceIdeal := fun m ρ _ => Cert.ReferenceIdeal.Gen.frame m ρ

/-- Equal argument arrays give equal parameters. -/
theorem paramsOf_congr {a0 a1 a2 a3 a4 a5 a6 a7 a8 a9 a10 a11 a12 a13 a14 a15 a16 a17 a18 a19 a20 a21 a22 a23 a24 a25 a26 a27 a28 a29 a30 a31 a32 b0 b1 b2 b3 b4 b5 b6 b7 b8 b9 b10 b11 b12 b13 b14 b15 b16 b17 b18 b19 b20 b21 b22 b23 b24 b25 b26 b27 b28 b29 b30 b31 b32 : _}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) (h25 : a25 = b25) (h26 : a26 = b26) (h27 : a27 = b27) (h28 : a28 = b28) (h29 : a29 = b29) (h30 : a30 = b30) (h31 : a31 = b31) (h32 : a32 = b32) :
    paramsOf a0 a1 a2 a3 a4 a5 a6 a7 a8 a9 a10 a11 a12 a13 a14 a15 a16 a17 a18 a19 a20 a21 a22 a23 a24 a25 a26 a27 a28 a29 a30 a31 a32 = paramsOf b0 b1 b2 b3 b4 b5 b6 b7 b8 b9 b10 b11 b12 b13 b14 b15 b16 b17 b18 b19 b20 b21 b22 b23 b24 b25 b26 b27 b28 b29 b30 b31 b32 := by
  subst_vars; rfl

/-- Both idealized programs end with the encoder's result of their arguments, and the arguments agree. -/
theorem algebraic : Cert.algebraic_KernelIdeal_ReferenceIdeal := by
  intro m ρ m' ρ' _ hagree
  refine ⟨fun c => encoder (Cert.KernelIdeal.Reg0.params m c), ?_, ?_⟩
  · exact (θ_run Cert.KernelIdeal.defs _ _).mono
      (fun r h c => ⟨(h c).1.trans (Cert.KernelIdeal.Reg1.result m ρ c), (h c).2⟩)
      (Cert.KernelIdeal.Named.run (F := Ideal) m ρ)
  · refine (θ_run Cert.ReferenceIdeal.defs _ _).mono
      (fun r h c => ⟨(h c).1.trans ?_, (h c).2⟩)
      (Cert.ReferenceIdeal.Named.run (F := Ideal) m' ρ')
    obtain ⟨h0, h1, h2, h3, h4, h5, h6, h7, h8, h9, h10, h11, h12, h13, h14, h15, h16, h17, h18, h19, h20, h21, h22, h23, h24, h25, h26, h27, h28, h29, h30, h31, h32⟩ := hagree c
    exact (Cert.ReferenceIdeal.Final.result m' ρ' c).trans (congrArg encoder (paramsOf_congr h0 h1 h2 h3 h4 h5 h6 h7 h8 h9 h10 h11 h12 h13 h14 h15 h16 h17 h18 h19 h20 h21 h22 h23 h24 h25 h26 h27 h28 h29 h30 h31 h32))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
